-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v42)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S64x512 : Shape := ⟨2, ![64, 512]⟩
abbrev S512 : Shape := ⟨1, ![512]⟩
abbrev S512x128 : Shape := ⟨2, ![512, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_

variable [Facts]

def fn_part2 {F : FTy → Type} [FloatOps F] (main_arg8 : FVec F S512x128 .f32) (main_arg9 : FVec F S128 .f32) (main_v33 : IVec S_ 1) : IVec S_ 1 :=
  let main_v34 : FVec F S512x128 .f32 := Host.absf main_arg8
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S64x512 .f32) (main_arg7 : FVec F S512 .f32) (main_arg8 : FVec F S512x128 .f32) (main_arg9 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x512 .f32 := Host.absf main_arg6
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1000000 32) (main_arg2 : FVec F S64x128 .f32) (main_arg3 : FVec F S128 .f32) (main_arg4 : FVec F S64x128 .f32) (main_arg5 : FVec F S128 .f32) (main_arg6 : FVec F S64x512 .f32) (main_arg7 : FVec F S512 .f32) (main_arg8 : FVec F S512x128 .f32) (main_arg9 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S64x512 : Shape := ⟨2, ![64, 512]⟩
abbrev S512 : Shape := ⟨1, ![512]⟩
abbrev S512x128 : Shape := ⟨2, ![512, 128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x1 : Shape := ⟨2, ![100000, 1]⟩
abbrev S1x128 : Shape := ⟨2, ![1, 128]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1x512 : Shape := ⟨2, ![1, 512]⟩
abbrev S4000x64 : Shape := ⟨2, ![4000, 64]⟩
abbrev S4000x128 : Shape := ⟨2, ![4000, 128]⟩
abbrev S4000x512 : Shape := ⟨2, ![4000, 512]⟩

abbrev nBuf : Space → Nat
  | .hbm => 69
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S64x512, .f32⟩
  | .hbm, ⟨7, _⟩ => ⟨S512, .f32⟩
  | .hbm, ⟨8, _⟩ => ⟨S512x128, .f32⟩
  | .hbm, ⟨9, _⟩ => ⟨S128, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .f32⟩
  | .hbm, ⟨15, _⟩ => ⟨S1000000x1, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x64, .f32⟩
  | .hbm, ⟨25, _⟩ => ⟨S_, .f32⟩
  | .hbm, ⟨26, _⟩ => ⟨S100000x64, .f32⟩
  | .hbm, ⟨27, _⟩ => ⟨S1000000x1, .i32⟩
  | .hbm, ⟨28, _⟩ => ⟨S100000x64, .f32⟩
  | .hbm, ⟨29, _⟩ => ⟨S_, .f32⟩
  | .hbm, ⟨30, _⟩ => ⟨S100000x1, .f32⟩
  | .hbm, ⟨31, _⟩ => ⟨S1000000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x64, .f32⟩
  | .hbm, ⟨48, _⟩ => ⟨S_, .f32⟩
  | .hbm, ⟨49, _⟩ => ⟨S100000x64, .f32⟩
  | .hbm, ⟨50, _⟩ => ⟨S1000000x1, .i32⟩
  | .hbm, ⟨51, _⟩ => ⟨S100000x64, .f32⟩
  | .hbm, ⟨52, _⟩ => ⟨S_, .f32⟩
  | .hbm, ⟨53, _⟩ => ⟨S100000x1, .f32⟩
  | .hbm, ⟨54, _⟩ => ⟨S1000000x1, .i32⟩
  | .hbm, ⟨55, _⟩ => ⟨S100000x1, .f32⟩
  | .hbm, ⟨56, _⟩ => ⟨S_, .f32⟩
  | .hbm, ⟨57, _⟩ => ⟨S100000x1, .f32⟩
  | .hbm, ⟨58, _⟩ => ⟨S100000x1, .f32⟩
  | .hbm, ⟨59, _⟩ => ⟨S_, .f32⟩
  | .hbm, ⟨60, _⟩ => ⟨S100000x1, .f32⟩
  | .hbm, ⟨61, _⟩ => ⟨S100000x1, .f32⟩
  | .hbm, ⟨62, _⟩ => ⟨S1x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S1x512, .f32⟩
  | .hbm, ⟨67, _⟩ => ⟨S1x128, .f32⟩
  | .hbm, ⟨68, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S64x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S4000x64, .f32⟩
  | .local _ .vmem, ⟨17, _⟩ => ⟨S4000x64, .f32⟩
  | .local _ .vmem, ⟨18, _⟩ => ⟨S64x512, .f32⟩
  | .local _ .vmem, ⟨19, _⟩ => ⟨S1x512, .f32⟩
  | .local _ .vmem, ⟨20, _⟩ => ⟨S512x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000x1 : S_.BroadcastsInDim S1000000x1 (![] : Fin 0 → Fin S1000000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000x1 : S_.BroadcastsInDim S100000x1 (![] : Fin 0 → Fin S100000x1.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S512_S1x512 : S512.ShapeCasts S1x512
  inb_S4000x64_S4000x64_0_0 : ∀ a, (![0, 0] : Fin 2 → Nat) a + S4000x64.size a ≤ S4000x64.size a
  h_S4000x64 : 0 < S4000x64.numel
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  inb_S512x128_S512x128_0_0 : ∀ a, (![0, 0] : Fin 2 → Nat) a + S512x128.size a ≤ S512x128.size a
  h_S512x128 : 0 < S512x128.numel
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S5000x64_S64x128_S5000x128_1_0_0_1_n_n_wf : DotDims.WF S5000x64 S64x128 S5000x128 [1] [0] [0] [1] [] []
  dot_S4000x64_S64x512_S4000x512_1_0_0_1_n_n_wf : DotDims.WF S4000x64 S64x512 S4000x512 [1] [0] [0] [1] [] []
  dot_S4000x512_S512x128_S4000x128_1_0_0_1_n_n_wf : DotDims.WF S4000x512 S512x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x512.size a ≤ S64x512.size a
  hwx2_1 : ∀ i : grid2.Coords, EltTy.bits .f32 = 32 ∨ (Rect.block (s := S64x512) S64x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S512x128.size a
  hwx2_3 : ∀ i : grid2.Coords, EltTy.bits .f32 = 32 ∨ (Rect.block (s := S512x128) S512x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S4000x64_S64x512_S4000x512_1_0_0_1_n_n : DotDims S4000x64 S64x512 S4000x512 where
  lhsContracting := [1]
  rhsContracting := [0]
  lhsNonContracting := [0]
  rhsNonContracting := [1]
  lhsBatch := []
  rhsBatch := []
  wf := dot_S4000x64_S64x512_S4000x512_1_0_0_1_n_n_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf

abbrev win0_0 : Pipeline.Window sig grid0 :=
  Pipeline.Window.ofSpec (Memref.whole main_v14) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v31) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S512x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S64x512 : Shape := ⟨2, ![64, 512]⟩
abbrev S512 : Shape := ⟨1, ![512]⟩
abbrev S512x128 : Shape := ⟨2, ![512, 128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x1 : Shape := ⟨2, ![100000, 1]⟩
abbrev S100000x128 : Shape := ⟨2, ![100000, 128]⟩
abbrev S1x128 : Shape := ⟨2, ![1, 128]⟩
abbrev S100000x512 : Shape := ⟨2, ![100000, 512]⟩
abbrev S1x512 : Shape := ⟨2, ![1, 512]⟩

abbrev nBuf : Space → Nat
  | .hbm => 138
  | .vmem => 0
  | .smem => 0
  | _ => 0

abbrev hbmTy0_0 (i : Nat) : BufTy := match i % 128 with
  | 0 => ⟨S100000x64, .f32⟩
  | 1 => ⟨S2x1000000, .i32⟩
  | 2 => ⟨S64x128, .f32⟩
  | 3 => ⟨S128, .f32⟩
  | 4 => ⟨S64x128, .f32⟩
  | 5 => ⟨S128, .f32⟩
  | 6 => ⟨S64x512, .f32⟩
  | 7 => ⟨S512, .f32⟩
  | 8 => ⟨S512x128, .f32⟩
  | 9 => ⟨S128, .f32⟩
  | 10 => ⟨S1x1000000, .i32⟩
  | 11 => ⟨S1000000, .i32⟩
  | 12 => ⟨S1x1000000, .i32⟩
  | 13 => ⟨S1000000, .i32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S_, .f32⟩
  | 24 => ⟨S100000x64, .f32⟩
  | 25 => ⟨S1000000x1, .i32⟩
  | 26 => ⟨S100000x64, .f32⟩
  | 27 => ⟨S_, .f32⟩
  | 28 => ⟨S1000000x1, .f32⟩
  | 29 => ⟨S_, .f32⟩
  | 30 => ⟨S100000x1, .f32⟩
  | 31 => ⟨S1000000x1, .i32⟩
  | 32 => ⟨S100000x1, .f32⟩
  | 33 => ⟨S_, .f32⟩
  | 34 => ⟨S100000x1, .f32⟩
  | 35 => ⟨S100000x1, .f32⟩
  | 36 => ⟨S100000x64, .f32⟩
  | 37 => ⟨S100000x64, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .i1⟩
  | 45 => ⟨S_, .f32⟩
  | 46 => ⟨S100000x128, .f32⟩
  | 47 => ⟨S100000x128, .i1⟩
  | 48 => ⟨S_, .f32⟩
  | 49 => ⟨S_, .f32⟩
  | 50 => ⟨S100000x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S100000x128, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x64, .f32⟩
  | 66 => ⟨S_, .f32⟩
  | 67 => ⟨S100000x64, .f32⟩
  | 68 => ⟨S1000000x1, .i32⟩
  | 69 => ⟨S100000x64, .f32⟩
  | 70 => ⟨S_, .f32⟩
  | 71 => ⟨S1000000x1, .f32⟩
  | 72 => ⟨S_, .f32⟩
  | 73 => ⟨S100000x1, .f32⟩
  | 74 => ⟨S1000000x1, .i32⟩
  | 75 => ⟨S100000x1, .f32⟩
  | 76 => ⟨S_, .f32⟩
  | 77 => ⟨S100000x1, .f32⟩
  | 78 => ⟨S100000x1, .f32⟩
  | 79 => ⟨S100000x64, .f32⟩
  | 80 => ⟨S100000x64, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .i1⟩
  | 88 => ⟨S_, .f32⟩
  | 89 => ⟨S100000x128, .f32⟩
  | 90 => ⟨S100000x128, .i1⟩
  | 91 => ⟨S_, .f32⟩
  | 92 => ⟨S_, .f32⟩
  | 93 => ⟨S100000x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S100000x512, .f32⟩
  | 101 => ⟨S1x512, .f32⟩
  | 102 => ⟨S100000x512, .f32⟩
  | 103 => ⟨S100000x512, .f32⟩
  | 104 => ⟨S_, .f32⟩
  | 105 => ⟨S100000x512, .f32⟩
  | 106 => ⟨S100000x512, .i1⟩
  | 107 => ⟨S_, .f32⟩
  | 108 => ⟨S100000x512, .f32⟩
  | 109 => ⟨S100000x512, .i1⟩
  | 110 => ⟨S_, .f32⟩
  | 111 => ⟨S_, .f32⟩
  | 112 => ⟨S100000x512, .f32⟩
  | 113 => ⟨S100000x512, .f32⟩
  | 114 => ⟨S100000x512, .f32⟩
  | 115 => ⟨S_, .f32⟩
  | 116 => ⟨S100000x512, .f32⟩
  | 117 => ⟨S100000x512, .f32⟩
  | 118 => ⟨S100000x512, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .i1⟩
  | 126 => ⟨S_, .f32⟩
  | 127 => ⟨S100000x128, .f32⟩
  | _ => ⟨S100000x64, .f32⟩

abbrev hbmTy0_1 (i : Nat) : BufTy := match i % 128 with
  | 0 => ⟨S100000x128, .i1⟩
  | 1 => ⟨S_, .f32⟩
  | 2 => ⟨S_, .f32⟩
  | 3 => ⟨S100000x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S100000x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_cst_1 : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_v4 : Ref sig .tc := ⟨.hbm, 51, rfl⟩
abbrev main_call0_v5 : Ref sig .tc := ⟨.hbm, 52, rfl⟩
abbrev main_call0_cst_2 : Ref sig .tc := ⟨.hbm, 53, rfl⟩
abbrev main_call0_v6 : Ref sig .tc := ⟨.hbm, 54, rfl⟩
abbrev main_call0_v7 : Ref sig .tc := ⟨.hbm, 55, rfl⟩
abbrev main_v26 : Ref sig .tc := ⟨.hbm, 56, rfl⟩
abbrev main_c_4 : Ref sig .tc := ⟨.hbm, 57, rfl⟩
abbrev main_v27 : Ref sig .tc := ⟨.hbm, 58, rfl⟩
abbrev main_v28 : Ref sig .tc := ⟨.hbm, 59, rfl⟩
abbrev main_c_5 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_6 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_7 : Ref sig .tc := ⟨.hbm, 70, rfl⟩
abbrev main_v37 : Ref sig .tc := ⟨.hbm, 71, rfl⟩
abbrev main_cst_8 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_9 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_cst_1 : Ref sig .tc := ⟨.hbm, 91, rfl⟩
abbrev main_call1_call0_v0 : Ref sig .tc := ⟨.hbm, 92, rfl⟩
abbrev main_call1_call0_v1 : Ref sig .tc := ⟨.hbm, 93, rfl⟩
abbrev main_call1_v4 : Ref sig .tc := ⟨.hbm, 94, rfl⟩
abbrev main_call1_v5 : Ref sig .tc := ⟨.hbm, 95, rfl⟩
abbrev main_call1_cst_2 : Ref sig .tc := ⟨.hbm, 96, rfl⟩
abbrev main_call1_v6 : Ref sig .tc := ⟨.hbm, 97, rfl⟩
abbrev main_call1_v7 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_cst_0 : Ref sig .tc := ⟨.hbm, 107, rfl⟩
abbrev main_call2_v2 : Ref sig .tc := ⟨.hbm, 108, rfl⟩
abbrev main_call2_v3 : Ref sig .tc := ⟨.hbm, 109, rfl⟩
abbrev main_call2_cst_1 : Ref sig .tc := ⟨.hbm, 110, rfl⟩
abbrev main_call2_call0_v0 : Ref sig .tc := ⟨.hbm, 111, rfl⟩
abbrev main_call2_call0_v1 : Ref sig .tc := ⟨.hbm, 112, rfl⟩
abbrev main_call2_v4 : Ref sig .tc := ⟨.hbm, 113, rfl⟩
abbrev main_call2_v5 : Ref sig .tc := ⟨.hbm, 114, rfl⟩
abbrev main_call2_cst_2 : Ref sig .tc := ⟨.hbm, 115, rfl⟩
abbrev main_call2_v6 : Ref sig .tc := ⟨.hbm, 116, rfl⟩
abbrev main_call2_v7 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_call3_cst : Ref sig .tc := ⟨.hbm, 123, rfl⟩
abbrev main_call3_v0 : Ref sig .tc := ⟨.hbm, 124, rfl⟩
abbrev main_call3_v1 : Ref sig .tc := ⟨.hbm, 125, rfl⟩
abbrev main_call3_cst_0 : Ref sig .tc := ⟨.hbm, 126, rfl⟩
abbrev main_call3_v2 : Ref sig .tc := ⟨.hbm, 127, rfl⟩
abbrev main_call3_v3 : Ref sig .tc := ⟨.hbm, 128, rfl⟩
abbrev main_call3_cst_1 : Ref sig .tc := ⟨.hbm, 129, rfl⟩
abbrev main_call3_call0_v0 : Ref sig .tc := ⟨.hbm, 130, rfl⟩
abbrev main_call3_call0_v1 : Ref sig .tc := ⟨.hbm, 131, rfl⟩
abbrev main_call3_v4 : Ref sig .tc := ⟨.hbm, 132, rfl⟩
abbrev main_call3_v5 : Ref sig .tc := ⟨.hbm, 133, rfl⟩
abbrev main_call3_cst_2 : Ref sig .tc := ⟨.hbm, 134, rfl⟩
abbrev main_call3_v6 : Ref sig .tc := ⟨.hbm, 135, rfl⟩
abbrev main_call3_v7 : Ref sig .tc := ⟨.hbm, 136, rfl⟩
abbrev main_v59 : Ref sig .tc := ⟨.hbm, 137, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S1000000x1 : S_.BroadcastsInDim S1000000x1 (![] : Fin 0 → Fin S1000000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S100000x64_S64x128_S100000x128_1_0_0_1_n_n_wf : DotDims.WF S100000x64 S64x128 S100000x128 [1] [0] [0] [1] [] []
  dot_S100000x64_S64x512_S100000x512_1_0_0_1_n_n_wf : DotDims.WF S100000x64 S64x512 S100000x512 [1] [0] [0] [1] [] []
  dot_S100000x512_S512x128_S100000x128_1_0_0_1_n_n_wf : DotDims.WF S100000x512 S512x128 S100000x128 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x64_S64x512_S100000x512_1_0_0_1_n_n : DotDims S100000x64 S64x512 S100000x512 where
  lhsContracting := [1]
  rhsContracting := [0]
  lhsNonContracting := [0]
  rhsNonContracting := [1]
  lhsBatch := []
  rhsBatch := []
  wf := dot_S100000x64_S64x512_S100000x512_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf

class Facts : Prop extends Facts₀ where

variable [Facts]
-- ==== Proof.KerRun.lean ====
/-
  The idealized kernel program's run with its three result arrays named.

  @main is six segments: a stretch of host operations, the first aggregated branch's region, one host re-lay, the second
  branch's region, two host re-lays, the self branch's region. Every weakly fair execution runs them in order and ends with
  every unscoped buffer at the last boundary's contents `W6`; read at the three result buffers and at the ten argument
  buffers (which no segment writes), that is this theorem's post.
-/
import proofs.«177135_j28054726378292_2_alg».proof.Proof.Gen.KernelIdeal.Frame

set_option maxRecDepth 16384

noncomputable section

namespace Cert.Sage.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the three result arrays at the last boundary's
    contents and the argument arrays as launched. -/
theorem run_results : θ_run defs (onTc (τ := τ) (main (F := F))) ⟨m, fun _ => 0, ρ⟩ (fun r => ∀ c : Dev nD,
      r.2.mem ((c.tc : Thread nD τ).loc main_v40) = W6 m ρ c (Proc.devRef .tc main_v40)
      ∧ r.2.mem ((c.tc : Thread nD τ).loc main_v42) = W6 m ρ c (Proc.devRef .tc main_v42)
      ∧ r.2.mem ((c.tc : Thread nD τ).loc main_v45) = W6 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v40 (by decide)),
       h c _ (mem_uc main_v42 (by decide)),
       h c _ (mem_uc main_v45 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.Sage.Ker

end
-- ==== Proof.LibReadBack.lean ====
/-
  Reading a fold of host operations back at one buffer. The fold `after ops V` applies each operation's result map in
  order. Read at a buffer, it is the value, at the operands' contents, of the function of the last operation that
  writes the buffer; an operation that does not write the buffer leaves what was there; and the operands' contents are
  the fold of the earlier operations read at the operands' buffers, and so on down to the starting contents `V`.
  Unfolding this recursion turns the fold into the composed term of the operations' functions over `V` at the buffers
  no operation writes. It is done in two sweeps: one rewriting sweep over the whole term, which does not reach an
  operand that sits inside a list of shaped pieces (the pieces of a concatenation), and a loop of single rewrites that
  finishes those.
-/
import Idealize.ShloMosaic.Lib.StableHlo.Run

namespace Cert.Lib

open Idealize.ShloMosaic Idealize.ShloMosaic.StableHlo

/-- What the first sweep leaves: each remaining operation's result read at its own buffer becomes its function's value,
    and read at any other buffer what was there before. -/
macro "read_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- A fold of host operations read at a buffer, unfolded to the composed term: the sweep, then the loop. -/
macro "read_back" : tactic => `(tactic| (after_results_simp; read_results))

end Cert.Lib
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibRowScale.lean ====
/-
  A matrix scaled row by row: entry (p, q) of `rowScale x s` is x (p, q) · s (p, 0), where s is a one-column matrix.
  Two spellings of it: a vector unit's product of x with the column repeated along the rows, and a host product of x
  with the column broadcast along the rows. A band of consecutive rows of a row-scaled matrix is the band of x scaled
  by the band of s. Also: a vector viewed as one column by a reshape is the vector broadcast into one column, and a
  vector viewed as one row by a reshape is the vector broadcast into one row.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowScale

open Idealize.ShloMosaic Idealize.ShloMosaic.ValueIdx

/-- Entry (p, q) of x scaled row by row by the one-column s: x (p, q) · s (p, 0). -/
def rowScale {M N : ℕ} (x : FVec Ideal ⟨2, ![M, N]⟩ .f32) (s : FVec Ideal ⟨2, ![M, 1]⟩ .f32) : FVec Ideal ⟨2, ![M, N]⟩ .f32 :=
  fun i => x i * s (ix2 (n0 := M) (n1 := 1) (i 0) (0 : Fin 1))

theorem rowScale_apply {M N : ℕ} (x : FVec Ideal ⟨2, ![M, N]⟩ .f32) (s : FVec Ideal ⟨2, ![M, 1]⟩ .f32) (p : Fin M) (q : Fin N) :
    rowScale x s (ix2 p q) = x (ix2 p q) * s (ix2 p (0 : Fin 1)) := rfl

/-- A one-column matrix repeated along the rows reads, at (p, c), its entry (p, 0). -/
theorem broadcastTo_col_apply {M N : ℕ} (v : FVec Ideal ⟨2, ![M, 1]⟩ .f32) (h : (⟨2, ![M, 1]⟩ : Shape).Broadcasts ⟨2, ![M, N]⟩)
    (p : Fin M) (c : Fin N) : broadcastTo ⟨2, ![M, N]⟩ v h (ix2 p c) = v (ix2 p (0 : Fin 1)) := by
  refine broadcastTo_apply v h (ix2 p c) (ix2 p (0 : Fin 1)) fun ax => ?_
  match ax with
  | ⟨0, _⟩ =>
    show p.val = if M = 1 then 0 else p.val
    split
    · have := p.isLt; omega
    · rfl
  | ⟨1, _⟩ => rfl

/-- A one-column matrix broadcast along the rows by the host reads, at (p, c), its entry (p, 0). -/
theorem broadcastInDim_col_apply {M N : ℕ} (v : FVec Ideal ⟨2, ![M, 1]⟩ .f32)
    (h : (⟨2, ![M, 1]⟩ : Shape).BroadcastsInDim ⟨2, ![M, N]⟩ ![0, 1]) (p : Fin M) (c : Fin N) :
    broadcastInDim ⟨2, ![M, N]⟩ ![0, 1] h v (ix2 p c) = v (ix2 p (0 : Fin 1)) :=
  broadcastInDim_apply _ h v _ (ix2 p (0 : Fin 1)) (fun ax => match ax with
    | ⟨0, _⟩ => by
      show p.val = if M = 1 then 0 else p.val
      split
      · have := p.isLt; omega
      · rfl
    | ⟨1, _⟩ => by
      show (0 : ℕ) = if (1 : ℕ) = 1 then 0 else c.val
      rw [if_pos rfl])

/-- The vector unit's spelling: x and s each through an identity re-lay, s repeated along the rows, the product. -/
theorem mul_broadcastTo_eq {M N : ℕ} (x : FVec Ideal ⟨2, ![M, N]⟩ .f32) (s : FVec Ideal ⟨2, ![M, 1]⟩ .f32)
    (h1 : (⟨2, ![M, N]⟩ : Shape).ShapeCasts ⟨2, ![M, N]⟩) (h2 : (⟨2, ![M, 1]⟩ : Shape).ShapeCasts ⟨2, ![M, 1]⟩)
    (hb : (⟨2, ![M, 1]⟩ : Shape).Broadcasts ⟨2, ![M, N]⟩) :
    mulf (shapeCast ⟨2, ![M, N]⟩ x h1) (broadcastTo ⟨2, ![M, N]⟩ (shapeCast ⟨2, ![M, 1]⟩ s h2) hb) = rowScale x s := by
  funext j
  obtain ⟨p, q, rfl⟩ : ∃ (p : Fin M) (q : Fin N), j = ix2 p q := ⟨j 0, j 1, eq_ix2 j⟩
  rw [shapeCast_self, shapeCast_self, mulf_apply, broadcastTo_col_apply, rowScale_apply]

/-- The host's spelling: the product of x with s broadcast along the rows. -/
theorem mul_broadcastInDim_eq {M N : ℕ} (x : FVec Ideal ⟨2, ![M, N]⟩ .f32) (s : FVec Ideal ⟨2, ![M, 1]⟩ .f32)
    (hb : (⟨2, ![M, 1]⟩ : Shape).BroadcastsInDim ⟨2, ![M, N]⟩ ![0, 1]) :
    mulf x (broadcastInDim ⟨2, ![M, N]⟩ ![0, 1] hb s) = rowScale x s := by
  funext j
  obtain ⟨p, q, rfl⟩ : ∃ (p : Fin M) (q : Fin N), j = ix2 p q := ⟨j 0, j 1, eq_ix2 j⟩
  rw [mulf_apply, broadcastInDim_col_apply, rowScale_apply]

/-- Rows r, …, r + T − 1 of a row-scaled matrix: when x holds those rows of X and s those rows of S, the entry of
    `rowScale x s` at y is the entry of `rowScale X S` at the index whose row is r plus y's row and whose column is y's. -/
theorem rowScale_rows {M N T : ℕ} (X : FVec Ideal ⟨2, ![M, N]⟩ .f32) (S : FVec Ideal ⟨2, ![M, 1]⟩ .f32)
    (x : FVec Ideal ⟨2, ![T, N]⟩ .f32) (s : FVec Ideal ⟨2, ![T, 1]⟩ .f32) (r : ℕ)
    (hx : ∀ (p : Fin T) (q : Fin N) (hp : r + p.val < M), x (ix2 p q) = X (ix2 ⟨r + p.val, hp⟩ q))
    (hs : ∀ (p : Fin T) (hp : r + p.val < M), s (ix2 p (0 : Fin 1)) = S (ix2 ⟨r + p.val, hp⟩ (0 : Fin 1)))
    (y : (⟨2, ![T, N]⟩ : Shape).Idx) (i : (⟨2, ![M, N]⟩ : Shape).Idx)
    (hi0 : (i 0).val = r + (y 0).val) (hi1 : (i 1).val = (y 1).val) :
    rowScale x s y = rowScale X S i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [rowScale_apply, rowScale_apply, hx p q' (h0 ▸ p'.isLt), hs p (h0 ▸ p'.isLt), ← hp']

/-- A vector re-laid as one column is the vector broadcast into one column. -/
theorem col_cast_eq_bcast {a : ℕ} {α : Type} (v : (⟨1, ![a]⟩ : Shape).Idx → α) (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v hc = broadcastInDim ⟨2, ![a, 1]⟩ ![0] hb v := by
  funext j
  obtain ⟨i, u, rfl⟩ : ∃ (i : Fin a) (u : Fin 1), j = ix2 i u := ⟨j 0, j 1, eq_ix2 j⟩
  have e1 : shapeCast ⟨2, ![a, 1]⟩ v hc (ix2 i u) = v (ix1 i) :=
    shapeCast_apply v hc _ _ (by
      have hu : u.val = 0 := by omega
      rw [Shape.rowMajor_val_two, Shape.rowMajor_val_one]
      show i.val = i.val * 1 + u.val
      rw [hu, Nat.mul_one, Nat.add_zero])
  have e2 : broadcastInDim ⟨2, ![a, 1]⟩ ![0] hb v (ix2 i u) = v (ix1 i) :=
    broadcastInDim_apply _ hb v _ (ix1 i) (fun ax => match ax with
      | ⟨0, _⟩ => by
        show i.val = if a = 1 then 0 else i.val
        split
        · have := i.isLt; omega
        · rfl)
  rw [e1, e2]

/-- A vector re-laid as one row is the vector broadcast into one row. -/
theorem row_cast_eq_bcast {a : ℕ} {α : Type} (v : (⟨1, ![a]⟩ : Shape).Idx → α) (hc : (⟨1, ![a]⟩ : Shape).ShapeCasts ⟨2, ![1, a]⟩)
    (hb : (⟨1, ![a]⟩ : Shape).BroadcastsInDim ⟨2, ![1, a]⟩ ![1]) :
    shapeCast ⟨2, ![1, a]⟩ v hc = broadcastInDim ⟨2, ![1, a]⟩ ![1] hb v := by
  funext j
  obtain ⟨u, i, rfl⟩ : ∃ (u : Fin 1) (i : Fin a), j = ix2 u i := ⟨j 0, j 1, eq_ix2 j⟩
  have e1 : shapeCast ⟨2, ![1, a]⟩ v hc (ix2 u i) = v (ix1 i) :=
    shapeCast_apply v hc _ _ (by
      have hu : u.val = 0 := by omega
      rw [Shape.rowMajor_val_two, Shape.rowMajor_val_one]
      show i.val = u.val * a + i.val
      rw [hu, Nat.zero_mul, Nat.zero_add])
  have e2 : broadcastInDim ⟨2, ![1, a]⟩ ![1] hb v (ix2 u i) = v (ix1 i) :=
    broadcastInDim_apply _ hb v _ (ix1 i) (fun ax => match ax with
      | ⟨0, _⟩ => by
        show i.val = if a = 1 then 0 else i.val
        split
        · have := i.isLt; omega
        · rfl)
  rw [e1, e2]

end Cert.LibRowScale

end
-- ==== Proof.Spec.lean ====
/-
  The mathematics both programs compute, as whole-array functions on the extended reals.

  `elu y` is y when y is positive and exp y − 1 otherwise. `lin X W b` is the layer
  (p, q) ↦ elu (Σ_k X (p, k) · W (k, q) + b q). `mean S C` divides row p of S by max (C (p, 0)) 1, written as the product
  with the inverse; the divisor is at least one, so it is never zero and the quotient and the product with the reciprocal
  agree on every extended real. A band of consecutive rows of `lin X W b` is `lin` of the band of X.
-/
import proofs.«177135_j28054726378292_2_alg».proof.Proof.LibPlainDot
import proofs.«177135_j28054726378292_2_alg».proof.Proof.LibRowScale

noncomputable section

namespace Cert.Sage

open Idealize.ShloMosaic Idealize.ShloMosaic.ValueIdx Cert.LibPlainDot Cert.LibRowScale

/-- The exponential linear unit on the extended reals: the identity on positive values, exp − 1 elsewhere. -/
def elu (y : EReal) : EReal := if 0 < y then y else Ideal.exp y - 1

/-- One layer: rows times columns plus a vector, then `elu` entry by entry. -/
def lin {M K N : ℕ} (X : FVec Ideal ⟨2, ![M, K]⟩ .f32) (W : FVec Ideal ⟨2, ![K, N]⟩ .f32) (b : FVec Ideal ⟨1, ![N]⟩ .f32) :
    FVec Ideal ⟨2, ![M, N]⟩ .f32 :=
  fun i => elu (affine X W b i)

theorem lin_apply {M K N : ℕ} (X : FVec Ideal ⟨2, ![M, K]⟩ .f32) (W : FVec Ideal ⟨2, ![K, N]⟩ .f32) (b : FVec Ideal ⟨1, ![N]⟩ .f32)
    (i : (⟨2, ![M, N]⟩ : Shape).Idx) : lin X W b i = elu (affine X W b i) := rfl

/-- Row p of S divided by the larger of C (p, 0) and one. -/
def mean {M N : ℕ} (S : FVec Ideal ⟨2, ![M, N]⟩ .f32) (C : FVec Ideal ⟨2, ![M, 1]⟩ .f32) : FVec Ideal ⟨2, ![M, N]⟩ .f32 :=
  fun i => S i * (max (C (ix2 (n0 := M) (n1 := 1) (i 0) (0 : Fin 1))) 1)⁻¹

theorem mean_apply {M N : ℕ} (S : FVec Ideal ⟨2, ![M, N]⟩ .f32) (C : FVec Ideal ⟨2, ![M, 1]⟩ .f32) (p : Fin M) (q : Fin N) :
    mean S C (ix2 p q) = S (ix2 p q) * (max (C (ix2 p (0 : Fin 1))) 1)⁻¹ := rfl

/-- The larger of anything and one is not zero. -/
theorem max_one_ne_zero (c : EReal) : max c 1 ≠ 0 :=
  ne_of_gt (lt_of_lt_of_le zero_lt_one (le_max_right c 1))

/-- The quotient by the larger of c and one is the product with its inverse. -/
theorem div_max_one (s c : EReal) : Ideal.div s (max c 1) = s * (max c 1)⁻¹ := by
  rw [Ideal.div, if_neg (max_one_ne_zero c)]

/-- One over the larger of c and one is its inverse. -/
theorem one_div_max_one (c : EReal) : Ideal.div 1 (max c 1) = (max c 1)⁻¹ := by
  rw [div_max_one, one_mul]

/-- A band of T rows of a layer: when x holds rows r … r + T − 1 of X, the band's entry at y is the layer's entry at the
    array index whose row is r plus y's row and whose column is y's. -/
theorem lin_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    lin x w b y = lin X W B i :=
  congrArg elu (affine_rows X W B x w b r hx hw hb y i hi0 hi1)

end Cert.Sage

end
-- ==== Proof.KerForms.lean ====
/-
  The vector unit's spellings of the layer functions.

  On a vector unit the exponential linear unit is written select (y > 0) y (exp (min y 0) − 1): off the positive branch
  min y 0 is y, so this is `elu`. A layer is a product of operands narrowed to bf16 (the identity on exact values) into a
  zero accumulator, plus the bias row repeated down the rows, then that select. The aggregated branches first scale the
  rows of the left operand by a one-column factor; the self branch composes two layers.
-/
import proofs.«177135_j28054726378292_2_alg».proof.Proof.Spec

noncomputable section

namespace Cert.Sage

open Idealize.ShloMosaic Idealize.ShloMosaic.ValueIdx Cert.LibPlainDot Cert.LibRowScale

/-- A one-row matrix read as a vector. -/
def rowOf {N : ℕ} (b : FVec Ideal ⟨2, ![1, N]⟩ .f32) : FVec Ideal ⟨1, ![N]⟩ .f32 :=
  fun j => b (ix2 (n0 := 1) (n1 := N) (0 : Fin 1) (j 0))

theorem rowOf_apply {N : ℕ} (b : FVec Ideal ⟨2, ![1, N]⟩ .f32) (q : Fin N) : rowOf b (ix1 q) = b (ix2 (0 : Fin 1) q) := rfl

/-- select (y > 0) y (exp (min y 0) − 1) is `elu y`. -/
theorem scalar_elu (y : EReal) :
    Scalar.select (Ideal.cmp .ogt y 0) y (Ideal.exp (min y 0) - 1) = elu y := by
  unfold elu Scalar.select Ideal.cmp
  by_cases h : (0 : EReal) < y
  · simp [h]
  · have hm : min y 0 = y := min_eq_left (not_lt.mp h)
    simp [h, hm]

/-- The vector unit's exponential linear unit, entry by entry. -/
theorem vec_elu {s : Shape} (y : FVec Ideal s .f32) :
    select (cmpf .ogt y (broadcast s (Scalar.ofBits (F := Ideal) .f32 0x00000000#32))) y
        (subf (exp (minimumf y (broadcast s (Scalar.ofBits (F := Ideal) .f32 0x00000000#32))))
          (broadcast s (Scalar.ofBits (F := Ideal) .f32 0x3F800000#32)))
      = fun i => elu (y i) := by
  funext i
  show Scalar.select (Ideal.cmp .ogt (y i) (Ideal.ofBits .f32 0x00000000#32)) (y i)
      (Ideal.exp (min (y i) (Ideal.ofBits .f32 0x00000000#32)) - Ideal.ofBits .f32 0x3F800000#32) = elu (y i)
  rw [Ideal.ofBits_zero_f32, one_f32]
  exact scalar_elu (y i)

/-- One layer as a vector unit spells it: the product of the operands narrowed to bf16 into a zero accumulator, the bias
    row (through an identity re-lay) repeated down the rows and added, then select (y > 0) y (exp (min y 0) − 1). -/
def vlayer {M K N : ℕ} (d : DotDims ⟨2, ![M, K]⟩ ⟨2, ![K, N]⟩ ⟨2, ![M, N]⟩)
    (x : FVec Ideal ⟨2, ![M, K]⟩ .f32) (w : FVec Ideal ⟨2, ![K, N]⟩ .f32) (b : FVec Ideal ⟨2, ![1, N]⟩ .f32)
    (hb : FTy.bf16.bits < FTy.f32.bits)
    (hc : (⟨2, ![1, N]⟩ : Shape).ShapeCasts ⟨2, ![1, N]⟩) (hbc : (⟨2, ![1, N]⟩ : Shape).Broadcasts ⟨2, ![M, N]⟩) :
    FVec Ideal ⟨2, ![M, N]⟩ .f32 :=
  have y : FVec Ideal ⟨2, ![M, N]⟩ .f32 :=
    addf (matmul d none (truncf .bf16 x hb) (truncf .bf16 w hb) (constant ⟨2, ![M, N]⟩ .f32 0x00000000#32))
      (broadcastTo ⟨2, ![M, N]⟩ (shapeCast ⟨2, ![1, N]⟩ b hc) hbc)
  select (cmpf .ogt y (broadcast ⟨2, ![M, N]⟩ (Scalar.ofBits (F := Ideal) .f32 0x00000000#32))) y
    (subf (exp (minimumf y (broadcast ⟨2, ![M, N]⟩ (Scalar.ofBits (F := Ideal) .f32 0x00000000#32))))
      (broadcast ⟨2, ![M, N]⟩ (Scalar.ofBits (F := Ideal) .f32 0x3F800000#32)))

/-- The vector unit's layer is `lin` with the bias row read as a vector. -/
theorem vec_layer {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨2, ![1, N]⟩ .f32)
    (hb : FTy.bf16.bits < FTy.f32.bits)
    (hc : (⟨2, ![1, N]⟩ : Shape).ShapeCasts ⟨2, ![1, N]⟩) (hbc : (⟨2, ![1, N]⟩ : Shape).Broadcasts ⟨2, ![M, N]⟩) :
    vlayer d x w b hb hc hbc = lin x w (rowOf b) := by
  unfold vlayer
  dsimp only
  rw [vec_elu]
  funext j
  obtain ⟨p, q, rfl⟩ : ∃ (p : Fin M) (q : Fin N), j = ix2 p q := ⟨j 0, j 1, eq_ix2 j⟩
  rw [lin_apply, affine_apply, rowOf_apply]
  refine congrArg elu ?_
  rw [addf_apply, broadcastTo_1b_ab_apply, shapeCast_self]
  refine congrArg (· + b (ix2 (0 : Fin 1) q)) ?_
  refine (Ideal.matmul_constant_zero_apply d none _ _ (ix2 p q)).trans ?_
  exact plain_sum d h1 h2 h3 h4 h5 h6 x w p q

/-- A layer whose left operand is first scaled row by row by a one-column factor (both through identity re-lays). -/
theorem vec_scaled_layer {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (s : FVec Ideal ⟨2, ![M, 1]⟩ .f32)
    (w : FVec Ideal ⟨2, ![K, N]⟩ .f32) (b : FVec Ideal ⟨2, ![1, N]⟩ .f32)
    (hb : FTy.bf16.bits < FTy.f32.bits)
    (hx : (⟨2, ![M, K]⟩ : Shape).ShapeCasts ⟨2, ![M, K]⟩) (hs : (⟨2, ![M, 1]⟩ : Shape).ShapeCasts ⟨2, ![M, 1]⟩)
    (hsb : (⟨2, ![M, 1]⟩ : Shape).Broadcasts ⟨2, ![M, K]⟩)
    (hc : (⟨2, ![1, N]⟩ : Shape).ShapeCasts ⟨2, ![1, N]⟩) (hbc : (⟨2, ![1, N]⟩ : Shape).Broadcasts ⟨2, ![M, N]⟩) :
    vlayer d (mulf (shapeCast ⟨2, ![M, K]⟩ x hx) (broadcastTo ⟨2, ![M, K]⟩ (shapeCast ⟨2, ![M, 1]⟩ s hs) hsb)) w b hb hc hbc
      = lin (rowScale x s) w (rowOf b) := by
  rw [mul_broadcastTo_eq x s hx hs hsb]
  exact vec_layer d h1 h2 h3 h4 h5 h6 (rowScale x s) w b hb hc hbc

/-- Two layers in a row on a vector unit. -/
theorem vec_two_layers {M K H N : ℕ} (d1 : DotDims ⟨2, ![M, K]⟩ ⟨2, ![K, H]⟩ ⟨2, ![M, H]⟩)
    (d2 : DotDims ⟨2, ![M, H]⟩ ⟨2, ![H, N]⟩ ⟨2, ![M, N]⟩)
    (a1 : d1.lhsContracting = [1]) (a2 : d1.rhsContracting = [0]) (a3 : d1.lhsNonContracting = [0])
    (a4 : d1.rhsNonContracting = [1]) (a5 : d1.lhsBatch = []) (a6 : d1.rhsBatch = [])
    (c1 : d2.lhsContracting = [1]) (c2 : d2.rhsContracting = [0]) (c3 : d2.lhsNonContracting = [0])
    (c4 : d2.rhsNonContracting = [1]) (c5 : d2.lhsBatch = []) (c6 : d2.rhsBatch = [])
    (x : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32)
    (hb : FTy.bf16.bits < FTy.f32.bits)
    (hc1 : (⟨2, ![1, H]⟩ : Shape).ShapeCasts ⟨2, ![1, H]⟩) (hbc1 : (⟨2, ![1, H]⟩ : Shape).Broadcasts ⟨2, ![M, H]⟩)
    (hc2 : (⟨2, ![1, N]⟩ : Shape).ShapeCasts ⟨2, ![1, N]⟩) (hbc2 : (⟨2, ![1, N]⟩ : Shape).Broadcasts ⟨2, ![M, N]⟩) :
    vlayer d2 (vlayer d1 x w1 b1 hb hc1 hbc1) w2 b2 hb hc2 hbc2 = lin (lin x w1 (rowOf b1)) w2 (rowOf b2) := by
  rw [vec_layer d1 a1 a2 a3 a4 a5 a6 x w1 b1 hb hc1 hbc1]
  exact vec_layer d2 c1 c2 c3 c4 c5 c6 _ w2 b2 hb hc2 hbc2

end Cert.Sage

end
-- ==== Proof.KerMean.lean ====
/-
  Two small identities between the kernel program's host spellings and the layer functions: scaling the rows of S by the
  column 1 / max (C, 1) is `mean S C` (the divisor is at least one, so one over it is its inverse), and a vector re-laid as
  one row, read back as a vector, is the vector.
-/
import proofs.«177135_j28054726378292_2_alg».proof.Proof.KerForms

noncomputable section

namespace Cert.Sage

open Idealize.ShloMosaic Idealize.ShloMosaic.ValueIdx Cert.LibPlainDot Cert.LibRowScale

/-- Rows of S times the column of reciprocals of max (C, 1): the mean. -/
theorem rowScale_recip {M N : ℕ} (S : FVec Ideal ⟨2, ![M, N]⟩ .f32) (C : FVec Ideal ⟨2, ![M, 1]⟩ .f32)
    (h : (⟨0, ![]⟩ : Shape).BroadcastsInDim ⟨2, ![M, 1]⟩ ![]) :
    rowScale S (Host.divf (F := Ideal) (broadcastInDim ⟨2, ![M, 1]⟩ ![] h (constant (F := Ideal) ⟨0, ![]⟩ .f32 0x3F800000#32))
        (maximumf C (broadcastInDim ⟨2, ![M, 1]⟩ ![] h (constant (F := Ideal) ⟨0, ![]⟩ .f32 0x3F800000#32))))
      = mean S C := by
  funext j
  obtain ⟨p, q, rfl⟩ : ∃ (p : Fin M) (q : Fin N), j = ix2 p q := ⟨j 0, j 1, eq_ix2 j⟩
  rw [rowScale_apply, mean_apply]
  refine congrArg (S (ix2 p q) * ·) ?_
  have hone : broadcastInDim ⟨2, ![M, 1]⟩ ![] h (constant (F := Ideal) ⟨0, ![]⟩ .f32 0x3F800000#32) (ix2 p (0 : Fin 1)) = 1 :=
    (broadcastInDim_apply _ h _ _ (fun a => a.elim0) (fun ax => ax.elim0)).trans one_f32
  show Ideal.div (broadcastInDim ⟨2, ![M, 1]⟩ ![] h (constant (F := Ideal) ⟨0, ![]⟩ .f32 0x3F800000#32) (ix2 p (0 : Fin 1)))
      (max (C (ix2 p (0 : Fin 1))) (broadcastInDim ⟨2, ![M, 1]⟩ ![] h (constant (F := Ideal) ⟨0, ![]⟩ .f32 0x3F800000#32) (ix2 p (0 : Fin 1))))
    = (max (C (ix2 p (0 : Fin 1))) 1)⁻¹
  rw [hone]
  exact one_div_max_one _

/-- A vector re-laid as one row and read back as a vector is the vector. -/
theorem rowOf_reshape {N : ℕ} (b : FVec Ideal ⟨1, ![N]⟩ .f32) (h : (⟨1, ![N]⟩ : Shape).ShapeCasts ⟨2, ![1, N]⟩) :
    rowOf (shapeCast ⟨2, ![1, N]⟩ b h) = b := by
  funext j
  obtain ⟨q, rfl⟩ : ∃ q : Fin N, j = ix1 q := ⟨j 0, eq_ix1 j⟩
  rw [rowOf_apply, shapeCast_a_1a_apply]

end Cert.Sage

end
-- ==== Proof.KerPay.lean ====
/-
  The three kernel bodies' stored values as layer functions of their loaded blocks: each aggregated branch stores
  `lin (rowScale s r) w b` (the sums scaled row by row by the reciprocal column, one layer), the self branch stores two
  layers in a row.
-/
import proofs.«177135_j28054726378292_2_alg».proof.Proof.Gen.KernelIdeal.Skeleton
import proofs.«177135_j28054726378292_2_alg».proof.Proof.KerForms

noncomputable section

namespace Cert.Sage.Ker

open Idealize.ShloMosaic Idealize.ShloMosaic.ValueIdx Cert.LibPlainDot Cert.LibRowScale Cert.Sage
open Cert.KernelIdeal Cert.KernelIdeal.Gen

/-- The first aggregated branch's stored block. -/
theorem pay0_eq (x0 : Vec Ideal S5000x64 .f32) (x1 : Vec Ideal S5000x1 .f32) (x2 : Vec Ideal S64x128 .f32) (x3 : Vec Ideal S1x128 .f32) :
    k0_pay1 (F := Ideal) x0 x1 x2 x3 = lin (rowScale x0 x1) x2 (rowOf x3) :=
  vec_scaled_layer dot_S5000x64_S64x128_S5000x128_1_0_0_1_n_n rfl rfl rfl rfl rfl rfl x0 x1 x2 x3 bitsLt_bf16_f32
    shapeCasts_S5000x64_S5000x64 shapeCasts_S5000x1_S5000x1 broadcasts_S5000x1_S5000x64 shapeCasts_S1x128_S1x128 broadcasts_S1x128_S5000x128

/-- The second aggregated branch's stored block. -/
theorem pay1_eq (x0 : Vec Ideal S5000x64 .f32) (x1 : Vec Ideal S5000x1 .f32) (x2 : Vec Ideal S64x128 .f32) (x3 : Vec Ideal S1x128 .f32) :
    k1_pay1 (F := Ideal) x0 x1 x2 x3 = lin (rowScale x0 x1) x2 (rowOf x3) :=
  vec_scaled_layer dot_S5000x64_S64x128_S5000x128_1_0_0_1_n_n rfl rfl rfl rfl rfl rfl x0 x1 x2 x3 bitsLt_bf16_f32
    shapeCasts_S5000x64_S5000x64 shapeCasts_S5000x1_S5000x1 broadcasts_S5000x1_S5000x64 shapeCasts_S1x128_S1x128 broadcasts_S1x128_S5000x128

/-- The self branch's stored block. -/
theorem pay2_eq (x0 : Vec Ideal S4000x64 .f32) (x1 : Vec Ideal S64x512 .f32) (x2 : Vec Ideal S1x512 .f32) (x3 : Vec Ideal S512x128 .f32)
    (x4 : Vec Ideal S1x128 .f32) :
    k2_pay1 (F := Ideal) x0 x1 x2 x3 x4 = lin (lin x0 x1 (rowOf x2)) x3 (rowOf x4) :=
  vec_two_layers dot_S4000x64_S64x512_S4000x512_1_0_0_1_n_n dot_S4000x512_S512x128_S4000x128_1_0_0_1_n_n
    rfl rfl rfl rfl rfl rfl rfl rfl rfl rfl rfl rfl x0 x1 x2 x3 x4 bitsLt_bf16_f32
    shapeCasts_S1x512_S1x512 broadcasts_S1x512_S4000x512 shapeCasts_S1x128_S1x128 broadcasts_S1x128_S4000x128

end Cert.Sage.Ker

end
-- ==== Proof.KerBlocks0.lean ====
/-
  The first aggregated branch's output array after its region, as one function of the arrays the region finds.

  The grid has 20 points; point t reads rows 5000·t … 5000·t + 4999 of the sums and of the reciprocal column, the whole
  weights and the whole bias row, and writes back rows 5000·t … 5000·t + 4999 of the output. What it writes is the band of
  `lin (rowScale S R) W b` on those rows, and the 20 bands tile the output, so the array ends holding that function.
-/
import proofs.«177135_j28054726378292_2_alg».proof.Proof.Gen.KernelIdeal.Frame
import proofs.«177135_j28054726378292_2_alg».proof.Proof.KerPay

set_option maxRecDepth 16384

noncomputable section

namespace Cert.Sage.Ker

open Idealize.ShloMosaic Idealize.ShloMosaic.TcCoe Idealize.ShloMosaic.ValueIdx Idealize.SL.Sem
open Idealize.ShloMosaic.Pipeline (Dat Cfg Window)
open Cert.LibPlainDot Cert.LibRowScale Cert.Sage
open Cert.KernelIdeal Cert.KernelIdeal.Gen

variable (V : (c : Dev nD) → (b : Ref sig .tc) → Buf (Elt Ideal) ((c : Thread nD τ).loc b))

theorem zero_off0 : (![0, 0] : Fin 2 → Nat) = fun _ => 0 := funext fun a => by fin_cases a <;> rfl

/-- The printed index maps over the grid: the row-blocked windows sit at block row t, the weights and the bias at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 20 :=
  (by decide +kernel : ∀ t : Fin grid0.N, _)

/-- The output array the region leaves: the layer of the row-scaled sums. -/
def G0 (c : Dev nD) : FVec Ideal S100000x128 .f32 :=
  lin (rowScale (V c main_v14) (V c main_v21)) (V c main_arg2) (rowOf (V c main_v39))

/-- The sums' block at point t holds rows 5000·t … of the sums. -/
theorem rd0_0 (c : Dev nD) (t : Fin cfg0.N) (p : Fin 5000) (k : Fin 64) (hp : 5000 * t.val + p.val < 100000) :
    iblk0 V c 0 t (ix2 p k) = V c main_v14 (ix2 ⟨5000 * t.val + p.val, hp⟩ k) := by
  obtain ⟨e0, e1, -⟩ := idx0 t
  show V c main_v14 (((cfg0.win 0).blk t).view.emb (ix2 p k)) = _
  refine congrArg (V c main_v14) (funext fun a => Fin.ext ?_)
  match a with
  | ⟨0, _⟩ => show win0_0.index t (0 : Fin 2) * 5000 + 1 * p.val = 5000 * t.val + p.val; omega
  | ⟨1, _⟩ => show win0_0.index t (1 : Fin 2) * 64 + 1 * k.val = k.val; omega

/-- The reciprocal column's block at point t holds rows 5000·t … of the column. -/
theorem rd0_1 (c : Dev nD) (t : Fin cfg0.N) (p : Fin 5000) (hp : 5000 * t.val + p.val < 100000) :
    iblk0 V c 1 t (ix2 p (0 : Fin 1)) = V c main_v21 (ix2 ⟨5000 * t.val + p.val, hp⟩ (0 : Fin 1)) := by
  obtain ⟨-, -, e2, e3, -⟩ := idx0 t
  show V c main_v21 (((cfg0.win 1).blk t).view.emb (ix2 p (0 : Fin 1))) = _
  refine congrArg (V c main_v21) (funext fun a => Fin.ext ?_)
  match a with
  | ⟨0, _⟩ => show win0_1.index t (0 : Fin 2) * 5000 + 1 * p.val = 5000 * t.val + p.val; omega
  | ⟨1, _⟩ => show win0_1.index t (1 : Fin 2) * 1 + 1 * 0 = 0; omega

/-- The weights' block is the whole weights at every point. -/
theorem rd0_2 (c : Dev nD) (t : Fin cfg0.N) (z : S64x128.Idx) : iblk0 V c 2 t z = V c main_arg2 z := by
  obtain ⟨-, -, -, -, e4, e5, -⟩ := idx0 t
  show V c main_arg2 (((cfg0.win 2).blk t).view.emb z) = _
  refine congrArg (V c main_arg2) (funext fun a => Fin.ext ?_)
  match a with
  | ⟨0, _⟩ => show win0_2.index t (0 : Fin 2) * 64 + 1 * (z 0).val = (z 0).val; omega
  | ⟨1, _⟩ => show win0_2.index t (1 : Fin 2) * 128 + 1 * (z 1).val = (z 1).val; omega

/-- The bias row's block is the whole row at every point. -/
theorem rd0_3 (c : Dev nD) (t : Fin cfg0.N) (z : S1x128.Idx) : iblk0 V c 3 t z = V c main_v39 z := by
  obtain ⟨-, -, -, -, -, -, e6, e7, -⟩ := idx0 t
  show V c main_v39 (((cfg0.win 3).blk t).view.emb z) = _
  refine congrArg (V c main_v39) (funext fun a => Fin.ext ?_)
  match a with
  | ⟨0, _⟩ => show win0_3.index t (0 : Fin 2) * 1 + 1 * (z 0).val = (z 0).val; omega
  | ⟨1, _⟩ => show win0_3.index t (1 : Fin 2) * 128 + 1 * (z 1).val = (z 1).val; omega

/-- What point t writes back is block t of `G0`. -/
theorem flushed0 (c : Dev nD) (t : Fin cfg0.N) :
    (dat0 V c).flushed 4 t = ((cfg0.win 4).blk t).view.read (Elt Ideal) (G0 V c) := by
  show (cfg0.win 4).cut (grid0.coords t) ((dat0 V c).after 4 t) = _
  rw [after0_4]
  unfold out0_4
  rw [View.canon_unit_zero zero_off0]
  simp only [View.ld_unit_zero (S := S5000x64) zero_off0, View.ld_unit_zero (S := S5000x1) zero_off0,
    View.ld_unit_zero (S := S64x128) zero_off0, View.ld_unit_zero (S := S1x128) zero_off0]
  rw [pay0_eq]
  obtain ⟨-, -, -, -, -, -, -, -, e8, e9, hN⟩ := idx0 t
  funext y
  obtain ⟨p, q, rfl⟩ : ∃ (p : Fin 5000) (q : Fin 128), y = ix2 p q := ⟨y 0, y 1, eq_ix2 y⟩
  have hp : 5000 * t.val + p.val < 100000 := by have := p.isLt; omega
  show lin (rowScale (iblk0 V c 0 t) (iblk0 V c 1 t)) (iblk0 V c 2 t) (rowOf (iblk0 V c 3 t)) (ix2 p q)
    = G0 V c (((cfg0.win 4).blk t).view.emb (ix2 p q))
  unfold G0
  refine lin_rows (rowScale (V c main_v14) (V c main_v21)) (V c main_arg2) (rowOf (V c main_v39))
    (rowScale (iblk0 V c 0 t) (iblk0 V c 1 t)) (iblk0 V c 2 t) (rowOf (iblk0 V c 3 t)) (5000 * t.val)
    ?_ ?_ ?_ (ix2 p q) (((cfg0.win 4).blk t).view.emb (ix2 p q)) ?_ ?_
  · intro p' k hp'
    rw [rowScale_apply, rowScale_apply, rd0_0 V c t p' k hp', rd0_1 V c t p' hp']
  · intro z
    exact rd0_2 V c t z
  · intro z
    obtain ⟨q', rfl⟩ : ∃ q' : Fin 128, z = ix1 q' := ⟨z 0, eq_ix1 z⟩
    rw [rowOf_apply, rowOf_apply, rd0_3 V c t]
  · show win0_4.index t (0 : Fin 2) * 5000 + 1 * p.val = 5000 * t.val + p.val
    omega
  · show win0_4.index t (1 : Fin 2) * 128 + 1 * q.val = q.val
    omega

/-- An index of the output is in point t's block iff each coordinate is in the block's range on its axis. -/
theorem mem_blk0 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v40).slice (win0_4.rect t)).set ↔ _
  rw [View.set_slice_whole, Rect.mem_set_unit]
  exact Iff.rfl

/-- Every index of the output is in the block of the point its row falls in. -/
theorem cover0 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : (i 0).val / 5000 < cfg0.N := by
    show (i 0).val / 5000 < 20
    omega
  refine ⟨⟨(i 0).val / 5000, hN⟩, flush0_4 _, ?_⟩
  rw [mem_blk0]
  obtain ⟨-, -, -, -, -, -, -, -, e8, e9, -⟩ := idx0 ⟨(i 0).val / 5000, hN⟩
  have e8' : win0_4.index ⟨(i 0).val / 5000, hN⟩ (0 : Fin 2) = (i 0).val / 5000 := e8
  intro a
  match a with
  | ⟨0, _⟩ =>
    show win0_4.index ⟨(i 0).val / 5000, hN⟩ (0 : Fin 2) * 5000 ≤ (i 0).val
      ∧ (i 0).val < win0_4.index ⟨(i 0).val / 5000, hN⟩ (0 : Fin 2) * 5000 + 5000
    omega
  | ⟨1, _⟩ =>
    show win0_4.index ⟨(i 0).val / 5000, hN⟩ (1 : Fin 2) * 128 ≤ (i 1).val
      ∧ (i 1).val < win0_4.index ⟨(i 0).val / 5000, hN⟩ (1 : Fin 2) * 128 + 128
    omega

/-- The output array after the region is `G0` of the arrays the region finds. -/
theorem final0 (c : Dev nD) : (dat0 V c).arrAt 4 cfg0.N = G0 V c :=
  (dat0 V c).arrAt_eq_of_cover 4 (G0 V c) (fun t _ => flushed0 V c t) (cover0)

end Cert.Sage.Ker

end
-- ==== Proof.KerBlocks1.lean ====
/-
  The second aggregated branch's output array after its region, as one function of the arrays the region finds.

  The grid has 20 points; point t reads rows 5000·t … 5000·t + 4999 of the sums and of the reciprocal column, the whole
  weights and the whole bias row, and writes back rows 5000·t … 5000·t + 4999 of the output. What it writes is the band of
  `lin (rowScale S R) W b` on those rows, and the 20 bands tile the output, so the array ends holding that function.
-/
import proofs.«177135_j28054726378292_2_alg».proof.Proof.Gen.KernelIdeal.Frame
import proofs.«177135_j28054726378292_2_alg».proof.Proof.KerPay

set_option maxRecDepth 16384

noncomputable section

namespace Cert.Sage.Ker

open Idealize.ShloMosaic Idealize.ShloMosaic.TcCoe Idealize.ShloMosaic.ValueIdx Idealize.SL.Sem
open Idealize.ShloMosaic.Pipeline (Dat Cfg Window)
open Cert.LibPlainDot Cert.LibRowScale Cert.Sage
open Cert.KernelIdeal Cert.KernelIdeal.Gen

variable (V : (c : Dev nD) → (b : Ref sig .tc) → Buf (Elt Ideal) ((c : Thread nD τ).loc b))

theorem zero_off1 : (![0, 0] : Fin 2 → Nat) = fun _ => 0 := funext fun a => by fin_cases a <;> rfl

/-- The printed index maps over the grid: the row-blocked windows sit at block row t, the weights and the bias at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 20 :=
  (by decide +kernel : ∀ t : Fin grid1.N, _)

/-- The output array the region leaves: the layer of the row-scaled sums. -/
def G1 (c : Dev nD) : FVec Ideal S100000x128 .f32 :=
  lin (rowScale (V c main_v31) (V c main_v38)) (V c main_arg4) (rowOf (V c main_v41))

/-- The sums' block at point t holds rows 5000·t … of the sums. -/
theorem rd1_0 (c : Dev nD) (t : Fin cfg1.N) (p : Fin 5000) (k : Fin 64) (hp : 5000 * t.val + p.val < 100000) :
    iblk1 V c 0 t (ix2 p k) = V c main_v31 (ix2 ⟨5000 * t.val + p.val, hp⟩ k) := by
  obtain ⟨e0, e1, -⟩ := idx1 t
  show V c main_v31 (((cfg1.win 0).blk t).view.emb (ix2 p k)) = _
  refine congrArg (V c main_v31) (funext fun a => Fin.ext ?_)
  match a with
  | ⟨0, _⟩ => show win1_0.index t (0 : Fin 2) * 5000 + 1 * p.val = 5000 * t.val + p.val; omega
  | ⟨1, _⟩ => show win1_0.index t (1 : Fin 2) * 64 + 1 * k.val = k.val; omega

/-- The reciprocal column's block at point t holds rows 5000·t … of the column. -/
theorem rd1_1 (c : Dev nD) (t : Fin cfg1.N) (p : Fin 5000) (hp : 5000 * t.val + p.val < 100000) :
    iblk1 V c 1 t (ix2 p (0 : Fin 1)) = V c main_v38 (ix2 ⟨5000 * t.val + p.val, hp⟩ (0 : Fin 1)) := by
  obtain ⟨-, -, e2, e3, -⟩ := idx1 t
  show V c main_v38 (((cfg1.win 1).blk t).view.emb (ix2 p (0 : Fin 1))) = _
  refine congrArg (V c main_v38) (funext fun a => Fin.ext ?_)
  match a with
  | ⟨0, _⟩ => show win1_1.index t (0 : Fin 2) * 5000 + 1 * p.val = 5000 * t.val + p.val; omega
  | ⟨1, _⟩ => show win1_1.index t (1 : Fin 2) * 1 + 1 * 0 = 0; omega

/-- The weights' block is the whole weights at every point. -/
theorem rd1_2 (c : Dev nD) (t : Fin cfg1.N) (z : S64x128.Idx) : iblk1 V c 2 t z = V c main_arg4 z := by
  obtain ⟨-, -, -, -, e4, e5, -⟩ := idx1 t
  show V c main_arg4 (((cfg1.win 2).blk t).view.emb z) = _
  refine congrArg (V c main_arg4) (funext fun a => Fin.ext ?_)
  match a with
  | ⟨0, _⟩ => show win1_2.index t (0 : Fin 2) * 64 + 1 * (z 0).val = (z 0).val; omega
  | ⟨1, _⟩ => show win1_2.index t (1 : Fin 2) * 128 + 1 * (z 1).val = (z 1).val; omega

/-- The bias row's block is the whole row at every point. -/
theorem rd1_3 (c : Dev nD) (t : Fin cfg1.N) (z : S1x128.Idx) : iblk1 V c 3 t z = V c main_v41 z := by
  obtain ⟨-, -, -, -, -, -, e6, e7, -⟩ := idx1 t
  show V c main_v41 (((cfg1.win 3).blk t).view.emb z) = _
  refine congrArg (V c main_v41) (funext fun a => Fin.ext ?_)
  match a with
  | ⟨0, _⟩ => show win1_3.index t (0 : Fin 2) * 1 + 1 * (z 0).val = (z 0).val; omega
  | ⟨1, _⟩ => show win1_3.index t (1 : Fin 2) * 128 + 1 * (z 1).val = (z 1).val; omega

/-- What point t writes back is block t of `G1`. -/
theorem flushed1 (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero zero_off1]
  simp only [View.ld_unit_zero (S := S5000x64) zero_off1, View.ld_unit_zero (S := S5000x1) zero_off1,
    View.ld_unit_zero (S := S64x128) zero_off1, View.ld_unit_zero (S := S1x128) zero_off1]
  rw [pay1_eq]
  obtain ⟨-, -, -, -, -, -, -, -, e8, e9, hN⟩ := idx1 t
  funext y
  obtain ⟨p, q, rfl⟩ : ∃ (p : Fin 5000) (q : Fin 128), y = ix2 p q := ⟨y 0, y 1, eq_ix2 y⟩
  have hp : 5000 * t.val + p.val < 100000 := by have := p.isLt; omega
  show lin (rowScale (iblk1 V c 0 t) (iblk1 V c 1 t)) (iblk1 V c 2 t) (rowOf (iblk1 V c 3 t)) (ix2 p q)
    = G1 V c (((cfg1.win 4).blk t).view.emb (ix2 p q))
  unfold G1
  refine lin_rows (rowScale (V c main_v31) (V c main_v38)) (V c main_arg4) (rowOf (V c main_v41))
    (rowScale (iblk1 V c 0 t) (iblk1 V c 1 t)) (iblk1 V c 2 t) (rowOf (iblk1 V c 3 t)) (5000 * t.val)
    ?_ ?_ ?_ (ix2 p q) (((cfg1.win 4).blk t).view.emb (ix2 p q)) ?_ ?_
  · intro p' k hp'
    rw [rowScale_apply, rowScale_apply, rd1_0 V c t p' k hp', rd1_1 V c t p' hp']
  · intro z
    exact rd1_2 V c t z
  · intro z
    obtain ⟨q', rfl⟩ : ∃ q' : Fin 128, z = ix1 q' := ⟨z 0, eq_ix1 z⟩
    rw [rowOf_apply, rowOf_apply, rd1_3 V c t]
  · show win1_4.index t (0 : Fin 2) * 5000 + 1 * p.val = 5000 * t.val + p.val
    omega
  · show win1_4.index t (1 : Fin 2) * 128 + 1 * q.val = q.val
    omega

/-- An index of the output is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v42).slice (win1_4.rect t)).set ↔ _
  rw [View.set_slice_whole, Rect.mem_set_unit]
  exact Iff.rfl

/-- Every index of the output is in the block of the point its row falls in. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : (i 0).val / 5000 < cfg1.N := by
    show (i 0).val / 5000 < 20
    omega
  refine ⟨⟨(i 0).val / 5000, hN⟩, flush1_4 _, ?_⟩
  rw [mem_blk1]
  obtain ⟨-, -, -, -, -, -, -, -, e8, e9, -⟩ := idx1 ⟨(i 0).val / 5000, hN⟩
  have e8' : win1_4.index ⟨(i 0).val / 5000, hN⟩ (0 : Fin 2) = (i 0).val / 5000 := e8
  intro a
  match a with
  | ⟨0, _⟩ =>
    show win1_4.index ⟨(i 0).val / 5000, hN⟩ (0 : Fin 2) * 5000 ≤ (i 0).val
      ∧ (i 0).val < win1_4.index ⟨(i 0).val / 5000, hN⟩ (0 : Fin 2) * 5000 + 5000
    omega
  | ⟨1, _⟩ =>
    show win1_4.index ⟨(i 0).val / 5000, hN⟩ (1 : Fin 2) * 128 ≤ (i 1).val
      ∧ (i 1).val < win1_4.index ⟨(i 0).val / 5000, hN⟩ (1 : Fin 2) * 128 + 128
    omega

/-- The output array after the region is `G1` of the arrays the region finds. -/
theorem final1 (c : Dev nD) : (dat1 V c).arrAt 4 cfg1.N = G1 V c :=
  (dat1 V c).arrAt_eq_of_cover 4 (G1 V c) (fun t _ => flushed1 V c t) (cover1)

end Cert.Sage.Ker

end
-- ==== Proof.KerBlocks2.lean ====
/-
  The self branch's output array after its region, as one function of the arrays the region finds.

  The grid has 25 points; point t reads rows 4000·t … 4000·t + 3999 of the features, both weight matrices and both bias
  rows whole, and writes back rows 4000·t … 4000·t + 3999 of the output. What it writes is the band of the two-layer
  function `lin (lin X W1 b1) W2 b2` on those rows (a band of rows of a layer is the layer of the band, twice), and the 25
  bands tile the output, so the array ends holding that function.
-/
import proofs.«177135_j28054726378292_2_alg».proof.Proof.Gen.KernelIdeal.Frame
import proofs.«177135_j28054726378292_2_alg».proof.Proof.KerPay

set_option maxRecDepth 16384

noncomputable section

namespace Cert.Sage.Ker

open Idealize.ShloMosaic Idealize.ShloMosaic.TcCoe Idealize.ShloMosaic.ValueIdx Idealize.SL.Sem
open Idealize.ShloMosaic.Pipeline (Dat Cfg Window)
open Cert.LibPlainDot Cert.LibRowScale Cert.Sage
open Cert.KernelIdeal Cert.KernelIdeal.Gen

variable (V : (c : Dev nD) → (b : Ref sig .tc) → Buf (Elt Ideal) ((c : Thread nD τ).loc b))

theorem zero_off2 : (![0, 0] : Fin 2 → Nat) = fun _ => 0 := funext fun a => by fin_cases a <;> rfl

/-- The printed index maps over the grid: the row-blocked windows sit at block row t, the weights and biases at block 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 25 :=
  (by decide +kernel : ∀ t : Fin grid2.N, _)

/-- The output array the region leaves: two layers of the features. -/
def G2 (c : Dev nD) : FVec Ideal S100000x128 .f32 :=
  lin (lin (V c main_arg0) (V c main_arg6) (rowOf (V c main_v43))) (V c main_arg8) (rowOf (V c main_v44))

/-- The features' block at point t holds rows 4000·t … of the features. -/
theorem rd2_0 (c : Dev nD) (t : Fin cfg2.N) (p : Fin 4000) (k : Fin 64) (hp : 4000 * t.val + p.val < 100000) :
    iblk2 V c 0 t (ix2 p k) = V c main_arg0 (ix2 ⟨4000 * t.val + p.val, hp⟩ k) := by
  obtain ⟨e0, e1, -⟩ := idx2 t
  show V c main_arg0 (((cfg2.win 0).blk t).view.emb (ix2 p k)) = _
  refine congrArg (V c main_arg0) (funext fun a => Fin.ext ?_)
  match a with
  | ⟨0, _⟩ => show win2_0.index t (0 : Fin 2) * 4000 + 1 * p.val = 4000 * t.val + p.val; omega
  | ⟨1, _⟩ => show win2_0.index t (1 : Fin 2) * 64 + 1 * k.val = k.val; omega

/-- The first weights' block is the whole matrix at every point. -/
theorem rd2_1 (c : Dev nD) (t : Fin cfg2.N) (z : S64x512.Idx) : iblk2 V c 1 t z = V c main_arg6 z := by
  obtain ⟨-, -, e2, e3, -⟩ := idx2 t
  show V c main_arg6 (((cfg2.win 1).blk t).view.emb z) = _
  refine congrArg (V c main_arg6) (funext fun a => Fin.ext ?_)
  match a with
  | ⟨0, _⟩ => show win2_1.index t (0 : Fin 2) * 64 + 1 * (z 0).val = (z 0).val; omega
  | ⟨1, _⟩ => show win2_1.index t (1 : Fin 2) * 512 + 1 * (z 1).val = (z 1).val; omega

/-- The first bias row's block is the whole row at every point. -/
theorem rd2_2 (c : Dev nD) (t : Fin cfg2.N) (z : S1x512.Idx) : iblk2 V c 2 t z = V c main_v43 z := by
  obtain ⟨-, -, -, -, e4, e5, -⟩ := idx2 t
  show V c main_v43 (((cfg2.win 2).blk t).view.emb z) = _
  refine congrArg (V c main_v43) (funext fun a => Fin.ext ?_)
  match a with
  | ⟨0, _⟩ => show win2_2.index t (0 : Fin 2) * 1 + 1 * (z 0).val = (z 0).val; omega
  | ⟨1, _⟩ => show win2_2.index t (1 : Fin 2) * 512 + 1 * (z 1).val = (z 1).val; omega

/-- The second weights' block is the whole matrix at every point. -/
theorem rd2_3 (c : Dev nD) (t : Fin cfg2.N) (z : S512x128.Idx) : iblk2 V c 3 t z = V c main_arg8 z := by
  obtain ⟨-, -, -, -, -, -, e6, e7, -⟩ := idx2 t
  show V c main_arg8 (((cfg2.win 3).blk t).view.emb z) = _
  refine congrArg (V c main_arg8) (funext fun a => Fin.ext ?_)
  match a with
  | ⟨0, _⟩ => show win2_3.index t (0 : Fin 2) * 512 + 1 * (z 0).val = (z 0).val; omega
  | ⟨1, _⟩ => show win2_3.index t (1 : Fin 2) * 128 + 1 * (z 1).val = (z 1).val; omega

/-- The second bias row's block is the whole row at every point. -/
theorem rd2_4 (c : Dev nD) (t : Fin cfg2.N) (z : S1x128.Idx) : iblk2 V c 4 t z = V c main_v44 z := by
  obtain ⟨-, -, -, -, -, -, -, -, e8, e9, -⟩ := idx2 t
  show V c main_v44 (((cfg2.win 4).blk t).view.emb z) = _
  refine congrArg (V c main_v44) (funext fun a => Fin.ext ?_)
  match a with
  | ⟨0, _⟩ => show win2_4.index t (0 : Fin 2) * 1 + 1 * (z 0).val = (z 0).val; omega
  | ⟨1, _⟩ => show win2_4.index t (1 : Fin 2) * 128 + 1 * (z 1).val = (z 1).val; omega

/-- What point t writes back is block t of `G2`. -/
theorem flushed2 (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero zero_off2]
  simp only [View.ld_unit_zero (S := S4000x64) zero_off2, View.ld_unit_zero (S := S64x512) zero_off2,
    View.ld_unit_zero (S := S1x512) zero_off2, View.ld_unit_zero (S := S512x128) zero_off2, View.ld_unit_zero (S := S1x128) zero_off2]
  rw [pay2_eq]
  obtain ⟨-, -, -, -, -, -, -, -, -, -, e10, e11, hN⟩ := idx2 t
  funext y
  obtain ⟨p, q, rfl⟩ : ∃ (p : Fin 4000) (q : Fin 128), y = ix2 p q := ⟨y 0, y 1, eq_ix2 y⟩
  have hp : 4000 * t.val + p.val < 100000 := by have := p.isLt; omega
  show lin (lin (iblk2 V c 0 t) (iblk2 V c 1 t) (rowOf (iblk2 V c 2 t))) (iblk2 V c 3 t) (rowOf (iblk2 V c 4 t)) (ix2 p q)
    = G2 V c (((cfg2.win 5).blk t).view.emb (ix2 p q))
  unfold G2
  refine lin_rows (lin (V c main_arg0) (V c main_arg6) (rowOf (V c main_v43))) (V c main_arg8) (rowOf (V c main_v44))
    (lin (iblk2 V c 0 t) (iblk2 V c 1 t) (rowOf (iblk2 V c 2 t))) (iblk2 V c 3 t) (rowOf (iblk2 V c 4 t)) (4000 * t.val)
    ?_ ?_ ?_ (ix2 p q) (((cfg2.win 5).blk t).view.emb (ix2 p q)) ?_ ?_
  · intro p' k hp'
    refine lin_rows (V c main_arg0) (V c main_arg6) (rowOf (V c main_v43))
      (iblk2 V c 0 t) (iblk2 V c 1 t) (rowOf (iblk2 V c 2 t)) (4000 * t.val) ?_ ?_ ?_ (ix2 p' k) (ix2 ⟨4000 * t.val + p'.val, hp'⟩ k) rfl rfl
    · intro p'' k' hp''
      exact rd2_0 V c t p'' k' hp''
    · intro z
      exact rd2_1 V c t z
    · intro z
      obtain ⟨q', rfl⟩ : ∃ q' : Fin 512, z = ix1 q' := ⟨z 0, eq_ix1 z⟩
      rw [rowOf_apply, rowOf_apply, rd2_2 V c t]
  · intro z
    exact rd2_3 V c t z
  · intro z
    obtain ⟨q', rfl⟩ : ∃ q' : Fin 128, z = ix1 q' := ⟨z 0, eq_ix1 z⟩
    rw [rowOf_apply, rowOf_apply, rd2_4 V c t]
  · show win2_5.index t (0 : Fin 2) * 4000 + 1 * p.val = 4000 * t.val + p.val
    omega
  · show win2_5.index t (1 : Fin 2) * 128 + 1 * q.val = q.val
    omega

/-- An index of the output is in point t's block iff each coordinate is in the block's range on its axis. -/
theorem mem_blk2 (t : Fin cfg2.N) (i : S100000x128.Idx) :
    i ∈ ((cfg2.win 5).blk t).view.set ↔ ∀ a : Fin 2, win2_5.index t a * S4000x128.size a ≤ (i a).val
      ∧ (i a).val < win2_5.index t a * S4000x128.size a + S4000x128.size a := by
  show i ∈ ((View.whole main_v45).slice (win2_5.rect t)).set ↔ _
  rw [View.set_slice_whole, Rect.mem_set_unit]
  exact Iff.rfl

/-- Every index of the output is in the block of the point its row falls in. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : (i 0).val / 4000 < cfg2.N := by
    show (i 0).val / 4000 < 25
    omega
  refine ⟨⟨(i 0).val / 4000, hN⟩, flush2_5 _, ?_⟩
  rw [mem_blk2]
  obtain ⟨-, -, -, -, -, -, -, -, -, -, e10, e11, -⟩ := idx2 ⟨(i 0).val / 4000, hN⟩
  have e10' : win2_5.index ⟨(i 0).val / 4000, hN⟩ (0 : Fin 2) = (i 0).val / 4000 := e10
  intro a
  match a with
  | ⟨0, _⟩ =>
    show win2_5.index ⟨(i 0).val / 4000, hN⟩ (0 : Fin 2) * 4000 ≤ (i 0).val
      ∧ (i 0).val < win2_5.index ⟨(i 0).val / 4000, hN⟩ (0 : Fin 2) * 4000 + 4000
    omega
  | ⟨1, _⟩ =>
    show win2_5.index ⟨(i 0).val / 4000, hN⟩ (1 : Fin 2) * 128 ≤ (i 1).val
      ∧ (i 1).val < win2_5.index ⟨(i 0).val / 4000, hN⟩ (1 : Fin 2) * 128 + 128
    omega

/-- The output array after the region is `G2` of the arrays the region finds. -/
theorem final2 (c : Dev nD) : (dat2 V c).arrAt 5 cfg2.N = G2 V c :=
  (dat2 V c).arrAt_eq_of_cover 5 (G2 V c) (fun t _ => flushed2 V c t) (cover2)

end Cert.Sage.Ker

end
-- ==== Proof.KerChain.lean ====
/-
  The buffer contents at the boundaries of the idealized kernel program's six segments, read at the buffers the regions use.

  All arithmetic outside the regions happens in the first stretch of host operations: the two rows of the edge array, the
  two segment sums of gathered rows, the two segment counts and their reciprocal columns 1 / max (count, 1), and the first
  bias re-laid as a row. A region changes only its own output array and the later stretches only re-lay the other biases,
  so each region finds those values (and the argument arrays as launched) unchanged, and each result array keeps what its
  region left until the end.
-/
import proofs.«177135_j28054726378292_2_alg».proof.Proof.Gen.KernelIdeal.Frame
import proofs.«177135_j28054726378292_2_alg».proof.Proof.LibReadBack
import proofs.«177135_j28054726378292_2_alg».proof.Proof.KerMean
import proofs.«177135_j28054726378292_2_alg».proof.Proof.KerBlocks0
import proofs.«177135_j28054726378292_2_alg».proof.Proof.KerBlocks1
import proofs.«177135_j28054726378292_2_alg».proof.Proof.KerBlocks2

set_option maxRecDepth 16384

noncomputable section

namespace Cert.Sage.Ker

open Idealize.ShloMosaic Idealize.ShloMosaic.TcCoe Idealize.ShloMosaic.ValueIdx Idealize.SL.Sem Idealize.ShloMosaic.StableHlo
open Cert.KernelIdeal Cert.KernelIdeal.Gen Cert.Lib Cert.Sage Cert.LibPlainDot Cert.LibRowScale

/-- Row 0 of the edge array as a vector: the slice of its first row, re-laid as a vector. -/
def srcRow (e : (⟨S2x1000000, .i32⟩ : BufTy).Contents (Elt Ideal)) : (⟨S1000000, .i32⟩ : BufTy).Contents (Elt Ideal) :=
  shapeCast S1000000 (extractStridedSlice S1x1000000 ![0, 0] e slices_S2x1000000_S1x1000000_0_0) shapeCasts_S1x1000000_S1000000

/-- Row 1 of the edge array as a vector: the slice of its second row, re-laid as a vector. -/
def dstRow (e : (⟨S2x1000000, .i32⟩ : BufTy).Contents (Elt Ideal)) : (⟨S1000000, .i32⟩ : BufTy).Contents (Elt Ideal) :=
  shapeCast S1000000 (extractStridedSlice S1x1000000 ![1, 0] e slices_S2x1000000_S1x1000000_1_0) shapeCasts_S1x1000000_S1000000

/-- Segment sum: the rows of x gathered at the indices g (a negative index wrapped by the row count), added at the
    indices s into an array of zeros. -/
def segSum (x : (⟨S100000x64, .f32⟩ : BufTy).Contents (Elt Ideal)) (g s : (⟨S1000000, .i32⟩ : BufTy).Contents (Elt Ideal)) :
    (⟨S100000x64, .f32⟩ : BufTy).Contents (Elt Ideal) :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 s)
    (Host.gather gather_S100000x64_S1000000x1_S1000000x64_1_0_n_n_0_1_164 x
      (broadcastInDim S1000000x1 ![0] bcast_S1000000_S1000000x1_0
        (select (cmpi .slt g (broadcastInDim S1000000 ![] bcast_S_S1000000 (constantI S_ 32 0#32)))
          (addi g (broadcastInDim S1000000 ![] bcast_S_S1000000 (constantI S_ 32 100000#32))) g)))

/-- Segment count: ones added at the indices s into a one-column array of zeros. -/
def segCnt (s : (⟨S1000000, .i32⟩ : BufTy).Contents (Elt Ideal)) : (⟨S100000x1, .f32⟩ : BufTy).Contents (Elt Ideal) :=
  Host.scatterAdd (F := Ideal) scatter_S100000x1_S1000000x1_S1000000x1_1_0_0_1
    (broadcastInDim S100000x1 ![] bcast_S_S100000x1 (constant (F := Ideal) S_ .f32 0x00000000#32))
    (broadcastInDim S1000000x1 ![0] bcast_S1000000_S1000000x1_0 s)
    (broadcastInDim S1000000x1 ![] bcast_S_S1000000x1 (constant (F := Ideal) S_ .f32 0x3F800000#32))

/-- The reciprocal column: one over the larger of the segment count and one. -/
def recip (s : (⟨S1000000, .i32⟩ : BufTy).Contents (Elt Ideal)) : (⟨S100000x1, .f32⟩ : BufTy).Contents (Elt Ideal) :=
  Host.divf (F := Ideal) (broadcastInDim S100000x1 ![] bcast_S_S100000x1 (constant (F := Ideal) S_ .f32 0x3F800000#32))
    (maximumf (segCnt s) (broadcastInDim S100000x1 ![] bcast_S_S100000x1 (constant (F := Ideal) S_ .f32 0x3F800000#32)))

variable (m : (ℓ : Loc nD τ sig) → Buf (Elt Ideal) ℓ) (ρ : Dev nD → PrngReg)

/-! ## After the first stretch of host operations -/

theorem W1_v14 (c : Dev nD) : W1 m ρ c (Proc.devRef .tc main_v14) = segSum (m ((c.tc : Thread nD τ).loc main_arg0)) (srcRow (m ((c.tc : Thread nD τ).loc main_arg1))) (dstRow (m ((c.tc : Thread nD τ).loc main_arg1))) := by
  show StableHlo.after hostOps0 (W0 m ρ c) (Proc.devRef .tc main_v14) = _
  read_back
  rfl

theorem W1_v21 (c : Dev nD) : W1 m ρ c (Proc.devRef .tc main_v21) = recip (dstRow (m ((c.tc : Thread nD τ).loc main_arg1))) := by
  show StableHlo.after hostOps0 (W0 m ρ c) (Proc.devRef .tc main_v21) = _
  read_back
  rfl

theorem W1_v31 (c : Dev nD) : W1 m ρ c (Proc.devRef .tc main_v31) = segSum (m ((c.tc : Thread nD τ).loc main_arg0)) (dstRow (m ((c.tc : Thread nD τ).loc main_arg1))) (srcRow (m ((c.tc : Thread nD τ).loc main_arg1))) := by
  show StableHlo.after hostOps0 (W0 m ρ c) (Proc.devRef .tc main_v31) = _
  read_back
  rfl

theorem W1_v38 (c : Dev nD) : W1 m ρ c (Proc.devRef .tc main_v38) = recip (srcRow (m ((c.tc : Thread nD τ).loc main_arg1))) := by
  show StableHlo.after hostOps0 (W0 m ρ c) (Proc.devRef .tc main_v38) = _
  read_back
  rfl

theorem W1_v39 (c : Dev nD) : W1 m ρ c (Proc.devRef .tc main_v39) = shapeCast S1x128 (m ((c.tc : Thread nD τ).loc main_arg3)) shapeCasts_S128_S1x128 := by
  show StableHlo.after hostOps0 (W0 m ρ c) (Proc.devRef .tc main_v39) = _
  read_back
  rfl

theorem W1_arg0 (c : Dev nD) : W1 m ρ c (Proc.devRef .tc main_arg0) = m ((c.tc : Thread nD τ).loc main_arg0) := by
  show StableHlo.after hostOps0 (W0 m ρ c) (Proc.devRef .tc main_arg0) = _
  read_back

theorem W1_arg2 (c : Dev nD) : W1 m ρ c (Proc.devRef .tc main_arg2) = m ((c.tc : Thread nD τ).loc main_arg2) := by
  show StableHlo.after hostOps0 (W0 m ρ c) (Proc.devRef .tc main_arg2) = _
  read_back

theorem W1_arg4 (c : Dev nD) : W1 m ρ c (Proc.devRef .tc main_arg4) = m ((c.tc : Thread nD τ).loc main_arg4) := by
  show StableHlo.after hostOps0 (W0 m ρ c) (Proc.devRef .tc main_arg4) = _
  read_back

theorem W1_arg5 (c : Dev nD) : W1 m ρ c (Proc.devRef .tc main_arg5) = m ((c.tc : Thread nD τ).loc main_arg5) := by
  show StableHlo.after hostOps0 (W0 m ρ c) (Proc.devRef .tc main_arg5) = _
  read_back

theorem W1_arg6 (c : Dev nD) : W1 m ρ c (Proc.devRef .tc main_arg6) = m ((c.tc : Thread nD τ).loc main_arg6) := by
  show StableHlo.after hostOps0 (W0 m ρ c) (Proc.devRef .tc main_arg6) = _
  read_back

theorem W1_arg7 (c : Dev nD) : W1 m ρ c (Proc.devRef .tc main_arg7) = m ((c.tc : Thread nD τ).loc main_arg7) := by
  show StableHlo.after hostOps0 (W0 m ρ c) (Proc.devRef .tc main_arg7) = _
  read_back

theorem W1_arg8 (c : Dev nD) : W1 m ρ c (Proc.devRef .tc main_arg8) = m ((c.tc : Thread nD τ).loc main_arg8) := by
  show StableHlo.after hostOps0 (W0 m ρ c) (Proc.devRef .tc main_arg8) = _
  read_back

theorem W1_arg9 (c : Dev nD) : W1 m ρ c (Proc.devRef .tc main_arg9) = m ((c.tc : Thread nD τ).loc main_arg9) := by
  show StableHlo.after hostOps0 (W0 m ρ c) (Proc.devRef .tc main_arg9) = _
  read_back

/-! ## The first region's result -/

/-- The first aggregated branch: the layer of the mean of the rows gathered at the sources, summed at the targets. -/
theorem region0 (c : Dev nD) : W2 m ρ c (Proc.devRef .tc main_v40)
    = lin (mean (segSum (m ((c.tc : Thread nD τ).loc main_arg0)) (srcRow (m ((c.tc : Thread nD τ).loc main_arg1))) (dstRow (m ((c.tc : Thread nD τ).loc main_arg1)))) (segCnt (dstRow (m ((c.tc : Thread nD τ).loc main_arg1))))) (m ((c.tc : Thread nD τ).loc main_arg2)) (m ((c.tc : Thread nD τ).loc main_arg3)) := by
  refine (W2_arr m ρ c 4).trans ?_
  rw [final0 (V1 m ρ) c]
  unfold G0
  show lin (rowScale (W1 m ρ c (Proc.devRef .tc main_v14)) (W1 m ρ c (Proc.devRef .tc main_v21))) (W1 m ρ c (Proc.devRef .tc main_arg2))
      (rowOf (W1 m ρ c (Proc.devRef .tc main_v39))) = _
  rw [W1_v14, W1_v21, W1_arg2, W1_v39, rowOf_reshape]
  unfold recip
  rw [rowScale_recip]

/-! ## Through the first region and the second stretch -/

theorem W3_v31 (c : Dev nD) : W3 m ρ c (Proc.devRef .tc main_v31) = segSum (m ((c.tc : Thread nD τ).loc main_arg0)) (dstRow (m ((c.tc : Thread nD τ).loc main_arg1))) (srcRow (m ((c.tc : Thread nD τ).loc main_arg1))) := by
  show StableHlo.after hostOps1 (W2 m ρ c) (Proc.devRef .tc main_v31) = _
  read_back
  rw [W2_of_ne m ρ c main_v31 (by decide)]
  exact W1_v31 m ρ c

theorem W3_v38 (c : Dev nD) : W3 m ρ c (Proc.devRef .tc main_v38) = recip (srcRow (m ((c.tc : Thread nD τ).loc main_arg1))) := by
  show StableHlo.after hostOps1 (W2 m ρ c) (Proc.devRef .tc main_v38) = _
  read_back
  rw [W2_of_ne m ρ c main_v38 (by decide)]
  exact W1_v38 m ρ c

theorem W3_v41 (c : Dev nD) : W3 m ρ c (Proc.devRef .tc main_v41) = shapeCast S1x128 (m ((c.tc : Thread nD τ).loc main_arg5)) shapeCasts_S128_S1x128 := by
  show StableHlo.after hostOps1 (W2 m ρ c) (Proc.devRef .tc main_v41) = _
  read_back
  rw [W2_of_ne m ρ c main_arg5 (by decide), W1_arg5]
  rfl

theorem W3_arg0 (c : Dev nD) : W3 m ρ c (Proc.devRef .tc main_arg0) = m ((c.tc : Thread nD τ).loc main_arg0) := by
  show StableHlo.after hostOps1 (W2 m ρ c) (Proc.devRef .tc main_arg0) = _
  read_back
  rw [W2_of_ne m ρ c main_arg0 (by decide)]
  exact W1_arg0 m ρ c

theorem W3_arg4 (c : Dev nD) : W3 m ρ c (Proc.devRef .tc main_arg4) = m ((c.tc : Thread nD τ).loc main_arg4) := by
  show StableHlo.after hostOps1 (W2 m ρ c) (Proc.devRef .tc main_arg4) = _
  read_back
  rw [W2_of_ne m ρ c main_arg4 (by decide)]
  exact W1_arg4 m ρ c

theorem W3_arg6 (c : Dev nD) : W3 m ρ c (Proc.devRef .tc main_arg6) = m ((c.tc : Thread nD τ).loc main_arg6) := by
  show StableHlo.after hostOps1 (W2 m ρ c) (Proc.devRef .tc main_arg6) = _
  read_back
  rw [W2_of_ne m ρ c main_arg6 (by decide)]
  exact W1_arg6 m ρ c

theorem W3_arg7 (c : Dev nD) : W3 m ρ c (Proc.devRef .tc main_arg7) = m ((c.tc : Thread nD τ).loc main_arg7) := by
  show StableHlo.after hostOps1 (W2 m ρ c) (Proc.devRef .tc main_arg7) = _
  read_back
  rw [W2_of_ne m ρ c main_arg7 (by decide)]
  exact W1_arg7 m ρ c

theorem W3_arg8 (c : Dev nD) : W3 m ρ c (Proc.devRef .tc main_arg8) = m ((c.tc : Thread nD τ).loc main_arg8) := by
  show StableHlo.after hostOps1 (W2 m ρ c) (Proc.devRef .tc main_arg8) = _
  read_back
  rw [W2_of_ne m ρ c main_arg8 (by decide)]
  exact W1_arg8 m ρ c

theorem W3_arg9 (c : Dev nD) : W3 m ρ c (Proc.devRef .tc main_arg9) = m ((c.tc : Thread nD τ).loc main_arg9) := by
  show StableHlo.after hostOps1 (W2 m ρ c) (Proc.devRef .tc main_arg9) = _
  read_back
  rw [W2_of_ne m ρ c main_arg9 (by decide)]
  exact W1_arg9 m ρ c

/-! ## The second region's result -/

/-- The second aggregated branch: the layer of the mean of the rows gathered at the targets, summed at the sources. -/
theorem region1 (c : Dev nD) : W4 m ρ c (Proc.devRef .tc main_v42)
    = lin (mean (segSum (m ((c.tc : Thread nD τ).loc main_arg0)) (dstRow (m ((c.tc : Thread nD τ).loc main_arg1))) (srcRow (m ((c.tc : Thread nD τ).loc main_arg1)))) (segCnt (srcRow (m ((c.tc : Thread nD τ).loc main_arg1))))) (m ((c.tc : Thread nD τ).loc main_arg4)) (m ((c.tc : Thread nD τ).loc main_arg5)) := by
  refine (W4_arr m ρ c 4).trans ?_
  rw [final1 (V3 m ρ) c]
  unfold G1
  show lin (rowScale (W3 m ρ c (Proc.devRef .tc main_v31)) (W3 m ρ c (Proc.devRef .tc main_v38))) (W3 m ρ c (Proc.devRef .tc main_arg4))
      (rowOf (W3 m ρ c (Proc.devRef .tc main_v41))) = _
  rw [W3_v31, W3_v38, W3_arg4, W3_v41, rowOf_reshape]
  unfold recip
  rw [rowScale_recip]

/-! ## Through the second region and the third stretch -/

theorem W5_arg0 (c : Dev nD) : W5 m ρ c (Proc.devRef .tc main_arg0) = m ((c.tc : Thread nD τ).loc main_arg0) := by
  show StableHlo.after hostOps2 (W4 m ρ c) (Proc.devRef .tc main_arg0) = _
  read_back
  rw [W4_of_ne m ρ c main_arg0 (by decide)]
  exact W3_arg0 m ρ c

theorem W5_arg6 (c : Dev nD) : W5 m ρ c (Proc.devRef .tc main_arg6) = m ((c.tc : Thread nD τ).loc main_arg6) := by
  show StableHlo.after hostOps2 (W4 m ρ c) (Proc.devRef .tc main_arg6) = _
  read_back
  rw [W4_of_ne m ρ c main_arg6 (by decide)]
  exact W3_arg6 m ρ c

theorem W5_arg7 (c : Dev nD) : W5 m ρ c (Proc.devRef .tc main_arg7) = m ((c.tc : Thread nD τ).loc main_arg7) := by
  show StableHlo.after hostOps2 (W4 m ρ c) (Proc.devRef .tc main_arg7) = _
  read_back
  rw [W4_of_ne m ρ c main_arg7 (by decide)]
  exact W3_arg7 m ρ c

theorem W5_arg8 (c : Dev nD) : W5 m ρ c (Proc.devRef .tc main_arg8) = m ((c.tc : Thread nD τ).loc main_arg8) := by
  show StableHlo.after hostOps2 (W4 m ρ c) (Proc.devRef .tc main_arg8) = _
  read_back
  rw [W4_of_ne m ρ c main_arg8 (by decide)]
  exact W3_arg8 m ρ c

theorem W5_arg9 (c : Dev nD) : W5 m ρ c (Proc.devRef .tc main_arg9) = m ((c.tc : Thread nD τ).loc main_arg9) := by
  show StableHlo.after hostOps2 (W4 m ρ c) (Proc.devRef .tc main_arg9) = _
  read_back
  rw [W4_of_ne m ρ c main_arg9 (by decide)]
  exact W3_arg9 m ρ c

theorem W5_v43 (c : Dev nD) : W5 m ρ c (Proc.devRef .tc main_v43) = shapeCast S1x512 (m ((c.tc : Thread nD τ).loc main_arg7)) shapeCasts_S512_S1x512 := by
  show StableHlo.after hostOps2 (W4 m ρ c) (Proc.devRef .tc main_v43) = _
  read_back
  rw [W4_of_ne m ρ c main_arg7 (by decide), W3_arg7]
  rfl

theorem W5_v44 (c : Dev nD) : W5 m ρ c (Proc.devRef .tc main_v44) = shapeCast S1x128 (m ((c.tc : Thread nD τ).loc main_arg9)) shapeCasts_S128_S1x128 := by
  show StableHlo.after hostOps2 (W4 m ρ c) (Proc.devRef .tc main_v44) = _
  read_back
  rw [W4_of_ne m ρ c main_arg9 (by decide), W3_arg9]
  rfl

/-! ## The three result arrays at the end -/

/-- The self branch: two layers of the features. -/
theorem result2 (c : Dev nD) : W6 m ρ c (Proc.devRef .tc main_v45)
    = lin (lin (m ((c.tc : Thread nD τ).loc main_arg0)) (m ((c.tc : Thread nD τ).loc main_arg6)) (m ((c.tc : Thread nD τ).loc main_arg7))) (m ((c.tc : Thread nD τ).loc main_arg8)) (m ((c.tc : Thread nD τ).loc main_arg9)) := by
  refine (W6_arr m ρ c 5).trans ?_
  rw [final2 (V5 m ρ) c]
  unfold G2
  show lin (lin (W5 m ρ c (Proc.devRef .tc main_arg0)) (W5 m ρ c (Proc.devRef .tc main_arg6)) (rowOf (W5 m ρ c (Proc.devRef .tc main_v43))))
      (W5 m ρ c (Proc.devRef .tc main_arg8)) (rowOf (W5 m ρ c (Proc.devRef .tc main_v44))) = _
  rw [W5_arg0, W5_arg6, W5_v43, W5_arg8, W5_v44, rowOf_reshape, rowOf_reshape]

/-- The second branch's array is not touched after its region. -/
theorem result1 (c : Dev nD) : W6 m ρ c (Proc.devRef .tc main_v42)
    = lin (mean (segSum (m ((c.tc : Thread nD τ).loc main_arg0)) (dstRow (m ((c.tc : Thread nD τ).loc main_arg1))) (srcRow (m ((c.tc : Thread nD τ).loc main_arg1)))) (segCnt (srcRow (m ((c.tc : Thread nD τ).loc main_arg1))))) (m ((c.tc : Thread nD τ).loc main_arg4)) (m ((c.tc : Thread nD τ).loc main_arg5)) := by
  rw [W6_of_ne m ρ c main_v42 (by decide)]
  show StableHlo.after hostOps2 (W4 m ρ c) (Proc.devRef .tc main_v42) = _
  read_back
  exact region1 m ρ c

/-- The first branch's array is not touched after its region. -/
theorem result0 (c : Dev nD) : W6 m ρ c (Proc.devRef .tc main_v40)
    = lin (mean (segSum (m ((c.tc : Thread nD τ).loc main_arg0)) (srcRow (m ((c.tc : Thread nD τ).loc main_arg1))) (dstRow (m ((c.tc : Thread nD τ).loc main_arg1)))) (segCnt (dstRow (m ((c.tc : Thread nD τ).loc main_arg1))))) (m ((c.tc : Thread nD τ).loc main_arg2)) (m ((c.tc : Thread nD τ).loc main_arg3)) := by
  rw [W6_of_ne m ρ c main_v40 (by decide)]
  show StableHlo.after hostOps2 (W4 m ρ c) (Proc.devRef .tc main_v40) = _
  read_back
  rw [W4_of_ne m ρ c main_v40 (by decide)]
  show StableHlo.after hostOps1 (W2 m ρ c) (Proc.devRef .tc main_v40) = _
  read_back
  exact region0 m ρ c

end Cert.Sage.Ker

end
-- ==== Proof.RefOps.lean ====
/-
  The reference program as one straight line of host operations.

  The program's first sixty statements and its last thirteen are each a line of tensor operations in which a call of
  an outlined function (the exponential linear unit, and inside it the two selections) stands for the callee's own
  operations run on the call's buffers. Written out, the first window is 74 operations and the second 54; the program
  is the first line followed by the second. No buffer and no semaphore of the signature is scoped, and every operation
  touches tensor buffers only, so every weakly fair execution terminates with each buffer at the fold of the
  operations' results over its starting contents.
-/
import proofs.«177135_j28054726378292_2_alg».proof.ReferenceIdeal
import proofs.«177135_j28054726378292_2_alg».proof.Proof.Gen.ReferenceIdeal
import Idealize.ShloMosaic.Lib.StableHlo.Run

noncomputable section

namespace Cert.Sage.Ref

open Cert.ReferenceIdeal Cert.ReferenceIdeal.Gen Idealize.ShloMosaic Idealize.ShloMosaic.TcCoe Idealize.SL.Sem Idealize.ShloMosaic.StableHlo

variable {F : FTy → Type} [FloatOps F]

/-- The first window's 74 operations, in order, each call's operations at the call. -/
abbrev ops0 : List (HloOp τ sig (Elt F)) :=
  [ unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    nullary main_c (constantI S_ 32 0#32),
    unary main_c main_v4 (broadcastInDim S1000000 ![] bcast_S_S1000000 : (⟨S_, .i32⟩ : BufTy).Contents (Elt F) → (⟨S1000000, .i32⟩ : BufTy).Contents (Elt F)),
    binary main_v1 main_v4 main_v5 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 100000#32),
    unary main_c_0 main_v6 (broadcastInDim S1000000 ![] bcast_S_S1000000 : (⟨S_, .i32⟩ : BufTy).Contents (Elt F) → (⟨S1000000, .i32⟩ : BufTy).Contents (Elt F)),
    binary main_v1 main_v6 main_v7 (addi : (⟨S1000000, .i32⟩ : BufTy).Contents (Elt F) → (⟨S1000000, .i32⟩ : BufTy).Contents (Elt F) → (⟨S1000000, .i32⟩ : BufTy).Contents (Elt F)),
    ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v8 main_v9 (broadcastInDim S1000000x1 ![0] bcast_S1000000_S1000000x1_0 : (⟨S1000000, .i32⟩ : BufTy).Contents (Elt F) → (⟨S1000000x1, .i32⟩ : BufTy).Contents (Elt F)),
    binary main_arg0 main_v9 main_v10 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v10 main_v13 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_1 (constant S_ .f32 0x3F800000#32),
    unary main_cst_1 main_v14 (broadcastInDim S1000000x1 ![] bcast_S_S1000000x1 : (⟨S_, .f32⟩ : BufTy).Contents (Elt F) → (⟨S1000000x1, .f32⟩ : BufTy).Contents (Elt F)),
    nullary main_cst_2 (constant S_ .f32 0x00000000#32),
    unary main_cst_2 main_v15 (broadcastInDim S100000x1 ![] bcast_S_S100000x1 : (⟨S_, .f32⟩ : BufTy).Contents (Elt F) → (⟨S100000x1, .f32⟩ : BufTy).Contents (Elt F)),
    unary main_v3 main_v16 (broadcastInDim S1000000x1 ![0] bcast_S1000000_S1000000x1_0 : (⟨S1000000, .i32⟩ : BufTy).Contents (Elt F) → (⟨S1000000x1, .i32⟩ : BufTy).Contents (Elt F)),
    ternary main_v15 main_v16 main_v14 main_v17 ((fun x i u => Host.scatterAdd scatter_S100000x1_S1000000x1_S1000000x1_1_0_0_1 x i u) : (⟨S100000x1, .f32⟩ : BufTy).Contents (Elt F) → (⟨S1000000x1, .i32⟩ : BufTy).Contents (Elt F) → (⟨S1000000x1, .f32⟩ : BufTy).Contents (Elt F) → (⟨S100000x1, .f32⟩ : BufTy).Contents (Elt F)),
    nullary main_cst_3 (constant S_ .f32 0x3F800000#32),
    unary main_cst_3 main_v18 (broadcastInDim S100000x1 ![] bcast_S_S100000x1 : (⟨S_, .f32⟩ : BufTy).Contents (Elt F) → (⟨S100000x1, .f32⟩ : BufTy).Contents (Elt F)),
    binary main_v17 main_v18 main_v19 (maximumf : (⟨S100000x1, .f32⟩ : BufTy).Contents (Elt F) → (⟨S100000x1, .f32⟩ : BufTy).Contents (Elt F) → (⟨S100000x1, .f32⟩ : BufTy).Contents (Elt F)),
    unary main_v19 main_v20 (broadcastInDim S100000x64 ![0, 1] bcast_S100000x1_S100000x64_0_1 : (⟨S100000x1, .f32⟩ : BufTy).Contents (Elt F) → (⟨S100000x64, .f32⟩ : BufTy).Contents (Elt F)),
    binary main_v13 main_v20 main_v21 (Host.divf : (⟨S100000x64, .f32⟩ : BufTy).Contents (Elt F) → (⟨S100000x64, .f32⟩ : BufTy).Contents (Elt F) → (⟨S100000x64, .f32⟩ : BufTy).Contents (Elt F)),
    binary main_v21 main_arg2 main_v22 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg3 main_v23 (broadcastInDim S1x128 ![1] bcast_S128_S1x128_1 : (⟨S128, .f32⟩ : BufTy).Contents (Elt F) → (⟨S1x128, .f32⟩ : BufTy).Contents (Elt F)),
    unary main_v23 main_v24 (broadcastInDim S100000x128 ![0, 1] bcast_S1x128_S100000x128_0_1 : (⟨S1x128, .f32⟩ : BufTy).Contents (Elt F) → (⟨S100000x128, .f32⟩ : BufTy).Contents (Elt F)),
    binary main_v22 main_v24 main_v25 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v25) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v25) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v25) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v25) main_call0.v7 main_call0.call1.v0 select,
    nullary main_c_4 (constantI S_ 32 0#32),
    unary main_c_4 main_v27 (broadcastInDim S1000000 ![] bcast_S_S1000000 : (⟨S_, .i32⟩ : BufTy).Contents (Elt F) → (⟨S1000000, .i32⟩ : BufTy).Contents (Elt F)),
    binary main_v3 main_v27 main_v28 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 100000#32),
    unary main_c_5 main_v29 (broadcastInDim S1000000 ![] bcast_S_S1000000 : (⟨S_, .i32⟩ : BufTy).Contents (Elt F) → (⟨S1000000, .i32⟩ : BufTy).Contents (Elt F)),
    binary main_v3 main_v29 main_v30 (addi : (⟨S1000000, .i32⟩ : BufTy).Contents (Elt F) → (⟨S1000000, .i32⟩ : BufTy).Contents (Elt F) → (⟨S1000000, .i32⟩ : BufTy).Contents (Elt F)),
    ternary main_v28 main_v30 main_v3 main_v31 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v31 main_v32 (broadcastInDim S1000000x1 ![0] bcast_S1000000_S1000000x1_0 : (⟨S1000000, .i32⟩ : BufTy).Contents (Elt F) → (⟨S1000000x1, .i32⟩ : BufTy).Contents (Elt F)),
    binary main_arg0 main_v32 main_v33 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_cst_6 (constant S_ .f32 0x00000000#32),
    unary main_cst_6 main_v34 (broadcastInDim S100000x64 ![] bcast_S_S100000x64 : (⟨S_, .f32⟩ : BufTy).Contents (Elt F) → (⟨S100000x64, .f32⟩ : BufTy).Contents (Elt F)),
    unary main_v1 main_v35 (broadcastInDim S1000000x1 ![0] bcast_S1000000_S1000000x1_0 : (⟨S1000000, .i32⟩ : BufTy).Contents (Elt F) → (⟨S1000000x1, .i32⟩ : BufTy).Contents (Elt F)),
    ternary main_v34 main_v35 main_v33 main_v36 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_7 (constant S_ .f32 0x3F800000#32),
    unary main_cst_7 main_v37 (broadcastInDim S1000000x1 ![] bcast_S_S1000000x1 : (⟨S_, .f32⟩ : BufTy).Contents (Elt F) → (⟨S1000000x1, .f32⟩ : BufTy).Contents (Elt F)),
    nullary main_cst_8 (constant S_ .f32 0x00000000#32),
    unary main_cst_8 main_v38 (broadcastInDim S100000x1 ![] bcast_S_S100000x1 : (⟨S_, .f32⟩ : BufTy).Contents (Elt F) → (⟨S100000x1, .f32⟩ : BufTy).Contents (Elt F)),
    unary main_v1 main_v39 (broadcastInDim S1000000x1 ![0] bcast_S1000000_S1000000x1_0 : (⟨S1000000, .i32⟩ : BufTy).Contents (Elt F) → (⟨S1000000x1, .i32⟩ : BufTy).Contents (Elt F)),
    ternary main_v38 main_v39 main_v37 main_v40 ((fun x i u => Host.scatterAdd scatter_S100000x1_S1000000x1_S1000000x1_1_0_0_1 x i u) : (⟨S100000x1, .f32⟩ : BufTy).Contents (Elt F) → (⟨S1000000x1, .i32⟩ : BufTy).Contents (Elt F) → (⟨S1000000x1, .f32⟩ : BufTy).Contents (Elt F) → (⟨S100000x1, .f32⟩ : BufTy).Contents (Elt F)),
    nullary main_cst_9 (constant S_ .f32 0x3F800000#32),
    unary main_cst_9 main_v41 (broadcastInDim S100000x1 ![] bcast_S_S100000x1 : (⟨S_, .f32⟩ : BufTy).Contents (Elt F) → (⟨S100000x1, .f32⟩ : BufTy).Contents (Elt F)),
    binary main_v40 main_v41 main_v42 (maximumf : (⟨S100000x1, .f32⟩ : BufTy).Contents (Elt F) → (⟨S100000x1, .f32⟩ : BufTy).Contents (Elt F) → (⟨S100000x1, .f32⟩ : BufTy).Contents (Elt F)),
    unary main_v42 main_v43 (broadcastInDim S100000x64 ![0, 1] bcast_S100000x1_S100000x64_0_1 : (⟨S100000x1, .f32⟩ : BufTy).Contents (Elt F) → (⟨S100000x64, .f32⟩ : BufTy).Contents (Elt F)),
    binary main_v36 main_v43 main_v44 (Host.divf : (⟨S100000x64, .f32⟩ : BufTy).Contents (Elt F) → (⟨S100000x64, .f32⟩ : BufTy).Contents (Elt F) → (⟨S100000x64, .f32⟩ : BufTy).Contents (Elt F)),
    binary main_v44 main_arg4 main_v45 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg5 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)) ]

/-- The second window's 54 operations, in order, each call's operations at the call. -/
abbrev ops1 : List (HloOp τ sig (Elt F)) :=
  [ binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v48) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v48) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v48) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v48) main_call1.v7 main_call1.call1.v0 select,
    binary main_arg0 main_arg6 main_v50 ((fun l r => Host.dotGeneral dot_S100000x64_S64x512_S100000x512_1_0_0_1_n_n none l r) : (⟨S100000x64, .f32⟩ : BufTy).Contents (Elt F) → (⟨S64x512, .f32⟩ : BufTy).Contents (Elt F) → (⟨S100000x512, .f32⟩ : BufTy).Contents (Elt F)),
    unary main_arg7 main_v51 (broadcastInDim S1x512 ![1] bcast_S512_S1x512_1 : (⟨S512, .f32⟩ : BufTy).Contents (Elt F) → (⟨S1x512, .f32⟩ : BufTy).Contents (Elt F)),
    unary main_v51 main_v52 (broadcastInDim S100000x512 ![0, 1] bcast_S1x512_S100000x512_0_1 : (⟨S1x512, .f32⟩ : BufTy).Contents (Elt F) → (⟨S100000x512, .f32⟩ : BufTy).Contents (Elt F)),
    binary main_v50 main_v52 main_v53 (addf : (⟨S100000x512, .f32⟩ : BufTy).Contents (Elt F) → (⟨S100000x512, .f32⟩ : BufTy).Contents (Elt F) → (⟨S100000x512, .f32⟩ : BufTy).Contents (Elt F)),
    TRef.nullary main_call2.cst (constant S_ .f32 0x00000000#32),
    TRef.unary main_call2.cst main_call2.v0 (broadcastInDim S100000x512 ![] bcast_S_S100000x512),
    TRef.binary (.of main_v53) main_call2.v0 main_call2.v1 (cmpf .ogt),
    TRef.nullary main_call2.cst_0 (constant S_ .f32 0x00000000#32),
    TRef.unary main_call2.cst_0 main_call2.v2 (broadcastInDim S100000x512 ![] bcast_S_S100000x512),
    TRef.binary (.of main_v53) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x512 ![] bcast_S_S100000x512),
    TRef.ternary main_call2.v3 main_call2.call0.v1 (.of main_v53) main_call2.call0.v2 select,
    TRef.unary main_call2.call0.v2 main_call2.v5 Host.expm1,
    TRef.nullary main_call2.cst_2 (constant S_ .f32 0x3F800000#32),
    TRef.unary main_call2.cst_2 main_call2.v6 (broadcastInDim S100000x512 ![] bcast_S_S100000x512),
    TRef.binary main_call2.v6 main_call2.v5 main_call2.v7 mulf,
    TRef.ternary main_call2.v1 (.of main_v53) main_call2.v7 main_call2.call1.v0 select,
    binary main_v54 main_arg8 main_v55 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    unary main_arg9 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v55 main_v57 main_v58 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v58) main_call3.v0 main_call3.v1 (cmpf .ogt),
    TRef.nullary main_call3.cst_0 (constant S_ .f32 0x00000000#32),
    TRef.unary main_call3.cst_0 main_call3.v2 (broadcastInDim S100000x128 ![] bcast_S_S100000x128),
    TRef.binary (.of main_v58) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S100000x128 ![] bcast_S_S100000x128),
    TRef.ternary main_call3.v3 main_call3.call0.v1 (.of main_v58) main_call3.call0.v2 select,
    TRef.unary main_call3.call0.v2 main_call3.v5 Host.expm1,
    TRef.nullary main_call3.cst_2 (constant S_ .f32 0x3F800000#32),
    TRef.unary main_call3.cst_2 main_call3.v6 (broadcastInDim S100000x128 ![] bcast_S_S100000x128),
    TRef.binary main_call3.v6 main_call3.v5 main_call3.v7 mulf,
    TRef.ternary main_call3.v1 (.of main_v58) main_call3.v7 main_call3.call1.v0 select ]

/-- All 128 operations: the first window's, then the second's. -/
abbrev ops : List (HloOp τ sig (Elt F)) := ops0 ++ ops1

set_option maxRecDepth 8192 in
set_option maxHeartbeats 4000000 in
/-- The first window is its line: sequencing computes, and a call unfolds to the callee's operations. -/
theorem main_part0_eq (c : Dev nD) : main_part0 (F := F) c = seq ops0 := rfl

set_option maxRecDepth 8192 in
set_option maxHeartbeats 4000000 in
/-- The second window is its line. -/
theorem main_part1_eq (c : Dev nD) : main_part1 (F := F) c = seq ops1 := rfl

/-- The program is the two lines one after the other, which is the concatenated line. -/
theorem main_eq (c : Dev nD) : main (F := F) c = seq ops := by
  show (main_part0 (F := F) c >>= fun _ => main_part1 (F := F) c) = seq (ops0 ++ ops1)
  rw [seq_append, main_part0_eq, main_part1_eq]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., binary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., binary_bufs_sub .., binary_bufs_sub ..,
    unary_bufs_sub .., unary_bufs_sub ..⟩

set_option maxRecDepth 8192 in
theorem ops1_sub : (ops1 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

/-- Every operation touches tensor buffers only. -/
theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

/-- Every operation determines its results. -/
theorem ops_fresh : ∀ op ∈ (ops : List (HloOp τ sig (Elt F))), op.fresh = ∅ :=
  fun op h => (List.mem_append.mp h).elim
    (List.forall_iff_forall_mem.mp ops0_fresh op) (List.forall_iff_forall_mem.mp ops1_fresh op)

/-- From any memory with zero counters every weakly fair execution of the program terminates, and every final state
    has each tensor buffer at the fold of the 128 operations over the buffer's starting contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.Sage.Ref

end
-- ==== Proof.RefStage.lean ====
/-
  The reference's line cut into thirteen stages, one per step of the mathematics.

  The first window is eight stages: the two index rows; the segment sum at the targets; the segment count at the targets;
  the mean, the contraction and the bias; the exponential linear unit; then the segment sum and count at the sources and
  the second mean, contraction and bias. The second window is five: the second unit, and the two stacked layers of the
  node features (contraction and bias, unit, contraction and bias, unit). Each window's list is its stages' lists
  joined, by computation.
-/
import proofs.«177135_j28054726378292_2_alg».proof.Proof.RefOps

noncomputable section

namespace Cert.Sage.Ref

open Cert.ReferenceIdeal Cert.ReferenceIdeal.Gen Idealize.ShloMosaic Idealize.ShloMosaic.TcCoe Idealize.SL.Sem Idealize.ShloMosaic.StableHlo

variable {F : FTy → Type} [FloatOps F]

/-- The two rows of the edge array, each sliced out and re-laid as a vector. -/
abbrev s1 : List (HloOp τ sig (Elt F)) :=
  [ unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000 ]

/-- The segment sum of the source rows at the targets. -/
abbrev s2 : List (HloOp τ sig (Elt F)) :=
  [ nullary main_c (constantI S_ 32 0#32),
    unary main_c main_v4 (broadcastInDim S1000000 ![] bcast_S_S1000000 : (⟨S_, .i32⟩ : BufTy).Contents (Elt F) → (⟨S1000000, .i32⟩ : BufTy).Contents (Elt F)),
    binary main_v1 main_v4 main_v5 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 100000#32),
    unary main_c_0 main_v6 (broadcastInDim S1000000 ![] bcast_S_S1000000 : (⟨S_, .i32⟩ : BufTy).Contents (Elt F) → (⟨S1000000, .i32⟩ : BufTy).Contents (Elt F)),
    binary main_v1 main_v6 main_v7 (addi : (⟨S1000000, .i32⟩ : BufTy).Contents (Elt F) → (⟨S1000000, .i32⟩ : BufTy).Contents (Elt F) → (⟨S1000000, .i32⟩ : BufTy).Contents (Elt F)),
    ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v8 main_v9 (broadcastInDim S1000000x1 ![0] bcast_S1000000_S1000000x1_0 : (⟨S1000000, .i32⟩ : BufTy).Contents (Elt F) → (⟨S1000000x1, .i32⟩ : BufTy).Contents (Elt F)),
    binary main_arg0 main_v9 main_v10 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v10 main_v13 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ]

/-- The segment count at the targets. -/
abbrev s3 : List (HloOp τ sig (Elt F)) :=
  [ nullary main_cst_1 (constant S_ .f32 0x3F800000#32),
    unary main_cst_1 main_v14 (broadcastInDim S1000000x1 ![] bcast_S_S1000000x1 : (⟨S_, .f32⟩ : BufTy).Contents (Elt F) → (⟨S1000000x1, .f32⟩ : BufTy).Contents (Elt F)),
    nullary main_cst_2 (constant S_ .f32 0x00000000#32),
    unary main_cst_2 main_v15 (broadcastInDim S100000x1 ![] bcast_S_S100000x1 : (⟨S_, .f32⟩ : BufTy).Contents (Elt F) → (⟨S100000x1, .f32⟩ : BufTy).Contents (Elt F)),
    unary main_v3 main_v16 (broadcastInDim S1000000x1 ![0] bcast_S1000000_S1000000x1_0 : (⟨S1000000, .i32⟩ : BufTy).Contents (Elt F) → (⟨S1000000x1, .i32⟩ : BufTy).Contents (Elt F)),
    ternary main_v15 main_v16 main_v14 main_v17 ((fun x i u => Host.scatterAdd scatter_S100000x1_S1000000x1_S1000000x1_1_0_0_1 x i u) : (⟨S100000x1, .f32⟩ : BufTy).Contents (Elt F) → (⟨S1000000x1, .i32⟩ : BufTy).Contents (Elt F) → (⟨S1000000x1, .f32⟩ : BufTy).Contents (Elt F) → (⟨S100000x1, .f32⟩ : BufTy).Contents (Elt F)) ]

/-- The mean, the contraction with the first weights, the first bias added. -/
abbrev s4 : List (HloOp τ sig (Elt F)) :=
  [ nullary main_cst_3 (constant S_ .f32 0x3F800000#32),
    unary main_cst_3 main_v18 (broadcastInDim S100000x1 ![] bcast_S_S100000x1 : (⟨S_, .f32⟩ : BufTy).Contents (Elt F) → (⟨S100000x1, .f32⟩ : BufTy).Contents (Elt F)),
    binary main_v17 main_v18 main_v19 (maximumf : (⟨S100000x1, .f32⟩ : BufTy).Contents (Elt F) → (⟨S100000x1, .f32⟩ : BufTy).Contents (Elt F) → (⟨S100000x1, .f32⟩ : BufTy).Contents (Elt F)),
    unary main_v19 main_v20 (broadcastInDim S100000x64 ![0, 1] bcast_S100000x1_S100000x64_0_1 : (⟨S100000x1, .f32⟩ : BufTy).Contents (Elt F) → (⟨S100000x64, .f32⟩ : BufTy).Contents (Elt F)),
    binary main_v13 main_v20 main_v21 (Host.divf : (⟨S100000x64, .f32⟩ : BufTy).Contents (Elt F) → (⟨S100000x64, .f32⟩ : BufTy).Contents (Elt F) → (⟨S100000x64, .f32⟩ : BufTy).Contents (Elt F)),
    binary main_v21 main_arg2 main_v22 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg3 main_v23 (broadcastInDim S1x128 ![1] bcast_S128_S1x128_1 : (⟨S128, .f32⟩ : BufTy).Contents (Elt F) → (⟨S1x128, .f32⟩ : BufTy).Contents (Elt F)),
    unary main_v23 main_v24 (broadcastInDim S100000x128 ![0, 1] bcast_S1x128_S100000x128_0_1 : (⟨S1x128, .f32⟩ : BufTy).Contents (Elt F) → (⟨S100000x128, .f32⟩ : BufTy).Contents (Elt F)),
    binary main_v22 main_v24 main_v25 (addf : (⟨S100000x128, .f32⟩ : BufTy).Contents (Elt F) → (⟨S100000x128, .f32⟩ : BufTy).Contents (Elt F) → (⟨S100000x128, .f32⟩ : BufTy).Contents (Elt F)) ]

/-- The exponential linear unit: the first result. -/
abbrev s5 : List (HloOp τ sig (Elt F)) :=
  [ TRef.nullary main_call0.cst (constant S_ .f32 0x00000000#32),
    TRef.unary main_call0.cst main_call0.v0 (broadcastInDim S100000x128 ![] bcast_S_S100000x128),
    TRef.binary (.of main_v25) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v25) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v25) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v25) main_call0.v7 main_call0.call1.v0 select ]

/-- The segment sum of the target rows at the sources. -/
abbrev s6 : List (HloOp τ sig (Elt F)) :=
  [ nullary main_c_4 (constantI S_ 32 0#32),
    unary main_c_4 main_v27 (broadcastInDim S1000000 ![] bcast_S_S1000000 : (⟨S_, .i32⟩ : BufTy).Contents (Elt F) → (⟨S1000000, .i32⟩ : BufTy).Contents (Elt F)),
    binary main_v3 main_v27 main_v28 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 100000#32),
    unary main_c_5 main_v29 (broadcastInDim S1000000 ![] bcast_S_S1000000 : (⟨S_, .i32⟩ : BufTy).Contents (Elt F) → (⟨S1000000, .i32⟩ : BufTy).Contents (Elt F)),
    binary main_v3 main_v29 main_v30 (addi : (⟨S1000000, .i32⟩ : BufTy).Contents (Elt F) → (⟨S1000000, .i32⟩ : BufTy).Contents (Elt F) → (⟨S1000000, .i32⟩ : BufTy).Contents (Elt F)),
    ternary main_v28 main_v30 main_v3 main_v31 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v31 main_v32 (broadcastInDim S1000000x1 ![0] bcast_S1000000_S1000000x1_0 : (⟨S1000000, .i32⟩ : BufTy).Contents (Elt F) → (⟨S1000000x1, .i32⟩ : BufTy).Contents (Elt F)),
    binary main_arg0 main_v32 main_v33 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_cst_6 (constant S_ .f32 0x00000000#32),
    unary main_cst_6 main_v34 (broadcastInDim S100000x64 ![] bcast_S_S100000x64 : (⟨S_, .f32⟩ : BufTy).Contents (Elt F) → (⟨S100000x64, .f32⟩ : BufTy).Contents (Elt F)),
    unary main_v1 main_v35 (broadcastInDim S1000000x1 ![0] bcast_S1000000_S1000000x1_0 : (⟨S1000000, .i32⟩ : BufTy).Contents (Elt F) → (⟨S1000000x1, .i32⟩ : BufTy).Contents (Elt F)),
    ternary main_v34 main_v35 main_v33 main_v36 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ]

/-- The segment count at the sources. -/
abbrev s7 : List (HloOp τ sig (Elt F)) :=
  [ nullary main_cst_7 (constant S_ .f32 0x3F800000#32),
    unary main_cst_7 main_v37 (broadcastInDim S1000000x1 ![] bcast_S_S1000000x1 : (⟨S_, .f32⟩ : BufTy).Contents (Elt F) → (⟨S1000000x1, .f32⟩ : BufTy).Contents (Elt F)),
    nullary main_cst_8 (constant S_ .f32 0x00000000#32),
    unary main_cst_8 main_v38 (broadcastInDim S100000x1 ![] bcast_S_S100000x1 : (⟨S_, .f32⟩ : BufTy).Contents (Elt F) → (⟨S100000x1, .f32⟩ : BufTy).Contents (Elt F)),
    unary main_v1 main_v39 (broadcastInDim S1000000x1 ![0] bcast_S1000000_S1000000x1_0 : (⟨S1000000, .i32⟩ : BufTy).Contents (Elt F) → (⟨S1000000x1, .i32⟩ : BufTy).Contents (Elt F)),
    ternary main_v38 main_v39 main_v37 main_v40 ((fun x i u => Host.scatterAdd scatter_S100000x1_S1000000x1_S1000000x1_1_0_0_1 x i u) : (⟨S100000x1, .f32⟩ : BufTy).Contents (Elt F) → (⟨S1000000x1, .i32⟩ : BufTy).Contents (Elt F) → (⟨S1000000x1, .f32⟩ : BufTy).Contents (Elt F) → (⟨S100000x1, .f32⟩ : BufTy).Contents (Elt F)) ]

/-- The mean and the contraction with the second weights; the second bias broadcast. -/
abbrev s8 : List (HloOp τ sig (Elt F)) :=
  [ nullary main_cst_9 (constant S_ .f32 0x3F800000#32),
    unary main_cst_9 main_v41 (broadcastInDim S100000x1 ![] bcast_S_S100000x1 : (⟨S_, .f32⟩ : BufTy).Contents (Elt F) → (⟨S100000x1, .f32⟩ : BufTy).Contents (Elt F)),
    binary main_v40 main_v41 main_v42 (maximumf : (⟨S100000x1, .f32⟩ : BufTy).Contents (Elt F) → (⟨S100000x1, .f32⟩ : BufTy).Contents (Elt F) → (⟨S100000x1, .f32⟩ : BufTy).Contents (Elt F)),
    unary main_v42 main_v43 (broadcastInDim S100000x64 ![0, 1] bcast_S100000x1_S100000x64_0_1 : (⟨S100000x1, .f32⟩ : BufTy).Contents (Elt F) → (⟨S100000x64, .f32⟩ : BufTy).Contents (Elt F)),
    binary main_v36 main_v43 main_v44 (Host.divf : (⟨S100000x64, .f32⟩ : BufTy).Contents (Elt F) → (⟨S100000x64, .f32⟩ : BufTy).Contents (Elt F) → (⟨S100000x64, .f32⟩ : BufTy).Contents (Elt F)),
    binary main_v44 main_arg4 main_v45 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg5 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)) ]

/-- The second bias added and the unit: the second result. -/
abbrev s9 : List (HloOp τ sig (Elt F)) :=
  [ binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v48) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v48) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v48) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v48) main_call1.v7 main_call1.call1.v0 select ]

/-- The contraction of the node features with the third weights, the third bias added. -/
abbrev s10 : List (HloOp τ sig (Elt F)) :=
  [ binary main_arg0 main_arg6 main_v50 ((fun l r => Host.dotGeneral dot_S100000x64_S64x512_S100000x512_1_0_0_1_n_n none l r) : (⟨S100000x64, .f32⟩ : BufTy).Contents (Elt F) → (⟨S64x512, .f32⟩ : BufTy).Contents (Elt F) → (⟨S100000x512, .f32⟩ : BufTy).Contents (Elt F)),
    unary main_arg7 main_v51 (broadcastInDim S1x512 ![1] bcast_S512_S1x512_1 : (⟨S512, .f32⟩ : BufTy).Contents (Elt F) → (⟨S1x512, .f32⟩ : BufTy).Contents (Elt F)),
    unary main_v51 main_v52 (broadcastInDim S100000x512 ![0, 1] bcast_S1x512_S100000x512_0_1 : (⟨S1x512, .f32⟩ : BufTy).Contents (Elt F) → (⟨S100000x512, .f32⟩ : BufTy).Contents (Elt F)),
    binary main_v50 main_v52 main_v53 (addf : (⟨S100000x512, .f32⟩ : BufTy).Contents (Elt F) → (⟨S100000x512, .f32⟩ : BufTy).Contents (Elt F) → (⟨S100000x512, .f32⟩ : BufTy).Contents (Elt F)) ]

/-- The unit on the hidden layer. -/
abbrev s11 : List (HloOp τ sig (Elt F)) :=
  [ TRef.nullary main_call2.cst (constant S_ .f32 0x00000000#32),
    TRef.unary main_call2.cst main_call2.v0 (broadcastInDim S100000x512 ![] bcast_S_S100000x512),
    TRef.binary (.of main_v53) main_call2.v0 main_call2.v1 (cmpf .ogt),
    TRef.nullary main_call2.cst_0 (constant S_ .f32 0x00000000#32),
    TRef.unary main_call2.cst_0 main_call2.v2 (broadcastInDim S100000x512 ![] bcast_S_S100000x512),
    TRef.binary (.of main_v53) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x512 ![] bcast_S_S100000x512),
    TRef.ternary main_call2.v3 main_call2.call0.v1 (.of main_v53) main_call2.call0.v2 select,
    TRef.unary main_call2.call0.v2 main_call2.v5 Host.expm1,
    TRef.nullary main_call2.cst_2 (constant S_ .f32 0x3F800000#32),
    TRef.unary main_call2.cst_2 main_call2.v6 (broadcastInDim S100000x512 ![] bcast_S_S100000x512),
    TRef.binary main_call2.v6 main_call2.v5 main_call2.v7 mulf,
    TRef.ternary main_call2.v1 (.of main_v53) main_call2.v7 main_call2.call1.v0 select ]

/-- The contraction with the fourth weights, the fourth bias added. -/
abbrev s12 : List (HloOp τ sig (Elt F)) :=
  [ binary main_v54 main_arg8 main_v55 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    unary main_arg9 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v55 main_v57 main_v58 (addf : (⟨S100000x128, .f32⟩ : BufTy).Contents (Elt F) → (⟨S100000x128, .f32⟩ : BufTy).Contents (Elt F) → (⟨S100000x128, .f32⟩ : BufTy).Contents (Elt F)) ]

/-- The unit: the third result. -/
abbrev s13 : List (HloOp τ sig (Elt F)) :=
  [ TRef.nullary main_call3.cst (constant S_ .f32 0x00000000#32),
    TRef.unary main_call3.cst main_call3.v0 (broadcastInDim S100000x128 ![] bcast_S_S100000x128),
    TRef.binary (.of main_v58) main_call3.v0 main_call3.v1 (cmpf .ogt),
    TRef.nullary main_call3.cst_0 (constant S_ .f32 0x00000000#32),
    TRef.unary main_call3.cst_0 main_call3.v2 (broadcastInDim S100000x128 ![] bcast_S_S100000x128),
    TRef.binary (.of main_v58) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S100000x128 ![] bcast_S_S100000x128),
    TRef.ternary main_call3.v3 main_call3.call0.v1 (.of main_v58) main_call3.call0.v2 select,
    TRef.unary main_call3.call0.v2 main_call3.v5 Host.expm1,
    TRef.nullary main_call3.cst_2 (constant S_ .f32 0x3F800000#32),
    TRef.unary main_call3.cst_2 main_call3.v6 (broadcastInDim S100000x128 ![] bcast_S_S100000x128),
    TRef.binary main_call3.v6 main_call3.v5 main_call3.v7 mulf,
    TRef.ternary main_call3.v1 (.of main_v58) main_call3.v7 main_call3.call1.v0 select ]

set_option maxRecDepth 8192 in
/-- The first window is its eight stages joined. -/
theorem ops0_split : (ops0 : List (HloOp τ sig (Elt F))) = s1 ++ (s2 ++ (s3 ++ (s4 ++ (s5 ++ (s6 ++ (s7 ++ s8)))))) := rfl

set_option maxRecDepth 8192 in
/-- The second window is its five stages joined. -/
theorem ops1_split : (ops1 : List (HloOp τ sig (Elt F))) = s9 ++ (s10 ++ (s11 ++ (s12 ++ s13))) := rfl

end Cert.Sage.Ref

end
-- ==== Proof.RefTerms.lean ====
/-
  The four pieces of the reference's graph aggregation, each the composed term of the host operations that compute it.

  The edge array has two rows: the first holds each edge's source node, the second its target node. A segment sum of the
  node features gathers one feature row per edge at one endpoint (an index below zero counted from the end, as the
  program writes it: compared with zero, the row count added, selected) and adds the gathered rows at the other endpoint
  into an array of zeros. A segment count adds a one per edge at an endpoint into a one-column array of zeros.
-/
import proofs.«177135_j28054726378292_2_alg».proof.ReferenceIdeal
import proofs.«177135_j28054726378292_2_alg».proof.Proof.Gen.ReferenceIdeal
import Idealize.ShloMosaic.PureOps.Ideal

noncomputable section

namespace Cert.Sage.Ref

open Cert.ReferenceIdeal Cert.ReferenceIdeal.Gen Idealize.ShloMosaic Idealize.SL.Sem

/-- Row 0 of the edge array as a vector: the slice of its first row, re-laid as a vector. -/
def srcRow (e : (⟨S2x1000000, .i32⟩ : BufTy).Contents (Elt Ideal)) : (⟨S1000000, .i32⟩ : BufTy).Contents (Elt Ideal) :=
  shapeCast S1000000 (extractStridedSlice S1x1000000 ![0, 0] e slices_S2x1000000_S1x1000000_0_0) shapeCasts_S1x1000000_S1000000

/-- Row 1 of the edge array as a vector: the slice of its second row, re-laid as a vector. -/
def dstRow (e : (⟨S2x1000000, .i32⟩ : BufTy).Contents (Elt Ideal)) : (⟨S1000000, .i32⟩ : BufTy).Contents (Elt Ideal) :=
  shapeCast S1000000 (extractStridedSlice S1x1000000 ![1, 0] e slices_S2x1000000_S1x1000000_1_0) shapeCasts_S1x1000000_S1000000

/-- Segment sum: the rows of x gathered at the indices g (a negative index wrapped by the row count), added at the
    indices s into an array of zeros. -/
def segSum (x : (⟨S100000x64, .f32⟩ : BufTy).Contents (Elt Ideal)) (g s : (⟨S1000000, .i32⟩ : BufTy).Contents (Elt Ideal)) :
    (⟨S100000x64, .f32⟩ : BufTy).Contents (Elt Ideal) :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 s)
    (Host.gather gather_S100000x64_S1000000x1_S1000000x64_1_0_n_n_0_1_164 x
      (broadcastInDim S1000000x1 ![0] bcast_S1000000_S1000000x1_0
        (select (cmpi .slt g (broadcastInDim S1000000 ![] bcast_S_S1000000 (constantI S_ 32 0#32)))
          (addi g (broadcastInDim S1000000 ![] bcast_S_S1000000 (constantI S_ 32 100000#32))) g)))

/-- Segment count: ones added at the indices s into a one-column array of zeros. -/
def segCnt (s : (⟨S1000000, .i32⟩ : BufTy).Contents (Elt Ideal)) : (⟨S100000x1, .f32⟩ : BufTy).Contents (Elt Ideal) :=
  Host.scatterAdd (F := Ideal) scatter_S100000x1_S1000000x1_S1000000x1_1_0_0_1
    (broadcastInDim S100000x1 ![] bcast_S_S100000x1 (constant (F := Ideal) S_ .f32 0x00000000#32))
    (broadcastInDim S1000000x1 ![0] bcast_S1000000_S1000000x1_0 s)
    (broadcastInDim S1000000x1 ![] bcast_S_S1000000x1 (constant (F := Ideal) S_ .f32 0x3F800000#32))

end Cert.Sage.Ref

end
-- ==== Proof.RefForms.lean ====
/-
  The host's spellings of the three layer pieces are the whole-array functions of the specification.

  The exponential linear unit is written by the host as: select, where y is above zero, y, and elsewhere one times
  (exp − 1) of a second selection that is zero where y is above zero and y elsewhere. Off the positive branch the inner
  selection is y, and one times a value is the value; so entry by entry it is `elu`. The mean divides the segment sum by
  the larger of the count and one broadcast along the rows; that divisor is never zero, so the quotient is the product
  with the inverse. A layer is the contraction plus the bias broadcast in two steps, then the unit.
-/
import proofs.«177135_j28054726378292_2_alg».proof.Proof.Spec

noncomputable section

namespace Cert.Sage.Ref

open Idealize.ShloMosaic Idealize.ShloMosaic.ValueIdx Cert.LibPlainDot Cert.LibRowScale

/-- Selecting on "a is above zero": the first value when it is, the second when it is not. -/
theorem select_ogt_zero {α : Type} (a : EReal) (u v : α) :
    Scalar.select (Ideal.cmp .ogt a 0) u v = if 0 < a then u else v := by
  show (if BitVec.ofBool (decide (0 < a)) = 1 then u else v) = _
  by_cases h : 0 < a
  · rw [if_pos h, decide_eq_true h]; rfl
  · rw [if_neg h, decide_eq_false h]; rfl

/-- The host's exponential linear unit, as the operations compose it: the comparison with a broadcast zero, the inner
    selection between a broadcast zero and y, exp − 1 of it, the product with a broadcast one, the outer selection. -/
def eluHost {s : Shape} (h : (⟨0, ![]⟩ : Shape).BroadcastsInDim s ![]) (y : FVec Ideal s .f32) : FVec Ideal s .f32 :=
  select (cmpf .ogt y (broadcastInDim s ![] h (constant (F := Ideal) ⟨0, ![]⟩ .f32 0x00000000#32))) y
    (mulf (broadcastInDim s ![] h (constant (F := Ideal) ⟨0, ![]⟩ .f32 0x3F800000#32))
      (Host.expm1 (F := Ideal)
        (select (cmpf .ogt y (broadcastInDim s ![] h (constant (F := Ideal) ⟨0, ![]⟩ .f32 0x00000000#32)))
          (broadcastInDim s ![] h (id (constant (F := Ideal) ⟨0, ![]⟩ .f32 0x00000000#32))) y)))

/-- Entry by entry the host's unit is `elu`. -/
theorem eluHost_apply {s : Shape} (h : (⟨0, ![]⟩ : Shape).BroadcastsInDim s ![]) (y : FVec Ideal s .f32) (i : s.Idx) :
    eluHost h y i = Cert.Sage.elu (y i) := by
  show Scalar.select (Ideal.cmp .ogt (y i) (Ideal.ofBits .f32 0x00000000#32)) (y i)
      (Ideal.ofBits .f32 0x3F800000#32 * (Ideal.exp (Scalar.select (Ideal.cmp .ogt (y i) (Ideal.ofBits .f32 0x00000000#32))
        (Ideal.ofBits .f32 0x00000000#32) (y i)) - 1)) = _
  rw [Ideal.ofBits_zero_f32, one_f32, select_ogt_zero, select_ogt_zero]
  show _ = (if 0 < y i then y i else Ideal.exp (y i) - 1)
  by_cases hp : 0 < y i
  · rw [if_pos hp, if_pos hp]
  · rw [if_neg hp, if_neg hp, if_neg hp, one_mul]

theorem eluHost_eq {s : Shape} (h : (⟨0, ![]⟩ : Shape).BroadcastsInDim s ![]) (y : FVec Ideal s .f32) :
    eluHost h y = fun i => Cert.Sage.elu (y i) :=
  funext (eluHost_apply h y)

/-- The host's mean: the sums divided by the larger of the count and a broadcast one, broadcast along the rows. -/
theorem mean_host_eq {M N : ℕ} (S : FVec Ideal ⟨2, ![M, N]⟩ .f32) (C : FVec Ideal ⟨2, ![M, 1]⟩ .f32)
    (hb : (⟨2, ![M, 1]⟩ : Shape).BroadcastsInDim ⟨2, ![M, N]⟩ ![0, 1])
    (h1 : (⟨0, ![]⟩ : Shape).BroadcastsInDim ⟨2, ![M, 1]⟩ ![]) :
    Host.divf (F := Ideal) S (broadcastInDim ⟨2, ![M, N]⟩ ![0, 1] hb
        (maximumf C (broadcastInDim ⟨2, ![M, 1]⟩ ![] h1 (constant (F := Ideal) ⟨0, ![]⟩ .f32 0x3F800000#32))))
      = Cert.Sage.mean S C := by
  funext j
  obtain ⟨p, q, rfl⟩ : ∃ (p : Fin M) (q : Fin N), j = ix2 p q := ⟨j 0, j 1, eq_ix2 j⟩
  rw [Cert.Sage.mean_apply]
  show Ideal.div (S (ix2 p q)) (broadcastInDim ⟨2, ![M, N]⟩ ![0, 1] hb
      (maximumf C (broadcastInDim ⟨2, ![M, 1]⟩ ![] h1 (constant (F := Ideal) ⟨0, ![]⟩ .f32 0x3F800000#32))) (ix2 p q)) = _
  rw [broadcastInDim_col_apply]
  show Ideal.div (S (ix2 p q)) (max (C (ix2 p (0 : Fin 1))) (Ideal.ofBits .f32 0x3F800000#32)) = _
  rw [one_f32, Cert.Sage.div_max_one]

/-- The host's layer: the contraction, the bias broadcast to one row and then down the rows, the unit. -/
theorem lin_host_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (h0 : (⟨0, ![]⟩ : Shape).BroadcastsInDim ⟨2, ![M, N]⟩ ![]) :
    eluHost h0 (addf (Host.dotGeneral (F := Ideal) d none x w)
        (broadcastInDim ⟨2, ![M, N]⟩ ![0, 1] hbc (broadcastInDim ⟨2, ![1, N]⟩ ![1] hr b)))
      = Cert.Sage.lin x w b := by
  rw [dot_bias_eq d h1 h2 h3 h4 h5 h6 x w b hr hbc, eluHost_eq]
  rfl

end Cert.Sage.Ref

end
-- ==== Proof.RefStageOut.lean ====
/-
  Each stage read back from any starting contents W.

  A stage's fold read at the buffer of its last operation is the composed term of the stage's operations over W at the
  buffers the stage reads: each operation's result at its own buffer is its function's value at its operands' contents,
  at another buffer what was there; an outlined function's operations carry values between the buffers' types and the
  values' types along equations that are reflexivity at these buffers.
-/
import proofs.«177135_j28054726378292_2_alg».proof.Proof.RefStage
import proofs.«177135_j28054726378292_2_alg».proof.Proof.RefTerms
import proofs.«177135_j28054726378292_2_alg».proof.Proof.RefForms
import proofs.«177135_j28054726378292_2_alg».proof.Proof.LibReadBack

set_option Elab.async false

noncomputable section

namespace Cert.Sage.Ref

open Cert.ReferenceIdeal Cert.ReferenceIdeal.Gen Idealize.ShloMosaic Idealize.ShloMosaic.TcCoe Idealize.SL.Sem Idealize.ShloMosaic.StableHlo
open Cert.Lib

attribute [local irreducible] Host.gather Host.scatterAdd

set_option maxRecDepth 8192 in
set_option maxHeartbeats 2000000 in
theorem s1_main_v1 (W : Valuation τ sig (Elt Ideal)) :
    after s1 W (main_v1 : DevRef τ sig) = srcRow (W (main_arg1 : DevRef τ sig)) := by
  read_back
  all_goals rfl

set_option maxRecDepth 8192 in
set_option maxHeartbeats 2000000 in
theorem s1_main_v3 (W : Valuation τ sig (Elt Ideal)) :
    after s1 W (main_v3 : DevRef τ sig) = dstRow (W (main_arg1 : DevRef τ sig)) := by
  read_back
  all_goals rfl

set_option maxRecDepth 8192 in
set_option maxHeartbeats 2000000 in
theorem s2_main_v13 (W : Valuation τ sig (Elt Ideal)) :
    after s2 W (main_v13 : DevRef τ sig) = segSum (W (main_arg0 : DevRef τ sig)) (W (main_v1 : DevRef τ sig)) (W (main_v3 : DevRef τ sig)) := by
  read_back
  all_goals rfl

set_option maxRecDepth 8192 in
set_option maxHeartbeats 2000000 in
theorem s3_main_v17 (W : Valuation τ sig (Elt Ideal)) :
    after s3 W (main_v17 : DevRef τ sig) = segCnt (W (main_v3 : DevRef τ sig)) := by
  read_back
  all_goals rfl

set_option maxRecDepth 8192 in
set_option maxHeartbeats 2000000 in
theorem s4_main_v25 (W : Valuation τ sig (Elt Ideal)) :
    after s4 W (main_v25 : DevRef τ sig) = addf (Host.dotGeneral (F := Ideal) (φ₁ := .f32) (φ₂ := .f32) dot_S100000x64_S64x128_S100000x128_1_0_0_1_n_n none (Host.divf (F := Ideal) (W (main_v13 : DevRef τ sig)) (broadcastInDim S100000x64 ![0, 1] bcast_S100000x1_S100000x64_0_1 (maximumf (W (main_v17 : DevRef τ sig)) (broadcastInDim S100000x1 ![] bcast_S_S100000x1 (constant (F := Ideal) S_ .f32 0x3F800000#32))))) (W (main_arg2 : DevRef τ sig))) (broadcastInDim S100000x128 ![0, 1] bcast_S1x128_S100000x128_0_1 (broadcastInDim S1x128 ![1] bcast_S128_S1x128_1 (W (main_arg3 : DevRef τ sig)))) := by
  read_back
  all_goals rfl

set_option maxRecDepth 8192 in
set_option maxHeartbeats 2000000 in
theorem s5_main_v26 (W : Valuation τ sig (Elt Ideal)) :
    after s5 W (main_v26 : DevRef τ sig) = eluHost bcast_S_S100000x128 (W (main_v25 : DevRef τ sig)) := by
  read_back
  all_goals rfl

set_option maxRecDepth 8192 in
set_option maxHeartbeats 2000000 in
theorem s6_main_v36 (W : Valuation τ sig (Elt Ideal)) :
    after s6 W (main_v36 : DevRef τ sig) = segSum (W (main_arg0 : DevRef τ sig)) (W (main_v3 : DevRef τ sig)) (W (main_v1 : DevRef τ sig)) := by
  read_back
  all_goals rfl

set_option maxRecDepth 8192 in
set_option maxHeartbeats 2000000 in
theorem s7_main_v40 (W : Valuation τ sig (Elt Ideal)) :
    after s7 W (main_v40 : DevRef τ sig) = segCnt (W (main_v1 : DevRef τ sig)) := by
  read_back
  all_goals rfl

set_option maxRecDepth 8192 in
set_option maxHeartbeats 2000000 in
theorem s8_main_v45 (W : Valuation τ sig (Elt Ideal)) :
    after s8 W (main_v45 : DevRef τ sig) = (Host.dotGeneral (F := Ideal) (φ₁ := .f32) (φ₂ := .f32) dot_S100000x64_S64x128_S100000x128_1_0_0_1_n_n none (Host.divf (F := Ideal) (W (main_v36 : DevRef τ sig)) (broadcastInDim S100000x64 ![0, 1] bcast_S100000x1_S100000x64_0_1 (maximumf (W (main_v40 : DevRef τ sig)) (broadcastInDim S100000x1 ![] bcast_S_S100000x1 (constant (F := Ideal) S_ .f32 0x3F800000#32))))) (W (main_arg4 : DevRef τ sig))) := by
  read_back
  all_goals rfl

set_option maxRecDepth 8192 in
set_option maxHeartbeats 2000000 in
theorem s8_main_v47 (W : Valuation τ sig (Elt Ideal)) :
    after s8 W (main_v47 : DevRef τ sig) = (broadcastInDim S100000x128 ![0, 1] bcast_S1x128_S100000x128_0_1 (broadcastInDim S1x128 ![1] bcast_S128_S1x128_1 (W (main_arg5 : DevRef τ sig)))) := by
  read_back
  all_goals rfl

set_option maxRecDepth 8192 in
set_option maxHeartbeats 2000000 in
theorem s9_main_v49 (W : Valuation τ sig (Elt Ideal)) :
    after s9 W (main_v49 : DevRef τ sig) = eluHost bcast_S_S100000x128 (addf (W (main_v45 : DevRef τ sig)) (W (main_v47 : DevRef τ sig))) := by
  read_back
  all_goals rfl

set_option maxRecDepth 8192 in
set_option maxHeartbeats 2000000 in
theorem s10_main_v53 (W : Valuation τ sig (Elt Ideal)) :
    after s10 W (main_v53 : DevRef τ sig) = addf (Host.dotGeneral (F := Ideal) (φ₁ := .f32) (φ₂ := .f32) dot_S100000x64_S64x512_S100000x512_1_0_0_1_n_n none (W (main_arg0 : DevRef τ sig)) (W (main_arg6 : DevRef τ sig))) (broadcastInDim S100000x512 ![0, 1] bcast_S1x512_S100000x512_0_1 (broadcastInDim S1x512 ![1] bcast_S512_S1x512_1 (W (main_arg7 : DevRef τ sig)))) := by
  read_back
  all_goals rfl

set_option maxRecDepth 8192 in
set_option maxHeartbeats 2000000 in
theorem s11_main_v54 (W : Valuation τ sig (Elt Ideal)) :
    after s11 W (main_v54 : DevRef τ sig) = eluHost bcast_S_S100000x512 (W (main_v53 : DevRef τ sig)) := by
  read_back
  all_goals rfl

set_option maxRecDepth 8192 in
set_option maxHeartbeats 2000000 in
theorem s12_main_v58 (W : Valuation τ sig (Elt Ideal)) :
    after s12 W (main_v58 : DevRef τ sig) = addf (Host.dotGeneral (F := Ideal) (φ₁ := .f32) (φ₂ := .f32) dot_S100000x512_S512x128_S100000x128_1_0_0_1_n_n none (W (main_v54 : DevRef τ sig)) (W (main_arg8 : DevRef τ sig))) (broadcastInDim S100000x128 ![0, 1] bcast_S1x128_S100000x128_0_1 (broadcastInDim S1x128 ![1] bcast_S128_S1x128_1 (W (main_arg9 : DevRef τ sig)))) := by
  read_back
  all_goals rfl

set_option maxRecDepth 8192 in
set_option maxHeartbeats 2000000 in
theorem s13_main_v59 (W : Valuation τ sig (Elt Ideal)) :
    after s13 W (main_v59 : DevRef τ sig) = eluHost bcast_S_S100000x128 (W (main_v58 : DevRef τ sig)) := by
  read_back
  all_goals rfl

end Cert.Sage.Ref

end
-- ==== Proof.RefVals.lean ====
/-
  The contents after each stage, and what the live buffers hold there as composed terms of the arguments.

  The contents after stage k are the stage's fold over the contents after stage k − 1. A buffer the stage writes last
  holds the stage's composed term of what the earlier contents hold at the buffers it reads; a buffer the stage does
  not write holds what it held. Followed through the thirteen stages this gives, for every buffer still read later or
  returned, its composed term of the arguments' starting contents; and the fold over the whole line is the contents
  after the last stage, since a fold over joined lists is the folds one after the other.
-/
import proofs.«177135_j28054726378292_2_alg».proof.Proof.RefStageOut

set_option Elab.async false

noncomputable section

namespace Cert.Sage.Ref

open Cert.ReferenceIdeal Cert.ReferenceIdeal.Gen Idealize.ShloMosaic Idealize.ShloMosaic.TcCoe Idealize.SL.Sem Idealize.ShloMosaic.StableHlo

/-- The fold over two lines one after the other is the second's fold over the first's. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- The contents before the first stage. -/
def val0 (V : Valuation τ sig (Elt Ideal)) : Valuation τ sig (Elt Ideal) := V
theorem val0_main_arg0 (V : Valuation τ sig (Elt Ideal)) : val0 V (main_arg0 : DevRef τ sig) = (V (main_arg0 : DevRef τ sig)) := rfl
theorem val0_main_arg1 (V : Valuation τ sig (Elt Ideal)) : val0 V (main_arg1 : DevRef τ sig) = (V (main_arg1 : DevRef τ sig)) := rfl
theorem val0_main_arg2 (V : Valuation τ sig (Elt Ideal)) : val0 V (main_arg2 : DevRef τ sig) = (V (main_arg2 : DevRef τ sig)) := rfl
theorem val0_main_arg3 (V : Valuation τ sig (Elt Ideal)) : val0 V (main_arg3 : DevRef τ sig) = (V (main_arg3 : DevRef τ sig)) := rfl
theorem val0_main_arg4 (V : Valuation τ sig (Elt Ideal)) : val0 V (main_arg4 : DevRef τ sig) = (V (main_arg4 : DevRef τ sig)) := rfl
theorem val0_main_arg5 (V : Valuation τ sig (Elt Ideal)) : val0 V (main_arg5 : DevRef τ sig) = (V (main_arg5 : DevRef τ sig)) := rfl
theorem val0_main_arg6 (V : Valuation τ sig (Elt Ideal)) : val0 V (main_arg6 : DevRef τ sig) = (V (main_arg6 : DevRef τ sig)) := rfl
theorem val0_main_arg7 (V : Valuation τ sig (Elt Ideal)) : val0 V (main_arg7 : DevRef τ sig) = (V (main_arg7 : DevRef τ sig)) := rfl
theorem val0_main_arg8 (V : Valuation τ sig (Elt Ideal)) : val0 V (main_arg8 : DevRef τ sig) = (V (main_arg8 : DevRef τ sig)) := rfl
theorem val0_main_arg9 (V : Valuation τ sig (Elt Ideal)) : val0 V (main_arg9 : DevRef τ sig) = (V (main_arg9 : DevRef τ sig)) := rfl

/-- The contents after the first 1 stage. -/
def val1 (V : Valuation τ sig (Elt Ideal)) : Valuation τ sig (Elt Ideal) := after s1 (val0 V)
theorem s1_keep_main_arg0 (W : Valuation τ sig (Elt Ideal)) : after s1 W (main_arg0 : DevRef τ sig) = W (main_arg0 : DevRef τ sig) := by
  after_results_simp
theorem val1_main_arg0 (V : Valuation τ sig (Elt Ideal)) : val1 V (main_arg0 : DevRef τ sig) = (V (main_arg0 : DevRef τ sig)) :=
  (s1_keep_main_arg0 (val0 V)).trans (val0_main_arg0 V)
theorem s1_keep_main_arg1 (W : Valuation τ sig (Elt Ideal)) : after s1 W (main_arg1 : DevRef τ sig) = W (main_arg1 : DevRef τ sig) := by
  after_results_simp
theorem val1_main_arg1 (V : Valuation τ sig (Elt Ideal)) : val1 V (main_arg1 : DevRef τ sig) = (V (main_arg1 : DevRef τ sig)) :=
  (s1_keep_main_arg1 (val0 V)).trans (val0_main_arg1 V)
theorem s1_keep_main_arg2 (W : Valuation τ sig (Elt Ideal)) : after s1 W (main_arg2 : DevRef τ sig) = W (main_arg2 : DevRef τ sig) := by
  after_results_simp
theorem val1_main_arg2 (V : Valuation τ sig (Elt Ideal)) : val1 V (main_arg2 : DevRef τ sig) = (V (main_arg2 : DevRef τ sig)) :=
  (s1_keep_main_arg2 (val0 V)).trans (val0_main_arg2 V)
theorem s1_keep_main_arg3 (W : Valuation τ sig (Elt Ideal)) : after s1 W (main_arg3 : DevRef τ sig) = W (main_arg3 : DevRef τ sig) := by
  after_results_simp
theorem val1_main_arg3 (V : Valuation τ sig (Elt Ideal)) : val1 V (main_arg3 : DevRef τ sig) = (V (main_arg3 : DevRef τ sig)) :=
  (s1_keep_main_arg3 (val0 V)).trans (val0_main_arg3 V)
theorem s1_keep_main_arg4 (W : Valuation τ sig (Elt Ideal)) : after s1 W (main_arg4 : DevRef τ sig) = W (main_arg4 : DevRef τ sig) := by
  after_results_simp
theorem val1_main_arg4 (V : Valuation τ sig (Elt Ideal)) : val1 V (main_arg4 : DevRef τ sig) = (V (main_arg4 : DevRef τ sig)) :=
  (s1_keep_main_arg4 (val0 V)).trans (val0_main_arg4 V)
theorem s1_keep_main_arg5 (W : Valuation τ sig (Elt Ideal)) : after s1 W (main_arg5 : DevRef τ sig) = W (main_arg5 : DevRef τ sig) := by
  after_results_simp
theorem val1_main_arg5 (V : Valuation τ sig (Elt Ideal)) : val1 V (main_arg5 : DevRef τ sig) = (V (main_arg5 : DevRef τ sig)) :=
  (s1_keep_main_arg5 (val0 V)).trans (val0_main_arg5 V)
theorem s1_keep_main_arg6 (W : Valuation τ sig (Elt Ideal)) : after s1 W (main_arg6 : DevRef τ sig) = W (main_arg6 : DevRef τ sig) := by
  after_results_simp
theorem val1_main_arg6 (V : Valuation τ sig (Elt Ideal)) : val1 V (main_arg6 : DevRef τ sig) = (V (main_arg6 : DevRef τ sig)) :=
  (s1_keep_main_arg6 (val0 V)).trans (val0_main_arg6 V)
theorem s1_keep_main_arg7 (W : Valuation τ sig (Elt Ideal)) : after s1 W (main_arg7 : DevRef τ sig) = W (main_arg7 : DevRef τ sig) := by
  after_results_simp
theorem val1_main_arg7 (V : Valuation τ sig (Elt Ideal)) : val1 V (main_arg7 : DevRef τ sig) = (V (main_arg7 : DevRef τ sig)) :=
  (s1_keep_main_arg7 (val0 V)).trans (val0_main_arg7 V)
theorem s1_keep_main_arg8 (W : Valuation τ sig (Elt Ideal)) : after s1 W (main_arg8 : DevRef τ sig) = W (main_arg8 : DevRef τ sig) := by
  after_results_simp
theorem val1_main_arg8 (V : Valuation τ sig (Elt Ideal)) : val1 V (main_arg8 : DevRef τ sig) = (V (main_arg8 : DevRef τ sig)) :=
  (s1_keep_main_arg8 (val0 V)).trans (val0_main_arg8 V)
theorem s1_keep_main_arg9 (W : Valuation τ sig (Elt Ideal)) : after s1 W (main_arg9 : DevRef τ sig) = W (main_arg9 : DevRef τ sig) := by
  after_results_simp
theorem val1_main_arg9 (V : Valuation τ sig (Elt Ideal)) : val1 V (main_arg9 : DevRef τ sig) = (V (main_arg9 : DevRef τ sig)) :=
  (s1_keep_main_arg9 (val0 V)).trans (val0_main_arg9 V)
theorem val1_main_v1 (V : Valuation τ sig (Elt Ideal)) : val1 V (main_v1 : DevRef τ sig) = srcRow (V (main_arg1 : DevRef τ sig)) :=
  (s1_main_v1 (val0 V)).trans (by rw [val0_main_arg1 V])
theorem val1_main_v3 (V : Valuation τ sig (Elt Ideal)) : val1 V (main_v3 : DevRef τ sig) = dstRow (V (main_arg1 : DevRef τ sig)) :=
  (s1_main_v3 (val0 V)).trans (by rw [val0_main_arg1 V])

/-- The contents after the first 2 stages. -/
def val2 (V : Valuation τ sig (Elt Ideal)) : Valuation τ sig (Elt Ideal) := after s2 (val1 V)
theorem s2_keep_main_arg0 (W : Valuation τ sig (Elt Ideal)) : after s2 W (main_arg0 : DevRef τ sig) = W (main_arg0 : DevRef τ sig) := by
  after_results_simp
theorem val2_main_arg0 (V : Valuation τ sig (Elt Ideal)) : val2 V (main_arg0 : DevRef τ sig) = (V (main_arg0 : DevRef τ sig)) :=
  (s2_keep_main_arg0 (val1 V)).trans (val1_main_arg0 V)
theorem s2_keep_main_arg1 (W : Valuation τ sig (Elt Ideal)) : after s2 W (main_arg1 : DevRef τ sig) = W (main_arg1 : DevRef τ sig) := by
  after_results_simp
theorem val2_main_arg1 (V : Valuation τ sig (Elt Ideal)) : val2 V (main_arg1 : DevRef τ sig) = (V (main_arg1 : DevRef τ sig)) :=
  (s2_keep_main_arg1 (val1 V)).trans (val1_main_arg1 V)
theorem s2_keep_main_arg2 (W : Valuation τ sig (Elt Ideal)) : after s2 W (main_arg2 : DevRef τ sig) = W (main_arg2 : DevRef τ sig) := by
  after_results_simp
theorem val2_main_arg2 (V : Valuation τ sig (Elt Ideal)) : val2 V (main_arg2 : DevRef τ sig) = (V (main_arg2 : DevRef τ sig)) :=
  (s2_keep_main_arg2 (val1 V)).trans (val1_main_arg2 V)
theorem s2_keep_main_arg3 (W : Valuation τ sig (Elt Ideal)) : after s2 W (main_arg3 : DevRef τ sig) = W (main_arg3 : DevRef τ sig) := by
  after_results_simp
theorem val2_main_arg3 (V : Valuation τ sig (Elt Ideal)) : val2 V (main_arg3 : DevRef τ sig) = (V (main_arg3 : DevRef τ sig)) :=
  (s2_keep_main_arg3 (val1 V)).trans (val1_main_arg3 V)
theorem s2_keep_main_arg4 (W : Valuation τ sig (Elt Ideal)) : after s2 W (main_arg4 : DevRef τ sig) = W (main_arg4 : DevRef τ sig) := by
  after_results_simp
theorem val2_main_arg4 (V : Valuation τ sig (Elt Ideal)) : val2 V (main_arg4 : DevRef τ sig) = (V (main_arg4 : DevRef τ sig)) :=
  (s2_keep_main_arg4 (val1 V)).trans (val1_main_arg4 V)
theorem s2_keep_main_arg5 (W : Valuation τ sig (Elt Ideal)) : after s2 W (main_arg5 : DevRef τ sig) = W (main_arg5 : DevRef τ sig) := by
  after_results_simp
theorem val2_main_arg5 (V : Valuation τ sig (Elt Ideal)) : val2 V (main_arg5 : DevRef τ sig) = (V (main_arg5 : DevRef τ sig)) :=
  (s2_keep_main_arg5 (val1 V)).trans (val1_main_arg5 V)
theorem s2_keep_main_arg6 (W : Valuation τ sig (Elt Ideal)) : after s2 W (main_arg6 : DevRef τ sig) = W (main_arg6 : DevRef τ sig) := by
  after_results_simp
theorem val2_main_arg6 (V : Valuation τ sig (Elt Ideal)) : val2 V (main_arg6 : DevRef τ sig) = (V (main_arg6 : DevRef τ sig)) :=
  (s2_keep_main_arg6 (val1 V)).trans (val1_main_arg6 V)
theorem s2_keep_main_arg7 (W : Valuation τ sig (Elt Ideal)) : after s2 W (main_arg7 : DevRef τ sig) = W (main_arg7 : DevRef τ sig) := by
  after_results_simp
theorem val2_main_arg7 (V : Valuation τ sig (Elt Ideal)) : val2 V (main_arg7 : DevRef τ sig) = (V (main_arg7 : DevRef τ sig)) :=
  (s2_keep_main_arg7 (val1 V)).trans (val1_main_arg7 V)
theorem s2_keep_main_arg8 (W : Valuation τ sig (Elt Ideal)) : after s2 W (main_arg8 : DevRef τ sig) = W (main_arg8 : DevRef τ sig) := by
  after_results_simp
theorem val2_main_arg8 (V : Valuation τ sig (Elt Ideal)) : val2 V (main_arg8 : DevRef τ sig) = (V (main_arg8 : DevRef τ sig)) :=
  (s2_keep_main_arg8 (val1 V)).trans (val1_main_arg8 V)
theorem s2_keep_main_arg9 (W : Valuation τ sig (Elt Ideal)) : after s2 W (main_arg9 : DevRef τ sig) = W (main_arg9 : DevRef τ sig) := by
  after_results_simp
theorem val2_main_arg9 (V : Valuation τ sig (Elt Ideal)) : val2 V (main_arg9 : DevRef τ sig) = (V (main_arg9 : DevRef τ sig)) :=
  (s2_keep_main_arg9 (val1 V)).trans (val1_main_arg9 V)
theorem s2_keep_main_v3 (W : Valuation τ sig (Elt Ideal)) : after s2 W (main_v3 : DevRef τ sig) = W (main_v3 : DevRef τ sig) := by
  after_results_simp
theorem val2_main_v3 (V : Valuation τ sig (Elt Ideal)) : val2 V (main_v3 : DevRef τ sig) = dstRow (V (main_arg1 : DevRef τ sig)) :=
  (s2_keep_main_v3 (val1 V)).trans (val1_main_v3 V)
theorem val2_main_v13 (V : Valuation τ sig (Elt Ideal)) : val2 V (main_v13 : DevRef τ sig) = segSum (V (main_arg0 : DevRef τ sig)) (srcRow (V (main_arg1 : DevRef τ sig))) (dstRow (V (main_arg1 : DevRef τ sig))) :=
  (s2_main_v13 (val1 V)).trans (by rw [val1_main_arg0 V, val1_main_v1 V, val1_main_v3 V])
theorem s2_keep_main_v1 (W : Valuation τ sig (Elt Ideal)) : after s2 W (main_v1 : DevRef τ sig) = W (main_v1 : DevRef τ sig) := by
  after_results_simp
theorem val2_main_v1 (V : Valuation τ sig (Elt Ideal)) : val2 V (main_v1 : DevRef τ sig) = srcRow (V (main_arg1 : DevRef τ sig)) :=
  (s2_keep_main_v1 (val1 V)).trans (val1_main_v1 V)

/-- The contents after the first 3 stages. -/
def val3 (V : Valuation τ sig (Elt Ideal)) : Valuation τ sig (Elt Ideal) := after s3 (val2 V)
theorem s3_keep_main_arg0 (W : Valuation τ sig (Elt Ideal)) : after s3 W (main_arg0 : DevRef τ sig) = W (main_arg0 : DevRef τ sig) := by
  after_results_simp
theorem val3_main_arg0 (V : Valuation τ sig (Elt Ideal)) : val3 V (main_arg0 : DevRef τ sig) = (V (main_arg0 : DevRef τ sig)) :=
  (s3_keep_main_arg0 (val2 V)).trans (val2_main_arg0 V)
theorem s3_keep_main_arg1 (W : Valuation τ sig (Elt Ideal)) : after s3 W (main_arg1 : DevRef τ sig) = W (main_arg1 : DevRef τ sig) := by
  after_results_simp
theorem val3_main_arg1 (V : Valuation τ sig (Elt Ideal)) : val3 V (main_arg1 : DevRef τ sig) = (V (main_arg1 : DevRef τ sig)) :=
  (s3_keep_main_arg1 (val2 V)).trans (val2_main_arg1 V)
theorem s3_keep_main_arg2 (W : Valuation τ sig (Elt Ideal)) : after s3 W (main_arg2 : DevRef τ sig) = W (main_arg2 : DevRef τ sig) := by
  after_results_simp
theorem val3_main_arg2 (V : Valuation τ sig (Elt Ideal)) : val3 V (main_arg2 : DevRef τ sig) = (V (main_arg2 : DevRef τ sig)) :=
  (s3_keep_main_arg2 (val2 V)).trans (val2_main_arg2 V)
theorem s3_keep_main_arg3 (W : Valuation τ sig (Elt Ideal)) : after s3 W (main_arg3 : DevRef τ sig) = W (main_arg3 : DevRef τ sig) := by
  after_results_simp
theorem val3_main_arg3 (V : Valuation τ sig (Elt Ideal)) : val3 V (main_arg3 : DevRef τ sig) = (V (main_arg3 : DevRef τ sig)) :=
  (s3_keep_main_arg3 (val2 V)).trans (val2_main_arg3 V)
theorem s3_keep_main_arg4 (W : Valuation τ sig (Elt Ideal)) : after s3 W (main_arg4 : DevRef τ sig) = W (main_arg4 : DevRef τ sig) := by
  after_results_simp
theorem val3_main_arg4 (V : Valuation τ sig (Elt Ideal)) : val3 V (main_arg4 : DevRef τ sig) = (V (main_arg4 : DevRef τ sig)) :=
  (s3_keep_main_arg4 (val2 V)).trans (val2_main_arg4 V)
theorem s3_keep_main_arg5 (W : Valuation τ sig (Elt Ideal)) : after s3 W (main_arg5 : DevRef τ sig) = W (main_arg5 : DevRef τ sig) := by
  after_results_simp
theorem val3_main_arg5 (V : Valuation τ sig (Elt Ideal)) : val3 V (main_arg5 : DevRef τ sig) = (V (main_arg5 : DevRef τ sig)) :=
  (s3_keep_main_arg5 (val2 V)).trans (val2_main_arg5 V)
theorem s3_keep_main_arg6 (W : Valuation τ sig (Elt Ideal)) : after s3 W (main_arg6 : DevRef τ sig) = W (main_arg6 : DevRef τ sig) := by
  after_results_simp
theorem val3_main_arg6 (V : Valuation τ sig (Elt Ideal)) : val3 V (main_arg6 : DevRef τ sig) = (V (main_arg6 : DevRef τ sig)) :=
  (s3_keep_main_arg6 (val2 V)).trans (val2_main_arg6 V)
theorem s3_keep_main_arg7 (W : Valuation τ sig (Elt Ideal)) : after s3 W (main_arg7 : DevRef τ sig) = W (main_arg7 : DevRef τ sig) := by
  after_results_simp
theorem val3_main_arg7 (V : Valuation τ sig (Elt Ideal)) : val3 V (main_arg7 : DevRef τ sig) = (V (main_arg7 : DevRef τ sig)) :=
  (s3_keep_main_arg7 (val2 V)).trans (val2_main_arg7 V)
theorem s3_keep_main_arg8 (W : Valuation τ sig (Elt Ideal)) : after s3 W (main_arg8 : DevRef τ sig) = W (main_arg8 : DevRef τ sig) := by
  after_results_simp
theorem val3_main_arg8 (V : Valuation τ sig (Elt Ideal)) : val3 V (main_arg8 : DevRef τ sig) = (V (main_arg8 : DevRef τ sig)) :=
  (s3_keep_main_arg8 (val2 V)).trans (val2_main_arg8 V)
theorem s3_keep_main_arg9 (W : Valuation τ sig (Elt Ideal)) : after s3 W (main_arg9 : DevRef τ sig) = W (main_arg9 : DevRef τ sig) := by
  after_results_simp
theorem val3_main_arg9 (V : Valuation τ sig (Elt Ideal)) : val3 V (main_arg9 : DevRef τ sig) = (V (main_arg9 : DevRef τ sig)) :=
  (s3_keep_main_arg9 (val2 V)).trans (val2_main_arg9 V)
theorem s3_keep_main_v13 (W : Valuation τ sig (Elt Ideal)) : after s3 W (main_v13 : DevRef τ sig) = W (main_v13 : DevRef τ sig) := by
  after_results_simp
theorem val3_main_v13 (V : Valuation τ sig (Elt Ideal)) : val3 V (main_v13 : DevRef τ sig) = segSum (V (main_arg0 : DevRef τ sig)) (srcRow (V (main_arg1 : DevRef τ sig))) (dstRow (V (main_arg1 : DevRef τ sig))) :=
  (s3_keep_main_v13 (val2 V)).trans (val2_main_v13 V)
theorem val3_main_v17 (V : Valuation τ sig (Elt Ideal)) : val3 V (main_v17 : DevRef τ sig) = segCnt (dstRow (V (main_arg1 : DevRef τ sig))) :=
  (s3_main_v17 (val2 V)).trans (by rw [val2_main_v3 V])
theorem s3_keep_main_v3 (W : Valuation τ sig (Elt Ideal)) : after s3 W (main_v3 : DevRef τ sig) = W (main_v3 : DevRef τ sig) := by
  after_results_simp
theorem val3_main_v3 (V : Valuation τ sig (Elt Ideal)) : val3 V (main_v3 : DevRef τ sig) = dstRow (V (main_arg1 : DevRef τ sig)) :=
  (s3_keep_main_v3 (val2 V)).trans (val2_main_v3 V)
theorem s3_keep_main_v1 (W : Valuation τ sig (Elt Ideal)) : after s3 W (main_v1 : DevRef τ sig) = W (main_v1 : DevRef τ sig) := by
  after_results_simp
theorem val3_main_v1 (V : Valuation τ sig (Elt Ideal)) : val3 V (main_v1 : DevRef τ sig) = srcRow (V (main_arg1 : DevRef τ sig)) :=
  (s3_keep_main_v1 (val2 V)).trans (val2_main_v1 V)

/-- The contents after the first 4 stages. -/
def val4 (V : Valuation τ sig (Elt Ideal)) : Valuation τ sig (Elt Ideal) := after s4 (val3 V)
theorem s4_keep_main_arg0 (W : Valuation τ sig (Elt Ideal)) : after s4 W (main_arg0 : DevRef τ sig) = W (main_arg0 : DevRef τ sig) := by
  after_results_simp
theorem val4_main_arg0 (V : Valuation τ sig (Elt Ideal)) : val4 V (main_arg0 : DevRef τ sig) = (V (main_arg0 : DevRef τ sig)) :=
  (s4_keep_main_arg0 (val3 V)).trans (val3_main_arg0 V)
theorem s4_keep_main_arg1 (W : Valuation τ sig (Elt Ideal)) : after s4 W (main_arg1 : DevRef τ sig) = W (main_arg1 : DevRef τ sig) := by
  after_results_simp
theorem val4_main_arg1 (V : Valuation τ sig (Elt Ideal)) : val4 V (main_arg1 : DevRef τ sig) = (V (main_arg1 : DevRef τ sig)) :=
  (s4_keep_main_arg1 (val3 V)).trans (val3_main_arg1 V)
theorem s4_keep_main_arg2 (W : Valuation τ sig (Elt Ideal)) : after s4 W (main_arg2 : DevRef τ sig) = W (main_arg2 : DevRef τ sig) := by
  after_results_simp
theorem val4_main_arg2 (V : Valuation τ sig (Elt Ideal)) : val4 V (main_arg2 : DevRef τ sig) = (V (main_arg2 : DevRef τ sig)) :=
  (s4_keep_main_arg2 (val3 V)).trans (val3_main_arg2 V)
theorem s4_keep_main_arg3 (W : Valuation τ sig (Elt Ideal)) : after s4 W (main_arg3 : DevRef τ sig) = W (main_arg3 : DevRef τ sig) := by
  after_results_simp
theorem val4_main_arg3 (V : Valuation τ sig (Elt Ideal)) : val4 V (main_arg3 : DevRef τ sig) = (V (main_arg3 : DevRef τ sig)) :=
  (s4_keep_main_arg3 (val3 V)).trans (val3_main_arg3 V)
theorem s4_keep_main_arg4 (W : Valuation τ sig (Elt Ideal)) : after s4 W (main_arg4 : DevRef τ sig) = W (main_arg4 : DevRef τ sig) := by
  after_results_simp
theorem val4_main_arg4 (V : Valuation τ sig (Elt Ideal)) : val4 V (main_arg4 : DevRef τ sig) = (V (main_arg4 : DevRef τ sig)) :=
  (s4_keep_main_arg4 (val3 V)).trans (val3_main_arg4 V)
theorem s4_keep_main_arg5 (W : Valuation τ sig (Elt Ideal)) : after s4 W (main_arg5 : DevRef τ sig) = W (main_arg5 : DevRef τ sig) := by
  after_results_simp
theorem val4_main_arg5 (V : Valuation τ sig (Elt Ideal)) : val4 V (main_arg5 : DevRef τ sig) = (V (main_arg5 : DevRef τ sig)) :=
  (s4_keep_main_arg5 (val3 V)).trans (val3_main_arg5 V)
theorem s4_keep_main_arg6 (W : Valuation τ sig (Elt Ideal)) : after s4 W (main_arg6 : DevRef τ sig) = W (main_arg6 : DevRef τ sig) := by
  after_results_simp
theorem val4_main_arg6 (V : Valuation τ sig (Elt Ideal)) : val4 V (main_arg6 : DevRef τ sig) = (V (main_arg6 : DevRef τ sig)) :=
  (s4_keep_main_arg6 (val3 V)).trans (val3_main_arg6 V)
theorem s4_keep_main_arg7 (W : Valuation τ sig (Elt Ideal)) : after s4 W (main_arg7 : DevRef τ sig) = W (main_arg7 : DevRef τ sig) := by
  after_results_simp
theorem val4_main_arg7 (V : Valuation τ sig (Elt Ideal)) : val4 V (main_arg7 : DevRef τ sig) = (V (main_arg7 : DevRef τ sig)) :=
  (s4_keep_main_arg7 (val3 V)).trans (val3_main_arg7 V)
theorem s4_keep_main_arg8 (W : Valuation τ sig (Elt Ideal)) : after s4 W (main_arg8 : DevRef τ sig) = W (main_arg8 : DevRef τ sig) := by
  after_results_simp
theorem val4_main_arg8 (V : Valuation τ sig (Elt Ideal)) : val4 V (main_arg8 : DevRef τ sig) = (V (main_arg8 : DevRef τ sig)) :=
  (s4_keep_main_arg8 (val3 V)).trans (val3_main_arg8 V)
theorem s4_keep_main_arg9 (W : Valuation τ sig (Elt Ideal)) : after s4 W (main_arg9 : DevRef τ sig) = W (main_arg9 : DevRef τ sig) := by
  after_results_simp
theorem val4_main_arg9 (V : Valuation τ sig (Elt Ideal)) : val4 V (main_arg9 : DevRef τ sig) = (V (main_arg9 : DevRef τ sig)) :=
  (s4_keep_main_arg9 (val3 V)).trans (val3_main_arg9 V)
theorem val4_main_v25 (V : Valuation τ sig (Elt Ideal)) : val4 V (main_v25 : DevRef τ sig) = addf (Host.dotGeneral (F := Ideal) (φ₁ := .f32) (φ₂ := .f32) dot_S100000x64_S64x128_S100000x128_1_0_0_1_n_n none (Host.divf (F := Ideal) (segSum (V (main_arg0 : DevRef τ sig)) (srcRow (V (main_arg1 : DevRef τ sig))) (dstRow (V (main_arg1 : DevRef τ sig)))) (broadcastInDim S100000x64 ![0, 1] bcast_S100000x1_S100000x64_0_1 (maximumf (segCnt (dstRow (V (main_arg1 : DevRef τ sig)))) (broadcastInDim S100000x1 ![] bcast_S_S100000x1 (constant (F := Ideal) S_ .f32 0x3F800000#32))))) (V (main_arg2 : DevRef τ sig))) (broadcastInDim S100000x128 ![0, 1] bcast_S1x128_S100000x128_0_1 (broadcastInDim S1x128 ![1] bcast_S128_S1x128_1 (V (main_arg3 : DevRef τ sig)))) :=
  (s4_main_v25 (val3 V)).trans (by rw [val3_main_v13 V, val3_main_v17 V, val3_main_arg2 V, val3_main_arg3 V])
theorem s4_keep_main_v3 (W : Valuation τ sig (Elt Ideal)) : after s4 W (main_v3 : DevRef τ sig) = W (main_v3 : DevRef τ sig) := by
  after_results_simp
theorem val4_main_v3 (V : Valuation τ sig (Elt Ideal)) : val4 V (main_v3 : DevRef τ sig) = dstRow (V (main_arg1 : DevRef τ sig)) :=
  (s4_keep_main_v3 (val3 V)).trans (val3_main_v3 V)
theorem s4_keep_main_v1 (W : Valuation τ sig (Elt Ideal)) : after s4 W (main_v1 : DevRef τ sig) = W (main_v1 : DevRef τ sig) := by
  after_results_simp
theorem val4_main_v1 (V : Valuation τ sig (Elt Ideal)) : val4 V (main_v1 : DevRef τ sig) = srcRow (V (main_arg1 : DevRef τ sig)) :=
  (s4_keep_main_v1 (val3 V)).trans (val3_main_v1 V)

/-- The contents after the first 5 stages. -/
def val5 (V : Valuation τ sig (Elt Ideal)) : Valuation τ sig (Elt Ideal) := after s5 (val4 V)
theorem val5_main_v26 (V : Valuation τ sig (Elt Ideal)) : val5 V (main_v26 : DevRef τ sig) = eluHost bcast_S_S100000x128 (addf (Host.dotGeneral (F := Ideal) (φ₁ := .f32) (φ₂ := .f32) dot_S100000x64_S64x128_S100000x128_1_0_0_1_n_n none (Host.divf (F := Ideal) (segSum (V (main_arg0 : DevRef τ sig)) (srcRow (V (main_arg1 : DevRef τ sig))) (dstRow (V (main_arg1 : DevRef τ sig)))) (broadcastInDim S100000x64 ![0, 1] bcast_S100000x1_S100000x64_0_1 (maximumf (segCnt (dstRow (V (main_arg1 : DevRef τ sig)))) (broadcastInDim S100000x1 ![] bcast_S_S100000x1 (constant (F := Ideal) S_ .f32 0x3F800000#32))))) (V (main_arg2 : DevRef τ sig))) (broadcastInDim S100000x128 ![0, 1] bcast_S1x128_S100000x128_0_1 (broadcastInDim S1x128 ![1] bcast_S128_S1x128_1 (V (main_arg3 : DevRef τ sig))))) :=
  (s5_main_v26 (val4 V)).trans (by rw [val4_main_v25 V])
theorem s5_keep_main_arg0 (W : Valuation τ sig (Elt Ideal)) : after s5 W (main_arg0 : DevRef τ sig) = W (main_arg0 : DevRef τ sig) := by
  after_results_simp
theorem val5_main_arg0 (V : Valuation τ sig (Elt Ideal)) : val5 V (main_arg0 : DevRef τ sig) = (V (main_arg0 : DevRef τ sig)) :=
  (s5_keep_main_arg0 (val4 V)).trans (val4_main_arg0 V)
theorem s5_keep_main_arg1 (W : Valuation τ sig (Elt Ideal)) : after s5 W (main_arg1 : DevRef τ sig) = W (main_arg1 : DevRef τ sig) := by
  after_results_simp
theorem val5_main_arg1 (V : Valuation τ sig (Elt Ideal)) : val5 V (main_arg1 : DevRef τ sig) = (V (main_arg1 : DevRef τ sig)) :=
  (s5_keep_main_arg1 (val4 V)).trans (val4_main_arg1 V)
theorem s5_keep_main_arg2 (W : Valuation τ sig (Elt Ideal)) : after s5 W (main_arg2 : DevRef τ sig) = W (main_arg2 : DevRef τ sig) := by
  after_results_simp
theorem val5_main_arg2 (V : Valuation τ sig (Elt Ideal)) : val5 V (main_arg2 : DevRef τ sig) = (V (main_arg2 : DevRef τ sig)) :=
  (s5_keep_main_arg2 (val4 V)).trans (val4_main_arg2 V)
theorem s5_keep_main_arg3 (W : Valuation τ sig (Elt Ideal)) : after s5 W (main_arg3 : DevRef τ sig) = W (main_arg3 : DevRef τ sig) := by
  after_results_simp
theorem val5_main_arg3 (V : Valuation τ sig (Elt Ideal)) : val5 V (main_arg3 : DevRef τ sig) = (V (main_arg3 : DevRef τ sig)) :=
  (s5_keep_main_arg3 (val4 V)).trans (val4_main_arg3 V)
theorem s5_keep_main_arg4 (W : Valuation τ sig (Elt Ideal)) : after s5 W (main_arg4 : DevRef τ sig) = W (main_arg4 : DevRef τ sig) := by
  after_results_simp
theorem val5_main_arg4 (V : Valuation τ sig (Elt Ideal)) : val5 V (main_arg4 : DevRef τ sig) = (V (main_arg4 : DevRef τ sig)) :=
  (s5_keep_main_arg4 (val4 V)).trans (val4_main_arg4 V)
theorem s5_keep_main_arg5 (W : Valuation τ sig (Elt Ideal)) : after s5 W (main_arg5 : DevRef τ sig) = W (main_arg5 : DevRef τ sig) := by
  after_results_simp
theorem val5_main_arg5 (V : Valuation τ sig (Elt Ideal)) : val5 V (main_arg5 : DevRef τ sig) = (V (main_arg5 : DevRef τ sig)) :=
  (s5_keep_main_arg5 (val4 V)).trans (val4_main_arg5 V)
theorem s5_keep_main_arg6 (W : Valuation τ sig (Elt Ideal)) : after s5 W (main_arg6 : DevRef τ sig) = W (main_arg6 : DevRef τ sig) := by
  after_results_simp
theorem val5_main_arg6 (V : Valuation τ sig (Elt Ideal)) : val5 V (main_arg6 : DevRef τ sig) = (V (main_arg6 : DevRef τ sig)) :=
  (s5_keep_main_arg6 (val4 V)).trans (val4_main_arg6 V)
theorem s5_keep_main_arg7 (W : Valuation τ sig (Elt Ideal)) : after s5 W (main_arg7 : DevRef τ sig) = W (main_arg7 : DevRef τ sig) := by
  after_results_simp
theorem val5_main_arg7 (V : Valuation τ sig (Elt Ideal)) : val5 V (main_arg7 : DevRef τ sig) = (V (main_arg7 : DevRef τ sig)) :=
  (s5_keep_main_arg7 (val4 V)).trans (val4_main_arg7 V)
theorem s5_keep_main_arg8 (W : Valuation τ sig (Elt Ideal)) : after s5 W (main_arg8 : DevRef τ sig) = W (main_arg8 : DevRef τ sig) := by
  after_results_simp
theorem val5_main_arg8 (V : Valuation τ sig (Elt Ideal)) : val5 V (main_arg8 : DevRef τ sig) = (V (main_arg8 : DevRef τ sig)) :=
  (s5_keep_main_arg8 (val4 V)).trans (val4_main_arg8 V)
theorem s5_keep_main_arg9 (W : Valuation τ sig (Elt Ideal)) : after s5 W (main_arg9 : DevRef τ sig) = W (main_arg9 : DevRef τ sig) := by
  after_results_simp
theorem val5_main_arg9 (V : Valuation τ sig (Elt Ideal)) : val5 V (main_arg9 : DevRef τ sig) = (V (main_arg9 : DevRef τ sig)) :=
  (s5_keep_main_arg9 (val4 V)).trans (val4_main_arg9 V)
theorem s5_keep_main_v3 (W : Valuation τ sig (Elt Ideal)) : after s5 W (main_v3 : DevRef τ sig) = W (main_v3 : DevRef τ sig) := by
  after_results_simp
theorem val5_main_v3 (V : Valuation τ sig (Elt Ideal)) : val5 V (main_v3 : DevRef τ sig) = dstRow (V (main_arg1 : DevRef τ sig)) :=
  (s5_keep_main_v3 (val4 V)).trans (val4_main_v3 V)
theorem s5_keep_main_v1 (W : Valuation τ sig (Elt Ideal)) : after s5 W (main_v1 : DevRef τ sig) = W (main_v1 : DevRef τ sig) := by
  after_results_simp
theorem val5_main_v1 (V : Valuation τ sig (Elt Ideal)) : val5 V (main_v1 : DevRef τ sig) = srcRow (V (main_arg1 : DevRef τ sig)) :=
  (s5_keep_main_v1 (val4 V)).trans (val4_main_v1 V)

/-- The contents after the first 6 stages. -/
def val6 (V : Valuation τ sig (Elt Ideal)) : Valuation τ sig (Elt Ideal) := after s6 (val5 V)
theorem s6_keep_main_v26 (W : Valuation τ sig (Elt Ideal)) : after s6 W (main_v26 : DevRef τ sig) = W (main_v26 : DevRef τ sig) := by
  after_results_simp
theorem val6_main_v26 (V : Valuation τ sig (Elt Ideal)) : val6 V (main_v26 : DevRef τ sig) = eluHost bcast_S_S100000x128 (addf (Host.dotGeneral (F := Ideal) (φ₁ := .f32) (φ₂ := .f32) dot_S100000x64_S64x128_S100000x128_1_0_0_1_n_n none (Host.divf (F := Ideal) (segSum (V (main_arg0 : DevRef τ sig)) (srcRow (V (main_arg1 : DevRef τ sig))) (dstRow (V (main_arg1 : DevRef τ sig)))) (broadcastInDim S100000x64 ![0, 1] bcast_S100000x1_S100000x64_0_1 (maximumf (segCnt (dstRow (V (main_arg1 : DevRef τ sig)))) (broadcastInDim S100000x1 ![] bcast_S_S100000x1 (constant (F := Ideal) S_ .f32 0x3F800000#32))))) (V (main_arg2 : DevRef τ sig))) (broadcastInDim S100000x128 ![0, 1] bcast_S1x128_S100000x128_0_1 (broadcastInDim S1x128 ![1] bcast_S128_S1x128_1 (V (main_arg3 : DevRef τ sig))))) :=
  (s6_keep_main_v26 (val5 V)).trans (val5_main_v26 V)
theorem s6_keep_main_arg0 (W : Valuation τ sig (Elt Ideal)) : after s6 W (main_arg0 : DevRef τ sig) = W (main_arg0 : DevRef τ sig) := by
  after_results_simp
theorem val6_main_arg0 (V : Valuation τ sig (Elt Ideal)) : val6 V (main_arg0 : DevRef τ sig) = (V (main_arg0 : DevRef τ sig)) :=
  (s6_keep_main_arg0 (val5 V)).trans (val5_main_arg0 V)
theorem s6_keep_main_arg1 (W : Valuation τ sig (Elt Ideal)) : after s6 W (main_arg1 : DevRef τ sig) = W (main_arg1 : DevRef τ sig) := by
  after_results_simp
theorem val6_main_arg1 (V : Valuation τ sig (Elt Ideal)) : val6 V (main_arg1 : DevRef τ sig) = (V (main_arg1 : DevRef τ sig)) :=
  (s6_keep_main_arg1 (val5 V)).trans (val5_main_arg1 V)
theorem s6_keep_main_arg2 (W : Valuation τ sig (Elt Ideal)) : after s6 W (main_arg2 : DevRef τ sig) = W (main_arg2 : DevRef τ sig) := by
  after_results_simp
theorem val6_main_arg2 (V : Valuation τ sig (Elt Ideal)) : val6 V (main_arg2 : DevRef τ sig) = (V (main_arg2 : DevRef τ sig)) :=
  (s6_keep_main_arg2 (val5 V)).trans (val5_main_arg2 V)
theorem s6_keep_main_arg3 (W : Valuation τ sig (Elt Ideal)) : after s6 W (main_arg3 : DevRef τ sig) = W (main_arg3 : DevRef τ sig) := by
  after_results_simp
theorem val6_main_arg3 (V : Valuation τ sig (Elt Ideal)) : val6 V (main_arg3 : DevRef τ sig) = (V (main_arg3 : DevRef τ sig)) :=
  (s6_keep_main_arg3 (val5 V)).trans (val5_main_arg3 V)
theorem s6_keep_main_arg4 (W : Valuation τ sig (Elt Ideal)) : after s6 W (main_arg4 : DevRef τ sig) = W (main_arg4 : DevRef τ sig) := by
  after_results_simp
theorem val6_main_arg4 (V : Valuation τ sig (Elt Ideal)) : val6 V (main_arg4 : DevRef τ sig) = (V (main_arg4 : DevRef τ sig)) :=
  (s6_keep_main_arg4 (val5 V)).trans (val5_main_arg4 V)
theorem s6_keep_main_arg5 (W : Valuation τ sig (Elt Ideal)) : after s6 W (main_arg5 : DevRef τ sig) = W (main_arg5 : DevRef τ sig) := by
  after_results_simp
theorem val6_main_arg5 (V : Valuation τ sig (Elt Ideal)) : val6 V (main_arg5 : DevRef τ sig) = (V (main_arg5 : DevRef τ sig)) :=
  (s6_keep_main_arg5 (val5 V)).trans (val5_main_arg5 V)
theorem s6_keep_main_arg6 (W : Valuation τ sig (Elt Ideal)) : after s6 W (main_arg6 : DevRef τ sig) = W (main_arg6 : DevRef τ sig) := by
  after_results_simp
theorem val6_main_arg6 (V : Valuation τ sig (Elt Ideal)) : val6 V (main_arg6 : DevRef τ sig) = (V (main_arg6 : DevRef τ sig)) :=
  (s6_keep_main_arg6 (val5 V)).trans (val5_main_arg6 V)
theorem s6_keep_main_arg7 (W : Valuation τ sig (Elt Ideal)) : after s6 W (main_arg7 : DevRef τ sig) = W (main_arg7 : DevRef τ sig) := by
  after_results_simp
theorem val6_main_arg7 (V : Valuation τ sig (Elt Ideal)) : val6 V (main_arg7 : DevRef τ sig) = (V (main_arg7 : DevRef τ sig)) :=
  (s6_keep_main_arg7 (val5 V)).trans (val5_main_arg7 V)
theorem s6_keep_main_arg8 (W : Valuation τ sig (Elt Ideal)) : after s6 W (main_arg8 : DevRef τ sig) = W (main_arg8 : DevRef τ sig) := by
  after_results_simp
theorem val6_main_arg8 (V : Valuation τ sig (Elt Ideal)) : val6 V (main_arg8 : DevRef τ sig) = (V (main_arg8 : DevRef τ sig)) :=
  (s6_keep_main_arg8 (val5 V)).trans (val5_main_arg8 V)
theorem s6_keep_main_arg9 (W : Valuation τ sig (Elt Ideal)) : after s6 W (main_arg9 : DevRef τ sig) = W (main_arg9 : DevRef τ sig) := by
  after_results_simp
theorem val6_main_arg9 (V : Valuation τ sig (Elt Ideal)) : val6 V (main_arg9 : DevRef τ sig) = (V (main_arg9 : DevRef τ sig)) :=
  (s6_keep_main_arg9 (val5 V)).trans (val5_main_arg9 V)
theorem s6_keep_main_v1 (W : Valuation τ sig (Elt Ideal)) : after s6 W (main_v1 : DevRef τ sig) = W (main_v1 : DevRef τ sig) := by
  after_results_simp
theorem val6_main_v1 (V : Valuation τ sig (Elt Ideal)) : val6 V (main_v1 : DevRef τ sig) = srcRow (V (main_arg1 : DevRef τ sig)) :=
  (s6_keep_main_v1 (val5 V)).trans (val5_main_v1 V)
theorem val6_main_v36 (V : Valuation τ sig (Elt Ideal)) : val6 V (main_v36 : DevRef τ sig) = segSum (V (main_arg0 : DevRef τ sig)) (dstRow (V (main_arg1 : DevRef τ sig))) (srcRow (V (main_arg1 : DevRef τ sig))) :=
  (s6_main_v36 (val5 V)).trans (by rw [val5_main_arg0 V, val5_main_v3 V, val5_main_v1 V])

/-- The contents after the first 7 stages. -/
def val7 (V : Valuation τ sig (Elt Ideal)) : Valuation τ sig (Elt Ideal) := after s7 (val6 V)
theorem s7_keep_main_v26 (W : Valuation τ sig (Elt Ideal)) : after s7 W (main_v26 : DevRef τ sig) = W (main_v26 : DevRef τ sig) := by
  after_results_simp
theorem val7_main_v26 (V : Valuation τ sig (Elt Ideal)) : val7 V (main_v26 : DevRef τ sig) = eluHost bcast_S_S100000x128 (addf (Host.dotGeneral (F := Ideal) (φ₁ := .f32) (φ₂ := .f32) dot_S100000x64_S64x128_S100000x128_1_0_0_1_n_n none (Host.divf (F := Ideal) (segSum (V (main_arg0 : DevRef τ sig)) (srcRow (V (main_arg1 : DevRef τ sig))) (dstRow (V (main_arg1 : DevRef τ sig)))) (broadcastInDim S100000x64 ![0, 1] bcast_S100000x1_S100000x64_0_1 (maximumf (segCnt (dstRow (V (main_arg1 : DevRef τ sig)))) (broadcastInDim S100000x1 ![] bcast_S_S100000x1 (constant (F := Ideal) S_ .f32 0x3F800000#32))))) (V (main_arg2 : DevRef τ sig))) (broadcastInDim S100000x128 ![0, 1] bcast_S1x128_S100000x128_0_1 (broadcastInDim S1x128 ![1] bcast_S128_S1x128_1 (V (main_arg3 : DevRef τ sig))))) :=
  (s7_keep_main_v26 (val6 V)).trans (val6_main_v26 V)
theorem s7_keep_main_arg0 (W : Valuation τ sig (Elt Ideal)) : after s7 W (main_arg0 : DevRef τ sig) = W (main_arg0 : DevRef τ sig) := by
  after_results_simp
theorem val7_main_arg0 (V : Valuation τ sig (Elt Ideal)) : val7 V (main_arg0 : DevRef τ sig) = (V (main_arg0 : DevRef τ sig)) :=
  (s7_keep_main_arg0 (val6 V)).trans (val6_main_arg0 V)
theorem s7_keep_main_arg1 (W : Valuation τ sig (Elt Ideal)) : after s7 W (main_arg1 : DevRef τ sig) = W (main_arg1 : DevRef τ sig) := by
  after_results_simp
theorem val7_main_arg1 (V : Valuation τ sig (Elt Ideal)) : val7 V (main_arg1 : DevRef τ sig) = (V (main_arg1 : DevRef τ sig)) :=
  (s7_keep_main_arg1 (val6 V)).trans (val6_main_arg1 V)
theorem s7_keep_main_arg2 (W : Valuation τ sig (Elt Ideal)) : after s7 W (main_arg2 : DevRef τ sig) = W (main_arg2 : DevRef τ sig) := by
  after_results_simp
theorem val7_main_arg2 (V : Valuation τ sig (Elt Ideal)) : val7 V (main_arg2 : DevRef τ sig) = (V (main_arg2 : DevRef τ sig)) :=
  (s7_keep_main_arg2 (val6 V)).trans (val6_main_arg2 V)
theorem s7_keep_main_arg3 (W : Valuation τ sig (Elt Ideal)) : after s7 W (main_arg3 : DevRef τ sig) = W (main_arg3 : DevRef τ sig) := by
  after_results_simp
theorem val7_main_arg3 (V : Valuation τ sig (Elt Ideal)) : val7 V (main_arg3 : DevRef τ sig) = (V (main_arg3 : DevRef τ sig)) :=
  (s7_keep_main_arg3 (val6 V)).trans (val6_main_arg3 V)
theorem s7_keep_main_arg4 (W : Valuation τ sig (Elt Ideal)) : after s7 W (main_arg4 : DevRef τ sig) = W (main_arg4 : DevRef τ sig) := by
  after_results_simp
theorem val7_main_arg4 (V : Valuation τ sig (Elt Ideal)) : val7 V (main_arg4 : DevRef τ sig) = (V (main_arg4 : DevRef τ sig)) :=
  (s7_keep_main_arg4 (val6 V)).trans (val6_main_arg4 V)
theorem s7_keep_main_arg5 (W : Valuation τ sig (Elt Ideal)) : after s7 W (main_arg5 : DevRef τ sig) = W (main_arg5 : DevRef τ sig) := by
  after_results_simp
theorem val7_main_arg5 (V : Valuation τ sig (Elt Ideal)) : val7 V (main_arg5 : DevRef τ sig) = (V (main_arg5 : DevRef τ sig)) :=
  (s7_keep_main_arg5 (val6 V)).trans (val6_main_arg5 V)
theorem s7_keep_main_arg6 (W : Valuation τ sig (Elt Ideal)) : after s7 W (main_arg6 : DevRef τ sig) = W (main_arg6 : DevRef τ sig) := by
  after_results_simp
theorem val7_main_arg6 (V : Valuation τ sig (Elt Ideal)) : val7 V (main_arg6 : DevRef τ sig) = (V (main_arg6 : DevRef τ sig)) :=
  (s7_keep_main_arg6 (val6 V)).trans (val6_main_arg6 V)
theorem s7_keep_main_arg7 (W : Valuation τ sig (Elt Ideal)) : after s7 W (main_arg7 : DevRef τ sig) = W (main_arg7 : DevRef τ sig) := by
  after_results_simp
theorem val7_main_arg7 (V : Valuation τ sig (Elt Ideal)) : val7 V (main_arg7 : DevRef τ sig) = (V (main_arg7 : DevRef τ sig)) :=
  (s7_keep_main_arg7 (val6 V)).trans (val6_main_arg7 V)
theorem s7_keep_main_arg8 (W : Valuation τ sig (Elt Ideal)) : after s7 W (main_arg8 : DevRef τ sig) = W (main_arg8 : DevRef τ sig) := by
  after_results_simp
theorem val7_main_arg8 (V : Valuation τ sig (Elt Ideal)) : val7 V (main_arg8 : DevRef τ sig) = (V (main_arg8 : DevRef τ sig)) :=
  (s7_keep_main_arg8 (val6 V)).trans (val6_main_arg8 V)
theorem s7_keep_main_arg9 (W : Valuation τ sig (Elt Ideal)) : after s7 W (main_arg9 : DevRef τ sig) = W (main_arg9 : DevRef τ sig) := by
  after_results_simp
theorem val7_main_arg9 (V : Valuation τ sig (Elt Ideal)) : val7 V (main_arg9 : DevRef τ sig) = (V (main_arg9 : DevRef τ sig)) :=
  (s7_keep_main_arg9 (val6 V)).trans (val6_main_arg9 V)
theorem s7_keep_main_v36 (W : Valuation τ sig (Elt Ideal)) : after s7 W (main_v36 : DevRef τ sig) = W (main_v36 : DevRef τ sig) := by
  after_results_simp
theorem val7_main_v36 (V : Valuation τ sig (Elt Ideal)) : val7 V (main_v36 : DevRef τ sig) = segSum (V (main_arg0 : DevRef τ sig)) (dstRow (V (main_arg1 : DevRef τ sig))) (srcRow (V (main_arg1 : DevRef τ sig))) :=
  (s7_keep_main_v36 (val6 V)).trans (val6_main_v36 V)
theorem val7_main_v40 (V : Valuation τ sig (Elt Ideal)) : val7 V (main_v40 : DevRef τ sig) = segCnt (srcRow (V (main_arg1 : DevRef τ sig))) :=
  (s7_main_v40 (val6 V)).trans (by rw [val6_main_v1 V])

/-- The contents after the first 8 stages. -/
def val8 (V : Valuation τ sig (Elt Ideal)) : Valuation τ sig (Elt Ideal) := after s8 (val7 V)
theorem s8_keep_main_v26 (W : Valuation τ sig (Elt Ideal)) : after s8 W (main_v26 : DevRef τ sig) = W (main_v26 : DevRef τ sig) := by
  after_results_simp
theorem val8_main_v26 (V : Valuation τ sig (Elt Ideal)) : val8 V (main_v26 : DevRef τ sig) = eluHost bcast_S_S100000x128 (addf (Host.dotGeneral (F := Ideal) (φ₁ := .f32) (φ₂ := .f32) dot_S100000x64_S64x128_S100000x128_1_0_0_1_n_n none (Host.divf (F := Ideal) (segSum (V (main_arg0 : DevRef τ sig)) (srcRow (V (main_arg1 : DevRef τ sig))) (dstRow (V (main_arg1 : DevRef τ sig)))) (broadcastInDim S100000x64 ![0, 1] bcast_S100000x1_S100000x64_0_1 (maximumf (segCnt (dstRow (V (main_arg1 : DevRef τ sig)))) (broadcastInDim S100000x1 ![] bcast_S_S100000x1 (constant (F := Ideal) S_ .f32 0x3F800000#32))))) (V (main_arg2 : DevRef τ sig))) (broadcastInDim S100000x128 ![0, 1] bcast_S1x128_S100000x128_0_1 (broadcastInDim S1x128 ![1] bcast_S128_S1x128_1 (V (main_arg3 : DevRef τ sig))))) :=
  (s8_keep_main_v26 (val7 V)).trans (val7_main_v26 V)
theorem s8_keep_main_arg0 (W : Valuation τ sig (Elt Ideal)) : after s8 W (main_arg0 : DevRef τ sig) = W (main_arg0 : DevRef τ sig) := by
  after_results_simp
theorem val8_main_arg0 (V : Valuation τ sig (Elt Ideal)) : val8 V (main_arg0 : DevRef τ sig) = (V (main_arg0 : DevRef τ sig)) :=
  (s8_keep_main_arg0 (val7 V)).trans (val7_main_arg0 V)
theorem s8_keep_main_arg1 (W : Valuation τ sig (Elt Ideal)) : after s8 W (main_arg1 : DevRef τ sig) = W (main_arg1 : DevRef τ sig) := by
  after_results_simp
theorem val8_main_arg1 (V : Valuation τ sig (Elt Ideal)) : val8 V (main_arg1 : DevRef τ sig) = (V (main_arg1 : DevRef τ sig)) :=
  (s8_keep_main_arg1 (val7 V)).trans (val7_main_arg1 V)
theorem s8_keep_main_arg2 (W : Valuation τ sig (Elt Ideal)) : after s8 W (main_arg2 : DevRef τ sig) = W (main_arg2 : DevRef τ sig) := by
  after_results_simp
theorem val8_main_arg2 (V : Valuation τ sig (Elt Ideal)) : val8 V (main_arg2 : DevRef τ sig) = (V (main_arg2 : DevRef τ sig)) :=
  (s8_keep_main_arg2 (val7 V)).trans (val7_main_arg2 V)
theorem s8_keep_main_arg3 (W : Valuation τ sig (Elt Ideal)) : after s8 W (main_arg3 : DevRef τ sig) = W (main_arg3 : DevRef τ sig) := by
  after_results_simp
theorem val8_main_arg3 (V : Valuation τ sig (Elt Ideal)) : val8 V (main_arg3 : DevRef τ sig) = (V (main_arg3 : DevRef τ sig)) :=
  (s8_keep_main_arg3 (val7 V)).trans (val7_main_arg3 V)
theorem s8_keep_main_arg4 (W : Valuation τ sig (Elt Ideal)) : after s8 W (main_arg4 : DevRef τ sig) = W (main_arg4 : DevRef τ sig) := by
  after_results_simp
theorem val8_main_arg4 (V : Valuation τ sig (Elt Ideal)) : val8 V (main_arg4 : DevRef τ sig) = (V (main_arg4 : DevRef τ sig)) :=
  (s8_keep_main_arg4 (val7 V)).trans (val7_main_arg4 V)
theorem s8_keep_main_arg5 (W : Valuation τ sig (Elt Ideal)) : after s8 W (main_arg5 : DevRef τ sig) = W (main_arg5 : DevRef τ sig) := by
  after_results_simp
theorem val8_main_arg5 (V : Valuation τ sig (Elt Ideal)) : val8 V (main_arg5 : DevRef τ sig) = (V (main_arg5 : DevRef τ sig)) :=
  (s8_keep_main_arg5 (val7 V)).trans (val7_main_arg5 V)
theorem s8_keep_main_arg6 (W : Valuation τ sig (Elt Ideal)) : after s8 W (main_arg6 : DevRef τ sig) = W (main_arg6 : DevRef τ sig) := by
  after_results_simp
theorem val8_main_arg6 (V : Valuation τ sig (Elt Ideal)) : val8 V (main_arg6 : DevRef τ sig) = (V (main_arg6 : DevRef τ sig)) :=
  (s8_keep_main_arg6 (val7 V)).trans (val7_main_arg6 V)
theorem s8_keep_main_arg7 (W : Valuation τ sig (Elt Ideal)) : after s8 W (main_arg7 : DevRef τ sig) = W (main_arg7 : DevRef τ sig) := by
  after_results_simp
theorem val8_main_arg7 (V : Valuation τ sig (Elt Ideal)) : val8 V (main_arg7 : DevRef τ sig) = (V (main_arg7 : DevRef τ sig)) :=
  (s8_keep_main_arg7 (val7 V)).trans (val7_main_arg7 V)
theorem s8_keep_main_arg8 (W : Valuation τ sig (Elt Ideal)) : after s8 W (main_arg8 : DevRef τ sig) = W (main_arg8 : DevRef τ sig) := by
  after_results_simp
theorem val8_main_arg8 (V : Valuation τ sig (Elt Ideal)) : val8 V (main_arg8 : DevRef τ sig) = (V (main_arg8 : DevRef τ sig)) :=
  (s8_keep_main_arg8 (val7 V)).trans (val7_main_arg8 V)
theorem s8_keep_main_arg9 (W : Valuation τ sig (Elt Ideal)) : after s8 W (main_arg9 : DevRef τ sig) = W (main_arg9 : DevRef τ sig) := by
  after_results_simp
theorem val8_main_arg9 (V : Valuation τ sig (Elt Ideal)) : val8 V (main_arg9 : DevRef τ sig) = (V (main_arg9 : DevRef τ sig)) :=
  (s8_keep_main_arg9 (val7 V)).trans (val7_main_arg9 V)
theorem val8_main_v45 (V : Valuation τ sig (Elt Ideal)) : val8 V (main_v45 : DevRef τ sig) = (Host.dotGeneral (F := Ideal) (φ₁ := .f32) (φ₂ := .f32) dot_S100000x64_S64x128_S100000x128_1_0_0_1_n_n none (Host.divf (F := Ideal) (segSum (V (main_arg0 : DevRef τ sig)) (dstRow (V (main_arg1 : DevRef τ sig))) (srcRow (V (main_arg1 : DevRef τ sig)))) (broadcastInDim S100000x64 ![0, 1] bcast_S100000x1_S100000x64_0_1 (maximumf (segCnt (srcRow (V (main_arg1 : DevRef τ sig)))) (broadcastInDim S100000x1 ![] bcast_S_S100000x1 (constant (F := Ideal) S_ .f32 0x3F800000#32))))) (V (main_arg4 : DevRef τ sig))) :=
  (s8_main_v45 (val7 V)).trans (by rw [val7_main_v36 V, val7_main_v40 V, val7_main_arg4 V])
theorem val8_main_v47 (V : Valuation τ sig (Elt Ideal)) : val8 V (main_v47 : DevRef τ sig) = (broadcastInDim S100000x128 ![0, 1] bcast_S1x128_S100000x128_0_1 (broadcastInDim S1x128 ![1] bcast_S128_S1x128_1 (V (main_arg5 : DevRef τ sig)))) :=
  (s8_main_v47 (val7 V)).trans (by rw [val7_main_arg5 V])

/-- The contents after the first 9 stages. -/
def val9 (V : Valuation τ sig (Elt Ideal)) : Valuation τ sig (Elt Ideal) := after s9 (val8 V)
theorem s9_keep_main_v26 (W : Valuation τ sig (Elt Ideal)) : after s9 W (main_v26 : DevRef τ sig) = W (main_v26 : DevRef τ sig) := by
  after_results_simp
theorem val9_main_v26 (V : Valuation τ sig (Elt Ideal)) : val9 V (main_v26 : DevRef τ sig) = eluHost bcast_S_S100000x128 (addf (Host.dotGeneral (F := Ideal) (φ₁ := .f32) (φ₂ := .f32) dot_S100000x64_S64x128_S100000x128_1_0_0_1_n_n none (Host.divf (F := Ideal) (segSum (V (main_arg0 : DevRef τ sig)) (srcRow (V (main_arg1 : DevRef τ sig))) (dstRow (V (main_arg1 : DevRef τ sig)))) (broadcastInDim S100000x64 ![0, 1] bcast_S100000x1_S100000x64_0_1 (maximumf (segCnt (dstRow (V (main_arg1 : DevRef τ sig)))) (broadcastInDim S100000x1 ![] bcast_S_S100000x1 (constant (F := Ideal) S_ .f32 0x3F800000#32))))) (V (main_arg2 : DevRef τ sig))) (broadcastInDim S100000x128 ![0, 1] bcast_S1x128_S100000x128_0_1 (broadcastInDim S1x128 ![1] bcast_S128_S1x128_1 (V (main_arg3 : DevRef τ sig))))) :=
  (s9_keep_main_v26 (val8 V)).trans (val8_main_v26 V)
theorem val9_main_v49 (V : Valuation τ sig (Elt Ideal)) : val9 V (main_v49 : DevRef τ sig) = eluHost bcast_S_S100000x128 (addf (Host.dotGeneral (F := Ideal) (φ₁ := .f32) (φ₂ := .f32) dot_S100000x64_S64x128_S100000x128_1_0_0_1_n_n none (Host.divf (F := Ideal) (segSum (V (main_arg0 : DevRef τ sig)) (dstRow (V (main_arg1 : DevRef τ sig))) (srcRow (V (main_arg1 : DevRef τ sig)))) (broadcastInDim S100000x64 ![0, 1] bcast_S100000x1_S100000x64_0_1 (maximumf (segCnt (srcRow (V (main_arg1 : DevRef τ sig)))) (broadcastInDim S100000x1 ![] bcast_S_S100000x1 (constant (F := Ideal) S_ .f32 0x3F800000#32))))) (V (main_arg4 : DevRef τ sig))) (broadcastInDim S100000x128 ![0, 1] bcast_S1x128_S100000x128_0_1 (broadcastInDim S1x128 ![1] bcast_S128_S1x128_1 (V (main_arg5 : DevRef τ sig))))) :=
  (s9_main_v49 (val8 V)).trans (by rw [val8_main_v45 V, val8_main_v47 V])
theorem s9_keep_main_arg0 (W : Valuation τ sig (Elt Ideal)) : after s9 W (main_arg0 : DevRef τ sig) = W (main_arg0 : DevRef τ sig) := by
  after_results_simp
theorem val9_main_arg0 (V : Valuation τ sig (Elt Ideal)) : val9 V (main_arg0 : DevRef τ sig) = (V (main_arg0 : DevRef τ sig)) :=
  (s9_keep_main_arg0 (val8 V)).trans (val8_main_arg0 V)
theorem s9_keep_main_arg1 (W : Valuation τ sig (Elt Ideal)) : after s9 W (main_arg1 : DevRef τ sig) = W (main_arg1 : DevRef τ sig) := by
  after_results_simp
theorem val9_main_arg1 (V : Valuation τ sig (Elt Ideal)) : val9 V (main_arg1 : DevRef τ sig) = (V (main_arg1 : DevRef τ sig)) :=
  (s9_keep_main_arg1 (val8 V)).trans (val8_main_arg1 V)
theorem s9_keep_main_arg2 (W : Valuation τ sig (Elt Ideal)) : after s9 W (main_arg2 : DevRef τ sig) = W (main_arg2 : DevRef τ sig) := by
  after_results_simp
theorem val9_main_arg2 (V : Valuation τ sig (Elt Ideal)) : val9 V (main_arg2 : DevRef τ sig) = (V (main_arg2 : DevRef τ sig)) :=
  (s9_keep_main_arg2 (val8 V)).trans (val8_main_arg2 V)
theorem s9_keep_main_arg3 (W : Valuation τ sig (Elt Ideal)) : after s9 W (main_arg3 : DevRef τ sig) = W (main_arg3 : DevRef τ sig) := by
  after_results_simp
theorem val9_main_arg3 (V : Valuation τ sig (Elt Ideal)) : val9 V (main_arg3 : DevRef τ sig) = (V (main_arg3 : DevRef τ sig)) :=
  (s9_keep_main_arg3 (val8 V)).trans (val8_main_arg3 V)
theorem s9_keep_main_arg4 (W : Valuation τ sig (Elt Ideal)) : after s9 W (main_arg4 : DevRef τ sig) = W (main_arg4 : DevRef τ sig) := by
  after_results_simp
theorem val9_main_arg4 (V : Valuation τ sig (Elt Ideal)) : val9 V (main_arg4 : DevRef τ sig) = (V (main_arg4 : DevRef τ sig)) :=
  (s9_keep_main_arg4 (val8 V)).trans (val8_main_arg4 V)
theorem s9_keep_main_arg5 (W : Valuation τ sig (Elt Ideal)) : after s9 W (main_arg5 : DevRef τ sig) = W (main_arg5 : DevRef τ sig) := by
  after_results_simp
theorem val9_main_arg5 (V : Valuation τ sig (Elt Ideal)) : val9 V (main_arg5 : DevRef τ sig) = (V (main_arg5 : DevRef τ sig)) :=
  (s9_keep_main_arg5 (val8 V)).trans (val8_main_arg5 V)
theorem s9_keep_main_arg6 (W : Valuation τ sig (Elt Ideal)) : after s9 W (main_arg6 : DevRef τ sig) = W (main_arg6 : DevRef τ sig) := by
  after_results_simp
theorem val9_main_arg6 (V : Valuation τ sig (Elt Ideal)) : val9 V (main_arg6 : DevRef τ sig) = (V (main_arg6 : DevRef τ sig)) :=
  (s9_keep_main_arg6 (val8 V)).trans (val8_main_arg6 V)
theorem s9_keep_main_arg7 (W : Valuation τ sig (Elt Ideal)) : after s9 W (main_arg7 : DevRef τ sig) = W (main_arg7 : DevRef τ sig) := by
  after_results_simp
theorem val9_main_arg7 (V : Valuation τ sig (Elt Ideal)) : val9 V (main_arg7 : DevRef τ sig) = (V (main_arg7 : DevRef τ sig)) :=
  (s9_keep_main_arg7 (val8 V)).trans (val8_main_arg7 V)
theorem s9_keep_main_arg8 (W : Valuation τ sig (Elt Ideal)) : after s9 W (main_arg8 : DevRef τ sig) = W (main_arg8 : DevRef τ sig) := by
  after_results_simp
theorem val9_main_arg8 (V : Valuation τ sig (Elt Ideal)) : val9 V (main_arg8 : DevRef τ sig) = (V (main_arg8 : DevRef τ sig)) :=
  (s9_keep_main_arg8 (val8 V)).trans (val8_main_arg8 V)
theorem s9_keep_main_arg9 (W : Valuation τ sig (Elt Ideal)) : after s9 W (main_arg9 : DevRef τ sig) = W (main_arg9 : DevRef τ sig) := by
  after_results_simp
theorem val9_main_arg9 (V : Valuation τ sig (Elt Ideal)) : val9 V (main_arg9 : DevRef τ sig) = (V (main_arg9 : DevRef τ sig)) :=
  (s9_keep_main_arg9 (val8 V)).trans (val8_main_arg9 V)

/-- The contents after the first 10 stages. -/
def val10 (V : Valuation τ sig (Elt Ideal)) : Valuation τ sig (Elt Ideal) := after s10 (val9 V)
theorem s10_keep_main_v26 (W : Valuation τ sig (Elt Ideal)) : after s10 W (main_v26 : DevRef τ sig) = W (main_v26 : DevRef τ sig) := by
  after_results_simp
theorem val10_main_v26 (V : Valuation τ sig (Elt Ideal)) : val10 V (main_v26 : DevRef τ sig) = eluHost bcast_S_S100000x128 (addf (Host.dotGeneral (F := Ideal) (φ₁ := .f32) (φ₂ := .f32) dot_S100000x64_S64x128_S100000x128_1_0_0_1_n_n none (Host.divf (F := Ideal) (segSum (V (main_arg0 : DevRef τ sig)) (srcRow (V (main_arg1 : DevRef τ sig))) (dstRow (V (main_arg1 : DevRef τ sig)))) (broadcastInDim S100000x64 ![0, 1] bcast_S100000x1_S100000x64_0_1 (maximumf (segCnt (dstRow (V (main_arg1 : DevRef τ sig)))) (broadcastInDim S100000x1 ![] bcast_S_S100000x1 (constant (F := Ideal) S_ .f32 0x3F800000#32))))) (V (main_arg2 : DevRef τ sig))) (broadcastInDim S100000x128 ![0, 1] bcast_S1x128_S100000x128_0_1 (broadcastInDim S1x128 ![1] bcast_S128_S1x128_1 (V (main_arg3 : DevRef τ sig))))) :=
  (s10_keep_main_v26 (val9 V)).trans (val9_main_v26 V)
theorem s10_keep_main_v49 (W : Valuation τ sig (Elt Ideal)) : after s10 W (main_v49 : DevRef τ sig) = W (main_v49 : DevRef τ sig) := by
  after_results_simp
theorem val10_main_v49 (V : Valuation τ sig (Elt Ideal)) : val10 V (main_v49 : DevRef τ sig) = eluHost bcast_S_S100000x128 (addf (Host.dotGeneral (F := Ideal) (φ₁ := .f32) (φ₂ := .f32) dot_S100000x64_S64x128_S100000x128_1_0_0_1_n_n none (Host.divf (F := Ideal) (segSum (V (main_arg0 : DevRef τ sig)) (dstRow (V (main_arg1 : DevRef τ sig))) (srcRow (V (main_arg1 : DevRef τ sig)))) (broadcastInDim S100000x64 ![0, 1] bcast_S100000x1_S100000x64_0_1 (maximumf (segCnt (srcRow (V (main_arg1 : DevRef τ sig)))) (broadcastInDim S100000x1 ![] bcast_S_S100000x1 (constant (F := Ideal) S_ .f32 0x3F800000#32))))) (V (main_arg4 : DevRef τ sig))) (broadcastInDim S100000x128 ![0, 1] bcast_S1x128_S100000x128_0_1 (broadcastInDim S1x128 ![1] bcast_S128_S1x128_1 (V (main_arg5 : DevRef τ sig))))) :=
  (s10_keep_main_v49 (val9 V)).trans (val9_main_v49 V)
theorem s10_keep_main_arg0 (W : Valuation τ sig (Elt Ideal)) : after s10 W (main_arg0 : DevRef τ sig) = W (main_arg0 : DevRef τ sig) := by
  after_results_simp
theorem val10_main_arg0 (V : Valuation τ sig (Elt Ideal)) : val10 V (main_arg0 : DevRef τ sig) = (V (main_arg0 : DevRef τ sig)) :=
  (s10_keep_main_arg0 (val9 V)).trans (val9_main_arg0 V)
theorem s10_keep_main_arg1 (W : Valuation τ sig (Elt Ideal)) : after s10 W (main_arg1 : DevRef τ sig) = W (main_arg1 : DevRef τ sig) := by
  after_results_simp
theorem val10_main_arg1 (V : Valuation τ sig (Elt Ideal)) : val10 V (main_arg1 : DevRef τ sig) = (V (main_arg1 : DevRef τ sig)) :=
  (s10_keep_main_arg1 (val9 V)).trans (val9_main_arg1 V)
theorem s10_keep_main_arg2 (W : Valuation τ sig (Elt Ideal)) : after s10 W (main_arg2 : DevRef τ sig) = W (main_arg2 : DevRef τ sig) := by
  after_results_simp
theorem val10_main_arg2 (V : Valuation τ sig (Elt Ideal)) : val10 V (main_arg2 : DevRef τ sig) = (V (main_arg2 : DevRef τ sig)) :=
  (s10_keep_main_arg2 (val9 V)).trans (val9_main_arg2 V)
theorem s10_keep_main_arg3 (W : Valuation τ sig (Elt Ideal)) : after s10 W (main_arg3 : DevRef τ sig) = W (main_arg3 : DevRef τ sig) := by
  after_results_simp
theorem val10_main_arg3 (V : Valuation τ sig (Elt Ideal)) : val10 V (main_arg3 : DevRef τ sig) = (V (main_arg3 : DevRef τ sig)) :=
  (s10_keep_main_arg3 (val9 V)).trans (val9_main_arg3 V)
theorem s10_keep_main_arg4 (W : Valuation τ sig (Elt Ideal)) : after s10 W (main_arg4 : DevRef τ sig) = W (main_arg4 : DevRef τ sig) := by
  after_results_simp
theorem val10_main_arg4 (V : Valuation τ sig (Elt Ideal)) : val10 V (main_arg4 : DevRef τ sig) = (V (main_arg4 : DevRef τ sig)) :=
  (s10_keep_main_arg4 (val9 V)).trans (val9_main_arg4 V)
theorem s10_keep_main_arg5 (W : Valuation τ sig (Elt Ideal)) : after s10 W (main_arg5 : DevRef τ sig) = W (main_arg5 : DevRef τ sig) := by
  after_results_simp
theorem val10_main_arg5 (V : Valuation τ sig (Elt Ideal)) : val10 V (main_arg5 : DevRef τ sig) = (V (main_arg5 : DevRef τ sig)) :=
  (s10_keep_main_arg5 (val9 V)).trans (val9_main_arg5 V)
theorem s10_keep_main_arg6 (W : Valuation τ sig (Elt Ideal)) : after s10 W (main_arg6 : DevRef τ sig) = W (main_arg6 : DevRef τ sig) := by
  after_results_simp
theorem val10_main_arg6 (V : Valuation τ sig (Elt Ideal)) : val10 V (main_arg6 : DevRef τ sig) = (V (main_arg6 : DevRef τ sig)) :=
  (s10_keep_main_arg6 (val9 V)).trans (val9_main_arg6 V)
theorem s10_keep_main_arg7 (W : Valuation τ sig (Elt Ideal)) : after s10 W (main_arg7 : DevRef τ sig) = W (main_arg7 : DevRef τ sig) := by
  after_results_simp
theorem val10_main_arg7 (V : Valuation τ sig (Elt Ideal)) : val10 V (main_arg7 : DevRef τ sig) = (V (main_arg7 : DevRef τ sig)) :=
  (s10_keep_main_arg7 (val9 V)).trans (val9_main_arg7 V)
theorem s10_keep_main_arg8 (W : Valuation τ sig (Elt Ideal)) : after s10 W (main_arg8 : DevRef τ sig) = W (main_arg8 : DevRef τ sig) := by
  after_results_simp
theorem val10_main_arg8 (V : Valuation τ sig (Elt Ideal)) : val10 V (main_arg8 : DevRef τ sig) = (V (main_arg8 : DevRef τ sig)) :=
  (s10_keep_main_arg8 (val9 V)).trans (val9_main_arg8 V)
theorem s10_keep_main_arg9 (W : Valuation τ sig (Elt Ideal)) : after s10 W (main_arg9 : DevRef τ sig) = W (main_arg9 : DevRef τ sig) := by
  after_results_simp
theorem val10_main_arg9 (V : Valuation τ sig (Elt Ideal)) : val10 V (main_arg9 : DevRef τ sig) = (V (main_arg9 : DevRef τ sig)) :=
  (s10_keep_main_arg9 (val9 V)).trans (val9_main_arg9 V)
theorem val10_main_v53 (V : Valuation τ sig (Elt Ideal)) : val10 V (main_v53 : DevRef τ sig) = addf (Host.dotGeneral (F := Ideal) (φ₁ := .f32) (φ₂ := .f32) dot_S100000x64_S64x512_S100000x512_1_0_0_1_n_n none (V (main_arg0 : DevRef τ sig)) (V (main_arg6 : DevRef τ sig))) (broadcastInDim S100000x512 ![0, 1] bcast_S1x512_S100000x512_0_1 (broadcastInDim S1x512 ![1] bcast_S512_S1x512_1 (V (main_arg7 : DevRef τ sig)))) :=
  (s10_main_v53 (val9 V)).trans (by rw [val9_main_arg0 V, val9_main_arg6 V, val9_main_arg7 V])

/-- The contents after the first 11 stages. -/
def val11 (V : Valuation τ sig (Elt Ideal)) : Valuation τ sig (Elt Ideal) := after s11 (val10 V)
theorem s11_keep_main_v26 (W : Valuation τ sig (Elt Ideal)) : after s11 W (main_v26 : DevRef τ sig) = W (main_v26 : DevRef τ sig) := by
  after_results_simp
theorem val11_main_v26 (V : Valuation τ sig (Elt Ideal)) : val11 V (main_v26 : DevRef τ sig) = eluHost bcast_S_S100000x128 (addf (Host.dotGeneral (F := Ideal) (φ₁ := .f32) (φ₂ := .f32) dot_S100000x64_S64x128_S100000x128_1_0_0_1_n_n none (Host.divf (F := Ideal) (segSum (V (main_arg0 : DevRef τ sig)) (srcRow (V (main_arg1 : DevRef τ sig))) (dstRow (V (main_arg1 : DevRef τ sig)))) (broadcastInDim S100000x64 ![0, 1] bcast_S100000x1_S100000x64_0_1 (maximumf (segCnt (dstRow (V (main_arg1 : DevRef τ sig)))) (broadcastInDim S100000x1 ![] bcast_S_S100000x1 (constant (F := Ideal) S_ .f32 0x3F800000#32))))) (V (main_arg2 : DevRef τ sig))) (broadcastInDim S100000x128 ![0, 1] bcast_S1x128_S100000x128_0_1 (broadcastInDim S1x128 ![1] bcast_S128_S1x128_1 (V (main_arg3 : DevRef τ sig))))) :=
  (s11_keep_main_v26 (val10 V)).trans (val10_main_v26 V)
theorem s11_keep_main_v49 (W : Valuation τ sig (Elt Ideal)) : after s11 W (main_v49 : DevRef τ sig) = W (main_v49 : DevRef τ sig) := by
  after_results_simp
theorem val11_main_v49 (V : Valuation τ sig (Elt Ideal)) : val11 V (main_v49 : DevRef τ sig) = eluHost bcast_S_S100000x128 (addf (Host.dotGeneral (F := Ideal) (φ₁ := .f32) (φ₂ := .f32) dot_S100000x64_S64x128_S100000x128_1_0_0_1_n_n none (Host.divf (F := Ideal) (segSum (V (main_arg0 : DevRef τ sig)) (dstRow (V (main_arg1 : DevRef τ sig))) (srcRow (V (main_arg1 : DevRef τ sig)))) (broadcastInDim S100000x64 ![0, 1] bcast_S100000x1_S100000x64_0_1 (maximumf (segCnt (srcRow (V (main_arg1 : DevRef τ sig)))) (broadcastInDim S100000x1 ![] bcast_S_S100000x1 (constant (F := Ideal) S_ .f32 0x3F800000#32))))) (V (main_arg4 : DevRef τ sig))) (broadcastInDim S100000x128 ![0, 1] bcast_S1x128_S100000x128_0_1 (broadcastInDim S1x128 ![1] bcast_S128_S1x128_1 (V (main_arg5 : DevRef τ sig))))) :=
  (s11_keep_main_v49 (val10 V)).trans (val10_main_v49 V)
theorem s11_keep_main_arg0 (W : Valuation τ sig (Elt Ideal)) : after s11 W (main_arg0 : DevRef τ sig) = W (main_arg0 : DevRef τ sig) := by
  after_results_simp
theorem val11_main_arg0 (V : Valuation τ sig (Elt Ideal)) : val11 V (main_arg0 : DevRef τ sig) = (V (main_arg0 : DevRef τ sig)) :=
  (s11_keep_main_arg0 (val10 V)).trans (val10_main_arg0 V)
theorem s11_keep_main_arg1 (W : Valuation τ sig (Elt Ideal)) : after s11 W (main_arg1 : DevRef τ sig) = W (main_arg1 : DevRef τ sig) := by
  after_results_simp
theorem val11_main_arg1 (V : Valuation τ sig (Elt Ideal)) : val11 V (main_arg1 : DevRef τ sig) = (V (main_arg1 : DevRef τ sig)) :=
  (s11_keep_main_arg1 (val10 V)).trans (val10_main_arg1 V)
theorem s11_keep_main_arg2 (W : Valuation τ sig (Elt Ideal)) : after s11 W (main_arg2 : DevRef τ sig) = W (main_arg2 : DevRef τ sig) := by
  after_results_simp
theorem val11_main_arg2 (V : Valuation τ sig (Elt Ideal)) : val11 V (main_arg2 : DevRef τ sig) = (V (main_arg2 : DevRef τ sig)) :=
  (s11_keep_main_arg2 (val10 V)).trans (val10_main_arg2 V)
theorem s11_keep_main_arg3 (W : Valuation τ sig (Elt Ideal)) : after s11 W (main_arg3 : DevRef τ sig) = W (main_arg3 : DevRef τ sig) := by
  after_results_simp
theorem val11_main_arg3 (V : Valuation τ sig (Elt Ideal)) : val11 V (main_arg3 : DevRef τ sig) = (V (main_arg3 : DevRef τ sig)) :=
  (s11_keep_main_arg3 (val10 V)).trans (val10_main_arg3 V)
theorem s11_keep_main_arg4 (W : Valuation τ sig (Elt Ideal)) : after s11 W (main_arg4 : DevRef τ sig) = W (main_arg4 : DevRef τ sig) := by
  after_results_simp
theorem val11_main_arg4 (V : Valuation τ sig (Elt Ideal)) : val11 V (main_arg4 : DevRef τ sig) = (V (main_arg4 : DevRef τ sig)) :=
  (s11_keep_main_arg4 (val10 V)).trans (val10_main_arg4 V)
theorem s11_keep_main_arg5 (W : Valuation τ sig (Elt Ideal)) : after s11 W (main_arg5 : DevRef τ sig) = W (main_arg5 : DevRef τ sig) := by
  after_results_simp
theorem val11_main_arg5 (V : Valuation τ sig (Elt Ideal)) : val11 V (main_arg5 : DevRef τ sig) = (V (main_arg5 : DevRef τ sig)) :=
  (s11_keep_main_arg5 (val10 V)).trans (val10_main_arg5 V)
theorem s11_keep_main_arg6 (W : Valuation τ sig (Elt Ideal)) : after s11 W (main_arg6 : DevRef τ sig) = W (main_arg6 : DevRef τ sig) := by
  after_results_simp
theorem val11_main_arg6 (V : Valuation τ sig (Elt Ideal)) : val11 V (main_arg6 : DevRef τ sig) = (V (main_arg6 : DevRef τ sig)) :=
  (s11_keep_main_arg6 (val10 V)).trans (val10_main_arg6 V)
theorem s11_keep_main_arg7 (W : Valuation τ sig (Elt Ideal)) : after s11 W (main_arg7 : DevRef τ sig) = W (main_arg7 : DevRef τ sig) := by
  after_results_simp
theorem val11_main_arg7 (V : Valuation τ sig (Elt Ideal)) : val11 V (main_arg7 : DevRef τ sig) = (V (main_arg7 : DevRef τ sig)) :=
  (s11_keep_main_arg7 (val10 V)).trans (val10_main_arg7 V)
theorem s11_keep_main_arg8 (W : Valuation τ sig (Elt Ideal)) : after s11 W (main_arg8 : DevRef τ sig) = W (main_arg8 : DevRef τ sig) := by
  after_results_simp
theorem val11_main_arg8 (V : Valuation τ sig (Elt Ideal)) : val11 V (main_arg8 : DevRef τ sig) = (V (main_arg8 : DevRef τ sig)) :=
  (s11_keep_main_arg8 (val10 V)).trans (val10_main_arg8 V)
theorem s11_keep_main_arg9 (W : Valuation τ sig (Elt Ideal)) : after s11 W (main_arg9 : DevRef τ sig) = W (main_arg9 : DevRef τ sig) := by
  after_results_simp
theorem val11_main_arg9 (V : Valuation τ sig (Elt Ideal)) : val11 V (main_arg9 : DevRef τ sig) = (V (main_arg9 : DevRef τ sig)) :=
  (s11_keep_main_arg9 (val10 V)).trans (val10_main_arg9 V)
theorem val11_main_v54 (V : Valuation τ sig (Elt Ideal)) : val11 V (main_v54 : DevRef τ sig) = eluHost bcast_S_S100000x512 (addf (Host.dotGeneral (F := Ideal) (φ₁ := .f32) (φ₂ := .f32) dot_S100000x64_S64x512_S100000x512_1_0_0_1_n_n none (V (main_arg0 : DevRef τ sig)) (V (main_arg6 : DevRef τ sig))) (broadcastInDim S100000x512 ![0, 1] bcast_S1x512_S100000x512_0_1 (broadcastInDim S1x512 ![1] bcast_S512_S1x512_1 (V (main_arg7 : DevRef τ sig))))) :=
  (s11_main_v54 (val10 V)).trans (by rw [val10_main_v53 V])

/-- The contents after the first 12 stages. -/
def val12 (V : Valuation τ sig (Elt Ideal)) : Valuation τ sig (Elt Ideal) := after s12 (val11 V)
theorem s12_keep_main_v26 (W : Valuation τ sig (Elt Ideal)) : after s12 W (main_v26 : DevRef τ sig) = W (main_v26 : DevRef τ sig) := by
  after_results_simp
theorem val12_main_v26 (V : Valuation τ sig (Elt Ideal)) : val12 V (main_v26 : DevRef τ sig) = eluHost bcast_S_S100000x128 (addf (Host.dotGeneral (F := Ideal) (φ₁ := .f32) (φ₂ := .f32) dot_S100000x64_S64x128_S100000x128_1_0_0_1_n_n none (Host.divf (F := Ideal) (segSum (V (main_arg0 : DevRef τ sig)) (srcRow (V (main_arg1 : DevRef τ sig))) (dstRow (V (main_arg1 : DevRef τ sig)))) (broadcastInDim S100000x64 ![0, 1] bcast_S100000x1_S100000x64_0_1 (maximumf (segCnt (dstRow (V (main_arg1 : DevRef τ sig)))) (broadcastInDim S100000x1 ![] bcast_S_S100000x1 (constant (F := Ideal) S_ .f32 0x3F800000#32))))) (V (main_arg2 : DevRef τ sig))) (broadcastInDim S100000x128 ![0, 1] bcast_S1x128_S100000x128_0_1 (broadcastInDim S1x128 ![1] bcast_S128_S1x128_1 (V (main_arg3 : DevRef τ sig))))) :=
  (s12_keep_main_v26 (val11 V)).trans (val11_main_v26 V)
theorem s12_keep_main_v49 (W : Valuation τ sig (Elt Ideal)) : after s12 W (main_v49 : DevRef τ sig) = W (main_v49 : DevRef τ sig) := by
  after_results_simp
theorem val12_main_v49 (V : Valuation τ sig (Elt Ideal)) : val12 V (main_v49 : DevRef τ sig) = eluHost bcast_S_S100000x128 (addf (Host.dotGeneral (F := Ideal) (φ₁ := .f32) (φ₂ := .f32) dot_S100000x64_S64x128_S100000x128_1_0_0_1_n_n none (Host.divf (F := Ideal) (segSum (V (main_arg0 : DevRef τ sig)) (dstRow (V (main_arg1 : DevRef τ sig))) (srcRow (V (main_arg1 : DevRef τ sig)))) (broadcastInDim S100000x64 ![0, 1] bcast_S100000x1_S100000x64_0_1 (maximumf (segCnt (srcRow (V (main_arg1 : DevRef τ sig)))) (broadcastInDim S100000x1 ![] bcast_S_S100000x1 (constant (F := Ideal) S_ .f32 0x3F800000#32))))) (V (main_arg4 : DevRef τ sig))) (broadcastInDim S100000x128 ![0, 1] bcast_S1x128_S100000x128_0_1 (broadcastInDim S1x128 ![1] bcast_S128_S1x128_1 (V (main_arg5 : DevRef τ sig))))) :=
  (s12_keep_main_v49 (val11 V)).trans (val11_main_v49 V)
theorem s12_keep_main_arg0 (W : Valuation τ sig (Elt Ideal)) : after s12 W (main_arg0 : DevRef τ sig) = W (main_arg0 : DevRef τ sig) := by
  after_results_simp
theorem val12_main_arg0 (V : Valuation τ sig (Elt Ideal)) : val12 V (main_arg0 : DevRef τ sig) = (V (main_arg0 : DevRef τ sig)) :=
  (s12_keep_main_arg0 (val11 V)).trans (val11_main_arg0 V)
theorem s12_keep_main_arg1 (W : Valuation τ sig (Elt Ideal)) : after s12 W (main_arg1 : DevRef τ sig) = W (main_arg1 : DevRef τ sig) := by
  after_results_simp
theorem val12_main_arg1 (V : Valuation τ sig (Elt Ideal)) : val12 V (main_arg1 : DevRef τ sig) = (V (main_arg1 : DevRef τ sig)) :=
  (s12_keep_main_arg1 (val11 V)).trans (val11_main_arg1 V)
theorem s12_keep_main_arg2 (W : Valuation τ sig (Elt Ideal)) : after s12 W (main_arg2 : DevRef τ sig) = W (main_arg2 : DevRef τ sig) := by
  after_results_simp
theorem val12_main_arg2 (V : Valuation τ sig (Elt Ideal)) : val12 V (main_arg2 : DevRef τ sig) = (V (main_arg2 : DevRef τ sig)) :=
  (s12_keep_main_arg2 (val11 V)).trans (val11_main_arg2 V)
theorem s12_keep_main_arg3 (W : Valuation τ sig (Elt Ideal)) : after s12 W (main_arg3 : DevRef τ sig) = W (main_arg3 : DevRef τ sig) := by
  after_results_simp
theorem val12_main_arg3 (V : Valuation τ sig (Elt Ideal)) : val12 V (main_arg3 : DevRef τ sig) = (V (main_arg3 : DevRef τ sig)) :=
  (s12_keep_main_arg3 (val11 V)).trans (val11_main_arg3 V)
theorem s12_keep_main_arg4 (W : Valuation τ sig (Elt Ideal)) : after s12 W (main_arg4 : DevRef τ sig) = W (main_arg4 : DevRef τ sig) := by
  after_results_simp
theorem val12_main_arg4 (V : Valuation τ sig (Elt Ideal)) : val12 V (main_arg4 : DevRef τ sig) = (V (main_arg4 : DevRef τ sig)) :=
  (s12_keep_main_arg4 (val11 V)).trans (val11_main_arg4 V)
theorem s12_keep_main_arg5 (W : Valuation τ sig (Elt Ideal)) : after s12 W (main_arg5 : DevRef τ sig) = W (main_arg5 : DevRef τ sig) := by
  after_results_simp
theorem val12_main_arg5 (V : Valuation τ sig (Elt Ideal)) : val12 V (main_arg5 : DevRef τ sig) = (V (main_arg5 : DevRef τ sig)) :=
  (s12_keep_main_arg5 (val11 V)).trans (val11_main_arg5 V)
theorem s12_keep_main_arg6 (W : Valuation τ sig (Elt Ideal)) : after s12 W (main_arg6 : DevRef τ sig) = W (main_arg6 : DevRef τ sig) := by
  after_results_simp
theorem val12_main_arg6 (V : Valuation τ sig (Elt Ideal)) : val12 V (main_arg6 : DevRef τ sig) = (V (main_arg6 : DevRef τ sig)) :=
  (s12_keep_main_arg6 (val11 V)).trans (val11_main_arg6 V)
theorem s12_keep_main_arg7 (W : Valuation τ sig (Elt Ideal)) : after s12 W (main_arg7 : DevRef τ sig) = W (main_arg7 : DevRef τ sig) := by
  after_results_simp
theorem val12_main_arg7 (V : Valuation τ sig (Elt Ideal)) : val12 V (main_arg7 : DevRef τ sig) = (V (main_arg7 : DevRef τ sig)) :=
  (s12_keep_main_arg7 (val11 V)).trans (val11_main_arg7 V)
theorem s12_keep_main_arg8 (W : Valuation τ sig (Elt Ideal)) : after s12 W (main_arg8 : DevRef τ sig) = W (main_arg8 : DevRef τ sig) := by
  after_results_simp
theorem val12_main_arg8 (V : Valuation τ sig (Elt Ideal)) : val12 V (main_arg8 : DevRef τ sig) = (V (main_arg8 : DevRef τ sig)) :=
  (s12_keep_main_arg8 (val11 V)).trans (val11_main_arg8 V)
theorem s12_keep_main_arg9 (W : Valuation τ sig (Elt Ideal)) : after s12 W (main_arg9 : DevRef τ sig) = W (main_arg9 : DevRef τ sig) := by
  after_results_simp
theorem val12_main_arg9 (V : Valuation τ sig (Elt Ideal)) : val12 V (main_arg9 : DevRef τ sig) = (V (main_arg9 : DevRef τ sig)) :=
  (s12_keep_main_arg9 (val11 V)).trans (val11_main_arg9 V)
theorem val12_main_v58 (V : Valuation τ sig (Elt Ideal)) : val12 V (main_v58 : DevRef τ sig) = addf (Host.dotGeneral (F := Ideal) (φ₁ := .f32) (φ₂ := .f32) dot_S100000x512_S512x128_S100000x128_1_0_0_1_n_n none (eluHost bcast_S_S100000x512 (addf (Host.dotGeneral (F := Ideal) (φ₁ := .f32) (φ₂ := .f32) dot_S100000x64_S64x512_S100000x512_1_0_0_1_n_n none (V (main_arg0 : DevRef τ sig)) (V (main_arg6 : DevRef τ sig))) (broadcastInDim S100000x512 ![0, 1] bcast_S1x512_S100000x512_0_1 (broadcastInDim S1x512 ![1] bcast_S512_S1x512_1 (V (main_arg7 : DevRef τ sig)))))) (V (main_arg8 : DevRef τ sig))) (broadcastInDim S100000x128 ![0, 1] bcast_S1x128_S100000x128_0_1 (broadcastInDim S1x128 ![1] bcast_S128_S1x128_1 (V (main_arg9 : DevRef τ sig)))) :=
  (s12_main_v58 (val11 V)).trans (by rw [val11_main_v54 V, val11_main_arg8 V, val11_main_arg9 V])

/-- The contents after the first 13 stages. -/
def val13 (V : Valuation τ sig (Elt Ideal)) : Valuation τ sig (Elt Ideal) := after s13 (val12 V)
theorem s13_keep_main_v26 (W : Valuation τ sig (Elt Ideal)) : after s13 W (main_v26 : DevRef τ sig) = W (main_v26 : DevRef τ sig) := by
  after_results_simp
theorem val13_main_v26 (V : Valuation τ sig (Elt Ideal)) : val13 V (main_v26 : DevRef τ sig) = eluHost bcast_S_S100000x128 (addf (Host.dotGeneral (F := Ideal) (φ₁ := .f32) (φ₂ := .f32) dot_S100000x64_S64x128_S100000x128_1_0_0_1_n_n none (Host.divf (F := Ideal) (segSum (V (main_arg0 : DevRef τ sig)) (srcRow (V (main_arg1 : DevRef τ sig))) (dstRow (V (main_arg1 : DevRef τ sig)))) (broadcastInDim S100000x64 ![0, 1] bcast_S100000x1_S100000x64_0_1 (maximumf (segCnt (dstRow (V (main_arg1 : DevRef τ sig)))) (broadcastInDim S100000x1 ![] bcast_S_S100000x1 (constant (F := Ideal) S_ .f32 0x3F800000#32))))) (V (main_arg2 : DevRef τ sig))) (broadcastInDim S100000x128 ![0, 1] bcast_S1x128_S100000x128_0_1 (broadcastInDim S1x128 ![1] bcast_S128_S1x128_1 (V (main_arg3 : DevRef τ sig))))) :=
  (s13_keep_main_v26 (val12 V)).trans (val12_main_v26 V)
theorem s13_keep_main_v49 (W : Valuation τ sig (Elt Ideal)) : after s13 W (main_v49 : DevRef τ sig) = W (main_v49 : DevRef τ sig) := by
  after_results_simp
theorem val13_main_v49 (V : Valuation τ sig (Elt Ideal)) : val13 V (main_v49 : DevRef τ sig) = eluHost bcast_S_S100000x128 (addf (Host.dotGeneral (F := Ideal) (φ₁ := .f32) (φ₂ := .f32) dot_S100000x64_S64x128_S100000x128_1_0_0_1_n_n none (Host.divf (F := Ideal) (segSum (V (main_arg0 : DevRef τ sig)) (dstRow (V (main_arg1 : DevRef τ sig))) (srcRow (V (main_arg1 : DevRef τ sig)))) (broadcastInDim S100000x64 ![0, 1] bcast_S100000x1_S100000x64_0_1 (maximumf (segCnt (srcRow (V (main_arg1 : DevRef τ sig)))) (broadcastInDim S100000x1 ![] bcast_S_S100000x1 (constant (F := Ideal) S_ .f32 0x3F800000#32))))) (V (main_arg4 : DevRef τ sig))) (broadcastInDim S100000x128 ![0, 1] bcast_S1x128_S100000x128_0_1 (broadcastInDim S1x128 ![1] bcast_S128_S1x128_1 (V (main_arg5 : DevRef τ sig))))) :=
  (s13_keep_main_v49 (val12 V)).trans (val12_main_v49 V)
theorem val13_main_v59 (V : Valuation τ sig (Elt Ideal)) : val13 V (main_v59 : DevRef τ sig) = eluHost bcast_S_S100000x128 (addf (Host.dotGeneral (F := Ideal) (φ₁ := .f32) (φ₂ := .f32) dot_S100000x512_S512x128_S100000x128_1_0_0_1_n_n none (eluHost bcast_S_S100000x512 (addf (Host.dotGeneral (F := Ideal) (φ₁ := .f32) (φ₂ := .f32) dot_S100000x64_S64x512_S100000x512_1_0_0_1_n_n none (V (main_arg0 : DevRef τ sig)) (V (main_arg6 : DevRef τ sig))) (broadcastInDim S100000x512 ![0, 1] bcast_S1x512_S100000x512_0_1 (broadcastInDim S1x512 ![1] bcast_S512_S1x512_1 (V (main_arg7 : DevRef τ sig)))))) (V (main_arg8 : DevRef τ sig))) (broadcastInDim S100000x128 ![0, 1] bcast_S1x128_S100000x128_0_1 (broadcastInDim S1x128 ![1] bcast_S128_S1x128_1 (V (main_arg9 : DevRef τ sig))))) :=
  (s13_main_v59 (val12 V)).trans (by rw [val12_main_v58 V])
theorem s13_keep_main_arg0 (W : Valuation τ sig (Elt Ideal)) : after s13 W (main_arg0 : DevRef τ sig) = W (main_arg0 : DevRef τ sig) := by
  after_results_simp
theorem val13_main_arg0 (V : Valuation τ sig (Elt Ideal)) : val13 V (main_arg0 : DevRef τ sig) = (V (main_arg0 : DevRef τ sig)) :=
  (s13_keep_main_arg0 (val12 V)).trans (val12_main_arg0 V)
theorem s13_keep_main_arg1 (W : Valuation τ sig (Elt Ideal)) : after s13 W (main_arg1 : DevRef τ sig) = W (main_arg1 : DevRef τ sig) := by
  after_results_simp
theorem val13_main_arg1 (V : Valuation τ sig (Elt Ideal)) : val13 V (main_arg1 : DevRef τ sig) = (V (main_arg1 : DevRef τ sig)) :=
  (s13_keep_main_arg1 (val12 V)).trans (val12_main_arg1 V)
theorem s13_keep_main_arg2 (W : Valuation τ sig (Elt Ideal)) : after s13 W (main_arg2 : DevRef τ sig) = W (main_arg2 : DevRef τ sig) := by
  after_results_simp
theorem val13_main_arg2 (V : Valuation τ sig (Elt Ideal)) : val13 V (main_arg2 : DevRef τ sig) = (V (main_arg2 : DevRef τ sig)) :=
  (s13_keep_main_arg2 (val12 V)).trans (val12_main_arg2 V)
theorem s13_keep_main_arg3 (W : Valuation τ sig (Elt Ideal)) : after s13 W (main_arg3 : DevRef τ sig) = W (main_arg3 : DevRef τ sig) := by
  after_results_simp
theorem val13_main_arg3 (V : Valuation τ sig (Elt Ideal)) : val13 V (main_arg3 : DevRef τ sig) = (V (main_arg3 : DevRef τ sig)) :=
  (s13_keep_main_arg3 (val12 V)).trans (val12_main_arg3 V)
theorem s13_keep_main_arg4 (W : Valuation τ sig (Elt Ideal)) : after s13 W (main_arg4 : DevRef τ sig) = W (main_arg4 : DevRef τ sig) := by
  after_results_simp
theorem val13_main_arg4 (V : Valuation τ sig (Elt Ideal)) : val13 V (main_arg4 : DevRef τ sig) = (V (main_arg4 : DevRef τ sig)) :=
  (s13_keep_main_arg4 (val12 V)).trans (val12_main_arg4 V)
theorem s13_keep_main_arg5 (W : Valuation τ sig (Elt Ideal)) : after s13 W (main_arg5 : DevRef τ sig) = W (main_arg5 : DevRef τ sig) := by
  after_results_simp
theorem val13_main_arg5 (V : Valuation τ sig (Elt Ideal)) : val13 V (main_arg5 : DevRef τ sig) = (V (main_arg5 : DevRef τ sig)) :=
  (s13_keep_main_arg5 (val12 V)).trans (val12_main_arg5 V)
theorem s13_keep_main_arg6 (W : Valuation τ sig (Elt Ideal)) : after s13 W (main_arg6 : DevRef τ sig) = W (main_arg6 : DevRef τ sig) := by
  after_results_simp
theorem val13_main_arg6 (V : Valuation τ sig (Elt Ideal)) : val13 V (main_arg6 : DevRef τ sig) = (V (main_arg6 : DevRef τ sig)) :=
  (s13_keep_main_arg6 (val12 V)).trans (val12_main_arg6 V)
theorem s13_keep_main_arg7 (W : Valuation τ sig (Elt Ideal)) : after s13 W (main_arg7 : DevRef τ sig) = W (main_arg7 : DevRef τ sig) := by
  after_results_simp
theorem val13_main_arg7 (V : Valuation τ sig (Elt Ideal)) : val13 V (main_arg7 : DevRef τ sig) = (V (main_arg7 : DevRef τ sig)) :=
  (s13_keep_main_arg7 (val12 V)).trans (val12_main_arg7 V)
theorem s13_keep_main_arg8 (W : Valuation τ sig (Elt Ideal)) : after s13 W (main_arg8 : DevRef τ sig) = W (main_arg8 : DevRef τ sig) := by
  after_results_simp
theorem val13_main_arg8 (V : Valuation τ sig (Elt Ideal)) : val13 V (main_arg8 : DevRef τ sig) = (V (main_arg8 : DevRef τ sig)) :=
  (s13_keep_main_arg8 (val12 V)).trans (val12_main_arg8 V)
theorem s13_keep_main_arg9 (W : Valuation τ sig (Elt Ideal)) : after s13 W (main_arg9 : DevRef τ sig) = W (main_arg9 : DevRef τ sig) := by
  after_results_simp
theorem val13_main_arg9 (V : Valuation τ sig (Elt Ideal)) : val13 V (main_arg9 : DevRef τ sig) = (V (main_arg9 : DevRef τ sig)) :=
  (s13_keep_main_arg9 (val12 V)).trans (val12_main_arg9 V)

set_option maxRecDepth 8192 in
/-- The fold over the whole line is the contents after the thirteenth stage. -/
theorem after_ops (V : Valuation τ sig (Elt Ideal)) : after ops V = val13 V := by
  show after (ops0 ++ ops1) V = _
  rw [ops0_split, ops1_split]
  simp only [after_app]
  rfl

end Cert.Sage.Ref

end
-- ==== Proof.RefValue.lean ====
/-
  The reference's three results as the specification's whole-array functions of the arguments.

  After the last stage the three result buffers hold the host's composed terms of the arguments. The mean's host
  spelling is `mean`, and a contraction plus a bias broadcast in two steps under the host's exponential linear unit is
  `lin`. So the first result is the layer of the mean aggregation at the targets, the second the layer of the mean
  aggregation at the sources, the third two stacked layers of the node features; and no operation writes an argument.
-/
import proofs.«177135_j28054726378292_2_alg».proof.Proof.RefVals

noncomputable section

namespace Cert.Sage.Ref

open Cert.ReferenceIdeal Cert.ReferenceIdeal.Gen Idealize.ShloMosaic Idealize.ShloMosaic.TcCoe Idealize.SL.Sem Idealize.ShloMosaic.StableHlo

/-- The first result: the layer of the mean aggregation of the source rows at the targets. -/
theorem v26_val (V : Valuation τ sig (Elt Ideal)) :
    after ops V (main_v26 : DevRef τ sig)
      = Cert.Sage.lin (Cert.Sage.mean (segSum (V (main_arg0 : DevRef τ sig)) (srcRow (V (main_arg1 : DevRef τ sig))) (dstRow (V (main_arg1 : DevRef τ sig)))) (segCnt (dstRow (V (main_arg1 : DevRef τ sig)))))
          (V (main_arg2 : DevRef τ sig)) (V (main_arg3 : DevRef τ sig)) := by
  rw [after_ops, val13_main_v26, mean_host_eq]
  exact lin_host_eq dot_S100000x64_S64x128_S100000x128_1_0_0_1_n_n rfl rfl rfl rfl rfl rfl _ _ _ _ _ _

/-- The second result: the layer of the mean aggregation of the target rows at the sources. -/
theorem v49_val (V : Valuation τ sig (Elt Ideal)) :
    after ops V (main_v49 : DevRef τ sig)
      = Cert.Sage.lin (Cert.Sage.mean (segSum (V (main_arg0 : DevRef τ sig)) (dstRow (V (main_arg1 : DevRef τ sig))) (srcRow (V (main_arg1 : DevRef τ sig)))) (segCnt (srcRow (V (main_arg1 : DevRef τ sig)))))
          (V (main_arg4 : DevRef τ sig)) (V (main_arg5 : DevRef τ sig)) := by
  rw [after_ops, val13_main_v49, mean_host_eq]
  exact lin_host_eq dot_S100000x64_S64x128_S100000x128_1_0_0_1_n_n rfl rfl rfl rfl rfl rfl _ _ _ _ _ _

/-- The third result: two stacked layers of the node features. -/
theorem v59_val (V : Valuation τ sig (Elt Ideal)) :
    after ops V (main_v59 : DevRef τ sig)
      = Cert.Sage.lin (Cert.Sage.lin (V (main_arg0 : DevRef τ sig)) (V (main_arg6 : DevRef τ sig)) (V (main_arg7 : DevRef τ sig))) (V (main_arg8 : DevRef τ sig)) (V (main_arg9 : DevRef τ sig)) := by
  rw [after_ops, val13_main_v59, lin_host_eq dot_S100000x64_S64x512_S100000x512_1_0_0_1_n_n rfl rfl rfl rfl rfl rfl]
  exact lin_host_eq dot_S100000x512_S512x128_S100000x128_1_0_0_1_n_n rfl rfl rfl rfl rfl rfl _ _ _ _ _ _

theorem arg0_val (V : Valuation τ sig (Elt Ideal)) : after ops V (main_arg0 : DevRef τ sig) = V (main_arg0 : DevRef τ sig) := by
  rw [after_ops, val13_main_arg0]
theorem arg1_val (V : Valuation τ sig (Elt Ideal)) : after ops V (main_arg1 : DevRef τ sig) = V (main_arg1 : DevRef τ sig) := by
  rw [after_ops, val13_main_arg1]
theorem arg2_val (V : Valuation τ sig (Elt Ideal)) : after ops V (main_arg2 : DevRef τ sig) = V (main_arg2 : DevRef τ sig) := by
  rw [after_ops, val13_main_arg2]
theorem arg3_val (V : Valuation τ sig (Elt Ideal)) : after ops V (main_arg3 : DevRef τ sig) = V (main_arg3 : DevRef τ sig) := by
  rw [after_ops, val13_main_arg3]
theorem arg4_val (V : Valuation τ sig (Elt Ideal)) : after ops V (main_arg4 : DevRef τ sig) = V (main_arg4 : DevRef τ sig) := by
  rw [after_ops, val13_main_arg4]
theorem arg5_val (V : Valuation τ sig (Elt Ideal)) : after ops V (main_arg5 : DevRef τ sig) = V (main_arg5 : DevRef τ sig) := by
  rw [after_ops, val13_main_arg5]
theorem arg6_val (V : Valuation τ sig (Elt Ideal)) : after ops V (main_arg6 : DevRef τ sig) = V (main_arg6 : DevRef τ sig) := by
  rw [after_ops, val13_main_arg6]
theorem arg7_val (V : Valuation τ sig (Elt Ideal)) : after ops V (main_arg7 : DevRef τ sig) = V (main_arg7 : DevRef τ sig) := by
  rw [after_ops, val13_main_arg7]
theorem arg8_val (V : Valuation τ sig (Elt Ideal)) : after ops V (main_arg8 : DevRef τ sig) = V (main_arg8 : DevRef τ sig) := by
  rw [after_ops, val13_main_arg8]
theorem arg9_val (V : Valuation τ sig (Elt Ideal)) : after ops V (main_arg9 : DevRef τ sig) = V (main_arg9 : DevRef τ sig) := by
  rw [after_ops, val13_main_arg9]

/-- From any memory with zero counters every weakly fair execution of the reference terminates with its three results at
    the specification's functions of the arguments' starting contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v26) = Cert.Sage.lin (Cert.Sage.mean (segSum (m ((c.tc : Thread nD τ).loc main_arg0)) (srcRow (m ((c.tc : Thread nD τ).loc main_arg1))) (dstRow (m ((c.tc : Thread nD τ).loc main_arg1)))) (segCnt (dstRow (m ((c.tc : Thread nD τ).loc main_arg1))))) (m ((c.tc : Thread nD τ).loc main_arg2)) (m ((c.tc : Thread nD τ).loc main_arg3))
      ∧ r.2.mem ((c.tc : Thread nD τ).loc main_v49) = Cert.Sage.lin (Cert.Sage.mean (segSum (m ((c.tc : Thread nD τ).loc main_arg0)) (dstRow (m ((c.tc : Thread nD τ).loc main_arg1))) (srcRow (m ((c.tc : Thread nD τ).loc main_arg1)))) (segCnt (srcRow (m ((c.tc : Thread nD τ).loc main_arg1))))) (m ((c.tc : Thread nD τ).loc main_arg4)) (m ((c.tc : Thread nD τ).loc main_arg5))
      ∧ r.2.mem ((c.tc : Thread nD τ).loc main_v59) = Cert.Sage.lin (Cert.Sage.lin (m ((c.tc : Thread nD τ).loc main_arg0)) (m ((c.tc : Thread nD τ).loc main_arg6)) (m ((c.tc : Thread nD τ).loc main_arg7))) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v26).trans (v26_val _), (h c main_v49).trans (v49_val _),
      (h c main_v59).trans (v59_val _),
      (h c main_arg0).trans (arg0_val _),
      (h c main_arg1).trans (arg1_val _),
      (h c main_arg2).trans (arg2_val _),
      (h c main_arg3).trans (arg3_val _),
      (h c main_arg4).trans (arg4_val _),
      (h c main_arg5).trans (arg5_val _),
      (h c main_arg6).trans (arg6_val _),
      (h c main_arg7).trans (arg7_val _),
      (h c main_arg8).trans (arg8_val _),
      (h c main_arg9).trans (arg9_val _)⟩)
    (run_main m ρ)

end Cert.Sage.Ref

end
-- ==== Proof.lean ====
/-
  The certificate of a graph layer with three branches against its jnp reference, at the exact extended reals.

  Both programs compute, from node features x, an edge list, and five weight matrices with their biases:
    x_in   = lin (mean (segment sum at the targets of the rows of x gathered at the sources) (in-degree)) W_in b_in,
    x_out  = lin (mean (segment sum at the sources of the rows of x gathered at the targets) (out-degree)) W_out b_out,
    x_self = lin (lin x W1 b1) W2 b2,
  where lin X W b = elu (X · W + b) entry by entry and mean divides each row by the larger of its count and one.
  The kernel program computes the sums, the counts and the reciprocals 1 / max (count, 1) with host operations, then runs
  three row-blocked regions: the first two multiply the sums by the reciprocal column before the layer, the third applies
  two layers; narrowing to bf16 is the identity on exact values, and elu is spelt select (y > 0) y (exp (min y 0) − 1). The
  reference divides the sums by max (count, 1) and spells elu through expm1. The divisor is at least one, hence never
  zero, so the quotient and the product with the reciprocal agree on every extended real; expm1 is exp − 1; and the host
  operations that produce the sums and the counts are the same in both programs. No finiteness of the inputs is used.
  The ideal pass rewrote nothing, so the kernel's idealization is its own text read at the exact instance.
-/
import proofs.«177135_j28054726378292_2_alg».proof.Defs
import proofs.«177135_j28054726378292_2_alg».proof.Proof.Gen.Kernel
import proofs.«177135_j28054726378292_2_alg».proof.Proof.Gen.Kernel.Frame
import proofs.«177135_j28054726378292_2_alg».proof.Proof.Gen.KernelIdeal
import proofs.«177135_j28054726378292_2_alg».proof.Proof.Gen.KernelIdeal.Frame
import proofs.«177135_j28054726378292_2_alg».proof.Proof.Gen.ReferenceIdeal
import proofs.«177135_j28054726378292_2_alg».proof.Proof.Gen.Pre_finite_inputs
import proofs.«177135_j28054726378292_2_alg».proof.Proof.KerRun
import proofs.«177135_j28054726378292_2_alg».proof.Proof.KerChain
import proofs.«177135_j28054726378292_2_alg».proof.Proof.RefValue

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference runs and leaves its arguments unchanged: its run with the results dropped. -/
theorem frame_reference : Cert.frame_ReferenceIdeal := fun m ρ _ =>
  (θ_run Cert.ReferenceIdeal.defs _ _).mono (fun _ h c => (h c).2.2.2) (Cert.Sage.Ref.run m ρ)

/-- The ideal pass rewrote no operation. -/
theorem preserves : Cert.preserves_Kernel_KernelIdeal := trivial

/-- The two programs apply the same host operations to the edge array and the features: the rows of the edge array, the
    segment sums and the segment counts are the same functions. -/
theorem srcRow_eq : Cert.Sage.Ref.srcRow = Cert.Sage.Ker.srcRow := rfl
theorem dstRow_eq : Cert.Sage.Ref.dstRow = Cert.Sage.Ker.dstRow := rfl
theorem segSum_eq : Cert.Sage.Ref.segSum = Cert.Sage.Ker.segSum := rfl
theorem segCnt_eq : Cert.Sage.Ref.segCnt = Cert.Sage.Ker.segCnt := rfl

/-- From memories that agree on the arguments both programs end with the three layer functions of the arguments. -/
theorem algebraic : Cert.algebraic_KernelIdeal_ReferenceIdeal := by
  intro m ρ m' ρ' _ hagree
  refine ⟨fun c => Cert.KernelIdeal.Gen.W6 m ρ c (Proc.devRef .tc Cert.KernelIdeal.main_v40),
    fun c => Cert.KernelIdeal.Gen.W6 m ρ c (Proc.devRef .tc Cert.KernelIdeal.main_v42),
    fun c => Cert.KernelIdeal.Gen.W6 m ρ c (Proc.devRef .tc Cert.KernelIdeal.main_v45),
    Cert.Sage.Ker.run_results m ρ, ?_⟩
  refine (θ_run Cert.ReferenceIdeal.defs _ _).mono (fun r h c => ?_) (Cert.Sage.Ref.run m' ρ')
  obtain ⟨h0, h1, h2, hargs⟩ := h c
  obtain ⟨a0, a1, a2, a3, a4, a5, a6, a7, a8, a9⟩ := hagree c
  refine ⟨h0.trans ?_, h1.trans ?_, h2.trans ?_, hargs⟩
  · rw [a0, a1, a2, a3, srcRow_eq, dstRow_eq, segSum_eq, segCnt_eq]
    exact (Cert.Sage.Ker.result0 m ρ c).symm
  · rw [a0, a1, a4, a5, srcRow_eq, dstRow_eq, segSum_eq, segCnt_eq]
    exact (Cert.Sage.Ker.result1 m ρ c).symm
  · rw [a0, a6, a7, a8, a9]
    exact (Cert.Sage.Ker.result2 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
